-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S16x4096 : Shape := ⟨2, ![16, 4096]⟩
abbrev S4096x16 : Shape := ⟨2, ![4096, 16]⟩
abbrev S32x4096 : Shape := ⟨2, ![32, 4096]⟩
abbrev S4096x32 : Shape := ⟨2, ![4096, 32]⟩
abbrev S3 : Shape := ⟨1, ![3]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S32x4096 : S_.BroadcastsInDim S32x4096 (![] : Fin 0 → Fin S32x4096.rank)
  reducesTo_S32x4096_S_d0_1 : S32x4096.ReducesTo [0, 1] S_
  bcast_S_S4096x32 : S_.BroadcastsInDim S4096x32 (![] : Fin 0 → Fin S4096x32.rank)
  reducesTo_S4096x32_S_d0_1 : S4096x32.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S4096x32 .f32) (main_arg8 : FVec F S3 .f32) (main_v33 : IVec S_ 1) : IVec S_ 1 :=
  let main_v34 : FVec F S4096x32 .f32 := Host.absf main_arg7
  let main_cst_12 : FVec F S_ .f32 := constant S_ .f32 0x7F800000#32
  let main_v35 : FVec F S4096x32 .f32 := broadcastInDim S4096x32 ![] bcast_S_S4096x32 main_cst_12
  let main_v36 : IVec S4096x32 1 := cmpf .olt main_v34 main_v35
  let main_c_13 : IVec S_ 1 := constantI S_ 1 1#1
  let main_v37 : IVec S_ 1 := (fun x v => Host.reduce IntOp.andi x v reducesTo_S4096x32_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg4 : FVec F S16x4096 .f32) (main_arg5 : FVec F S4096x16 .f32) (main_arg6 : FVec F S32x4096 .f32) (main_arg7 : FVec F S4096x32 .f32) (main_arg8 : FVec F S3 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S4096x16 .f32 := Host.absf main_arg5
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  let main_v29 : FVec F S32x4096 .f32 := Host.absf main_arg6
  let main_cst_10 : FVec F S_ .f32 := constant S_ .f32 0x7F800000#32
  let main_v30 : FVec F S32x4096 .f32 := broadcastInDim S32x4096 ![] bcast_S_S32x4096 main_cst_10
  let main_v31 : IVec S32x4096 1 := cmpf .olt main_v29 main_v30
  let main_c_11 : IVec S_ 1 := constantI S_ 1 1#1
  let main_v32 : IVec S_ 1 := (fun x v => Host.reduce IntOp.andi x v reducesTo_S32x4096_S_d0_1 h_S_) main_v31 main_c_11
  let main_v33 : IVec S_ 1 := andi main_v28 main_v32
  fn_part2 (F := F) main_arg7 main_arg8 main_v33

def fn {F : FTy → Type} [FloatOps F] (main_arg0 : FVec F S4x2048x4096 .f32) (main_arg1 : FVec F S4096x4096 .f32) (main_arg2 : FVec F S8x4096 .f32) (main_arg3 : FVec F S4096x8 .f32) (main_arg4 : FVec F S16x4096 .f32) (main_arg5 : FVec F S4096x16 .f32) (main_arg6 : FVec F S32x4096 .f32) (main_arg7 : FVec F S4096x32 .f32) (main_arg8 : FVec F S3 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_arg5 main_arg6 main_arg7 main_arg8 main_v13 main_v16
-- ==== Kernel.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S16x4096 : Shape := ⟨2, ![16, 4096]⟩
abbrev S4096x16 : Shape := ⟨2, ![4096, 16]⟩
abbrev S32x4096 : Shape := ⟨2, ![32, 4096]⟩
abbrev S4096x32 : Shape := ⟨2, ![4096, 32]⟩
abbrev S3 : Shape := ⟨1, ![3]⟩
abbrev S8192x4096 : Shape := ⟨2, ![8192, 4096]⟩
abbrev S56x4096 : Shape := ⟨2, ![56, 4096]⟩
abbrev S4096x56 : Shape := ⟨2, ![4096, 56]⟩
abbrev S1 : Shape := ⟨1, ![1]⟩
abbrev S_ : Shape := ⟨0, ![]⟩
abbrev S8 : Shape := ⟨1, ![8]⟩
abbrev S16 : Shape := ⟨1, ![16]⟩
abbrev S32 : Shape := ⟨1, ![32]⟩
abbrev S56 : Shape := ⟨1, ![56]⟩
abbrev S128x4096 : Shape := ⟨2, ![128, 4096]⟩
abbrev S4096x128 : Shape := ⟨2, ![4096, 128]⟩
abbrev S128 : Shape := ⟨1, ![128]⟩
abbrev S1x128 : Shape := ⟨2, ![1, 128]⟩
abbrev S8192x128 : Shape := ⟨2, ![8192, 128]⟩
abbrev S1024x2048 : Shape := ⟨2, ![1024, 2048]⟩
abbrev S128x2048 : Shape := ⟨2, ![128, 2048]⟩
abbrev S1024x128 : Shape := ⟨2, ![1024, 128]⟩
abbrev S2048x512 : Shape := ⟨2, ![2048, 512]⟩
abbrev S1024x512 : Shape := ⟨2, ![1024, 512]⟩
abbrev S2048x128 : Shape := ⟨2, ![2048, 128]⟩
abbrev S2048x1024 : Shape := ⟨2, ![2048, 1024]⟩

abbrev nBuf : Space → Nat
  | .hbm => 45
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S16x4096, .f32⟩
  | .hbm, ⟨5, _⟩ => ⟨S4096x16, .f32⟩
  | .hbm, ⟨6, _⟩ => ⟨S32x4096, .f32⟩
  | .hbm, ⟨7, _⟩ => ⟨S4096x32, .f32⟩
  | .hbm, ⟨8, _⟩ => ⟨S3, .f32⟩
  | .hbm, ⟨9, _⟩ => ⟨S8192x4096, .f32⟩
  | .hbm, ⟨10, _⟩ => ⟨S56x4096, .f32⟩
  | .hbm, ⟨11, _⟩ => ⟨S4096x56, .f32⟩
  | .hbm, ⟨12, _⟩ => ⟨S1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S32, .f32⟩
  | .hbm, ⟨27, _⟩ => ⟨S56, .f32⟩
  | .hbm, ⟨28, _⟩ => ⟨S_, .i32⟩
  | .hbm, ⟨29, _⟩ => ⟨S_, .f32⟩
  | .hbm, ⟨30, _⟩ => ⟨S128x4096, .f32⟩
  | .hbm, ⟨31, _⟩ => ⟨S_, .i32⟩
  | .hbm, ⟨32, _⟩ => ⟨S_, .f32⟩
  | .hbm, ⟨33, _⟩ => ⟨S4096x128, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S1x128, .f32⟩
  | .hbm, ⟨38, _⟩ => ⟨S128x4096, .bf16⟩
  | .hbm, ⟨39, _⟩ => ⟨S4096x128, .bf16⟩
  | .hbm, ⟨40, _⟩ => ⟨S4096x4096, .bf16⟩
  | .hbm, ⟨41, _⟩ => ⟨S8192x128, .bf16⟩
  | .hbm, ⟨42, _⟩ => ⟨S8192x4096, .bf16⟩
  | .hbm, ⟨43, _⟩ => ⟨S8192x4096, .f32⟩
  | .hbm, ⟨44, _⟩ => ⟨S4x2048x4096, .f32⟩
  | .local _ .vmem, ⟨0, _⟩ => ⟨S1024x2048, .f32⟩
  | .local _ .vmem, ⟨1, _⟩ => ⟨S1024x2048, .f32⟩
  | .local _ .vmem, ⟨2, _⟩ => ⟨S128x2048, .bf16⟩
  | .local _ .vmem, ⟨3, _⟩ => ⟨S128x2048, .bf16⟩
  | .local _ .vmem, ⟨4, _⟩ => ⟨S1x128, .f32⟩
  | .local _ .vmem, ⟨5, _⟩ => ⟨S1024x128, .bf16⟩
  | .local _ .vmem, ⟨6, _⟩ => ⟨S1024x128, .bf16⟩
  | .local _ .vmem, ⟨7, _⟩ => ⟨S1024x2048, .bf16⟩
  | .local _ .vmem, ⟨8, _⟩ => ⟨S1024x2048, .bf16⟩
  | .local _ .vmem, ⟨9, _⟩ => ⟨S1024x128, .f32⟩
  | .local _ .vmem, ⟨10, _⟩ => ⟨S2048x512, .bf16⟩
  | .local _ .vmem, ⟨11, _⟩ => ⟨S2048x512, .bf16⟩
  | .local _ .vmem, ⟨12, _⟩ => ⟨S1024x512, .bf16⟩
  | .local _ .vmem, ⟨13, _⟩ => ⟨S1024x512, .bf16⟩
  | .local _ .vmem, ⟨14, _⟩ => ⟨S2048x128, .bf16⟩
  | .local _ .vmem, ⟨15, _⟩ => ⟨S2048x128, .bf16⟩
  | .local _ .vmem, ⟨16, _⟩ => ⟨S1024x128, .bf16⟩
  | .local _ .vmem, ⟨17, _⟩ => ⟨S1024x128, .bf16⟩
  | .local _ .vmem, ⟨18, _⟩ => ⟨S2048x1024, .f32⟩
  | .local _ .vmem, ⟨19, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_call0_v0 : Ref sig .tc := ⟨.hbm, 29, rfl⟩
abbrev main_v16 : Ref sig .tc := ⟨.hbm, 30, rfl⟩
abbrev main_c_2 : Ref sig .tc := ⟨.hbm, 31, rfl⟩
abbrev main_call1_v0 : Ref sig .tc := ⟨.hbm, 32, rfl⟩
abbrev main_v17 : Ref sig .tc := ⟨.hbm, 33, rfl⟩
abbrev main_c_3 : Ref sig .tc := ⟨.hbm, 34, rfl⟩
abbrev main_call2_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev main_v24 : Ref sig .tc := ⟨.hbm, 43, rfl⟩
abbrev main_v25 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 4, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S2048x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S4x2048x4096_S8192x4096 : S4x2048x4096.ShapeCasts S8192x4096
  concatenates_S8x4096_S16x4096_S32x4096_S56x4096_d0 : Shape.Concatenates [S8x4096, S16x4096, S32x4096] S56x4096 0
  concatenates_S4096x8_S4096x16_S4096x32_S4096x56_d1 : Shape.Concatenates [S4096x8, S4096x16, S4096x32] S4096x56 1
  slices_S3_S1_0 : S3.Slices ![0] S1
  shapeCasts_S1_S_ : S1.ShapeCasts S_
  bcast_S_S8 : S_.BroadcastsInDim S8 (![] : Fin 0 → Fin S8.rank)
  slices_S3_S1_1 : S3.Slices ![1] S1
  bcast_S_S16 : S_.BroadcastsInDim S16 (![] : Fin 0 → Fin S16.rank)
  slices_S3_S1_2 : S3.Slices ![2] S1
  bcast_S_S32 : S_.BroadcastsInDim S32 (![] : Fin 0 → Fin S32.rank)
  concatenates_S8_S16_S32_S56_d0 : Shape.Concatenates [S8, S16, S32] S56 0
  pads_S56x4096_S128x4096_0720_000 : S56x4096.Pads (![0, 0] : Fin 2 → Nat) ![72, 0] ![0, 0] S128x4096
  h_S_ : 0 < S_.numel
  pads_S4096x56_S4096x128_000_0720 : S4096x56.Pads (![0, 0] : Fin 2 → Nat) ![0, 72] ![0, 0] S4096x128
  pads_S56_S128_0720 : S56.Pads (![0] : Fin 1 → Nat) ![72] ![0] S128
  shapeCasts_S128_S1x128 : S128.ShapeCasts S1x128
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  packedbf16_S1024x128_S1024x128_0_0 : (Rect.unit (s := S1024x128) ![0, 0] S1024x128.size inb_S1024x128_S1024x128_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S8192x4096_S4x2048x4096 : S8192x4096.ShapeCasts S4x2048x4096
  dot_S1024x2048_S128x2048_S1024x128_1_1_0_0_n_n_wf : DotDims.WF S1024x2048 S128x2048 S1024x128 [1] [1] [0] [0] [] []
  dot_S2048x512_S1024x512_S2048x1024_1_1_0_0_n_n_wf : DotDims.WF S2048x512 S1024x512 S2048x1024 [1] [1] [0] [0] [] []
  dot_S2048x128_S1024x128_S2048x1024_1_1_0_0_n_n_wf : DotDims.WF S2048x128 S1024x128 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .f32 = 32 ∨ (Rect.block (s := S8192x4096) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x4096.size a
  hwx0_1 : ∀ i : grid0.Coords, EltTy.bits .bf16 = 32 ∨ (Rect.block (s := S128x4096) S128x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .bf16 = 32 ∨ (Rect.block (s := S8192x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x4096.size a
  hwx0_4 : ∀ i : grid0.Coords, EltTy.bits .bf16 = 32 ∨ (Rect.block (s := S8192x4096) S1024x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x4096.size a
  hwx1_0 : ∀ i : grid1.Coords, EltTy.bits .bf16 = 32 ∨ (Rect.block (s := S8192x4096) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S8192x128.size a
  hwx1_2 : ∀ i : grid1.Coords, EltTy.bits .bf16 = 32 ∨ (Rect.block (s := S8192x128) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S4096x128.size a
  hwx1_3 : ∀ i : grid1.Coords, EltTy.bits .bf16 = 32 ∨ (Rect.block (s := S4096x128) S1024x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S8192x4096.size a
  hwx1_4 : ∀ i : grid1.Coords, EltTy.bits .f32 = 32 ∨ (Rect.block (s := S8192x4096) S2048x1024.size (cc1_transform_4 i) (hinb1_4 i)).WholeWords (EltTy.packing .f32)

variable [Facts₀]

def dot_S1024x2048_S128x2048_S1024x128_1_1_0_0_n_n : DotDims S1024x2048 S128x2048 S1024x128 where
  lhsContracting := [1]
  rhsContracting := [1]
  lhsNonContracting := [0]
  rhsNonContracting := [0]
  lhsBatch := []
  rhsBatch := []
  wf := dot_S1024x2048_S128x2048_S1024x128_1_1_0_0_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf
def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23_0) S1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23_1) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun _ => false | ⟨_ + 5, h⟩ => absurd h (Nat.not_lt.2 (Nat.le_add_left _ _))

abbrev win1_0 : Pipeline.Window sig grid1 :=
  Pipeline.Window.ofSpec (Memref.whole main_v23_1) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23_0) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S2048x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S16x4096 : Shape := ⟨2, ![16, 4096]⟩
abbrev S4096x16 : Shape := ⟨2, ![4096, 16]⟩
abbrev S32x4096 : Shape := ⟨2, ![32, 4096]⟩
abbrev S4096x32 : Shape := ⟨2, ![4096, 32]⟩
abbrev S3 : Shape := ⟨1, ![3]⟩
abbrev S_ : Shape := ⟨0, ![]⟩
abbrev S4x2048x8 : Shape := ⟨3, ![4, 2048, 8]⟩
abbrev S1 : Shape := ⟨1, ![1]⟩
abbrev S4x2048x16 : Shape := ⟨3, ![4, 2048, 16]⟩
abbrev S4x2048x32 : Shape := ⟨3, ![4, 2048, 32]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S16x4096, .f32⟩
  | .hbm, ⟨5, _⟩ => ⟨S4096x16, .f32⟩
  | .hbm, ⟨6, _⟩ => ⟨S32x4096, .f32⟩
  | .hbm, ⟨7, _⟩ => ⟨S4096x32, .f32⟩
  | .hbm, ⟨8, _⟩ => ⟨S3, .f32⟩
  | .hbm, ⟨9, _⟩ => ⟨S4x2048x4096, .f32⟩
  | .hbm, ⟨10, _⟩ => ⟨S_, .f32⟩
  | .hbm, ⟨11, _⟩ => ⟨S4x2048x4096, .f32⟩
  | .hbm, ⟨12, _⟩ => ⟨S4x2048x8, .f32⟩
  | .hbm, ⟨13, _⟩ => ⟨S4x2048x4096, .f32⟩
  | .hbm, ⟨14, _⟩ => ⟨S1, .f32⟩
  | .hbm, ⟨15, _⟩ => ⟨S_, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S4x2048x16, .f32⟩
  | .hbm, ⟨20, _⟩ => ⟨S4x2048x4096, .f32⟩
  | .hbm, ⟨21, _⟩ => ⟨S1, .f32⟩
  | .hbm, ⟨22, _⟩ => ⟨S_, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4x2048x32, .f32⟩
  | .hbm, ⟨27, _⟩ => ⟨S4x2048x4096, .f32⟩
  | .hbm, ⟨28, _⟩ => ⟨S1, .f32⟩
  | .hbm, ⟨29, _⟩ => ⟨S_, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S_, .f32⟩
  | .hbm, ⟨34, _⟩ => ⟨S4x2048x4096, .f32⟩
  | .hbm, ⟨35, _⟩ => ⟨S4x2048x4096, .f32⟩
  | .hbm, ⟨36, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  slices_S3_S1_0 : S3.Slices ![0] S1
  shapeCasts_S1_S_ : S1.ShapeCasts S_
  slices_S3_S1_1 : S3.Slices ![1] S1
  slices_S3_S1_2 : S3.Slices ![2] S1
  dot_S4x2048x4096_S4096x4096_S4x2048x4096_2_1_01_0_n_n_wf : DotDims.WF S4x2048x4096 S4096x4096 S4x2048x4096 [2] [1] [0, 1] [0] [] []
  dot_S4x2048x4096_S8x4096_S4x2048x8_2_1_01_0_n_n_wf : DotDims.WF S4x2048x4096 S8x4096 S4x2048x8 [2] [1] [0, 1] [0] [] []
  dot_S4x2048x8_S4096x8_S4x2048x4096_2_1_01_0_n_n_wf : DotDims.WF S4x2048x8 S4096x8 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []
  dot_S4x2048x4096_S32x4096_S4x2048x32_2_1_01_0_n_n_wf : DotDims.WF S4x2048x4096 S32x4096 S4x2048x32 [2] [1] [0, 1] [0] [] []
  dot_S4x2048x32_S4096x32_S4x2048x4096_2_1_01_0_n_n_wf : DotDims.WF S4x2048x32 S4096x32 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S8x4096_S4x2048x8_2_1_01_0_n_n : DotDims S4x2048x4096 S8x4096 S4x2048x8 where
  lhsContracting := [2]
  rhsContracting := [1]
  lhsNonContracting := [0, 1]
  rhsNonContracting := [0]
  lhsBatch := []
  rhsBatch := []
  wf := dot_S4x2048x4096_S8x4096_S4x2048x8_2_1_01_0_n_n_wf
def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf
def dot_S4x2048x4096_S32x4096_S4x2048x32_2_1_01_0_n_n : DotDims S4x2048x4096 S32x4096 S4x2048x32 where
  lhsContracting := [2]
  rhsContracting := [1]
  lhsNonContracting := [0, 1]
  rhsNonContracting := [0]
  lhsBatch := []
  rhsBatch := []
  wf := dot_S4x2048x4096_S32x4096_S4x2048x32_2_1_01_0_n_n_wf
def dot_S4x2048x32_S4096x32_S4x2048x4096_2_1_01_0_n_n : DotDims S4x2048x32 S4096x32 S4x2048x4096 where
  lhsContracting := [2]
  rhsContracting := [1]
  lhsNonContracting := [0, 1]
  rhsNonContracting := [0]
  lhsBatch := []
  rhsBatch := []
  wf := dot_S4x2048x32_S4096x32_S4x2048x4096_2_1_01_0_n_n_wf

class Facts : Prop extends Facts₀ where

variable [Facts]
-- ==== Proof.K.Run.lean ====
/-
  The whole program as a run: seven stretches of host operations, the two kernel regions, one last host operation.
  Stated over what each region's own proof supplies (its proof data at ANY entry contents, the body's obligation,
  and how its invariant begins and ends), this module follows the buffers' contents through the program — a fold
  from the launch memory: a host stretch applies its operations, a region replaces the arrays of its windows by
  what its write-backs leave — and concludes that every weakly fair execution terminates with every unscoped
  buffer at the end of that fold.
-/
import proofs.«130097_j62697932587275_2_alg».proof.Proof.Gen.Kernel.Regions
import proofs.«130097_j62697932587275_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Every core's buffer contents when a region is entered. -/
abbrev Entry (F : FTy → Type) [FloatOps F] : Type :=
  (c : Dev nD) → (b : Ref sig .tc) → Buf (Elt F) ((c : Thread nD τ).loc b)

/-- What the first region's proof chooses, at any entry contents: what each window's staging buffer holds after the
    body at each point, and the region's invariant before each point. -/
structure Region0 (F : FTy → Type) [FloatOps F] where
  after : Entry F → (c : Dev nD) → (w : Fin cfg0.W) → Fin cfg0.N → (cfg0.win w).block.Idx → Elt F (cfg0.win w).elt
  Φ : Entry F → (c : Dev nD) → Fin (cfg0.N + 1) → sProp (MT nD τ sig Unit (Elt F) ℕ (UR sig nD τ) ℕ)

/-- The first region's proof data: its arrays read off the entry contents, held at the full share, nothing owed. -/
def Region0.dat (R : Region0 F) (V : Entry F) (c : Dev nD) : Dat τ (Elt F) Unit ℕ (UR sig nD τ) ℕ cfg0 c where
  A w := V c (Pipeline.arrRef spec0 w)
  after := R.after V c
  Φ := R.Φ V c
  q _ := fullShare
  owed _ := 0

/-- What the first region's proof owes: the body's obligation, and that the invariant begins and ends at the
    scoped rest beside the generator register. -/
structure Region0.Ok (R : Region0 F) : Prop where
  body : ∀ V c, BodyObligation (R.dat V c) (defs₀ (F := F)) Variants.none () Set.univ
  hin : ∀ V c, (Pipeline.ΦA spec0 c : sProp (MT nD τ sig Unit (Elt F) ℕ (UR sig nD τ) ℕ)) ⊢ R.Φ V c 0
  hout : ∀ V c, R.Φ V c (Fin.last cfg0.N) ⊢ (Pipeline.ΦA spec0 c : sProp (MT nD τ sig Unit (Elt F) ℕ (UR sig nD τ) ℕ))

/-- The same of the second region. -/
structure Region1 (F : FTy → Type) [FloatOps F] where
  after : Entry F → (c : Dev nD) → (w : Fin cfg1.W) → Fin cfg1.N → (cfg1.win w).block.Idx → Elt F (cfg1.win w).elt
  Φ : Entry F → (c : Dev nD) → Fin (cfg1.N + 1) → sProp (MT nD τ sig Unit (Elt F) ℕ (UR sig nD τ) ℕ)

def Region1.dat (R : Region1 F) (V : Entry F) (c : Dev nD) : Dat τ (Elt F) Unit ℕ (UR sig nD τ) ℕ cfg1 c where
  A w := V c (Pipeline.arrRef spec1 w)
  after := R.after V c
  Φ := R.Φ V c
  q _ := fullShare
  owed _ := 0

structure Region1.Ok (R : Region1 F) : Prop where
  body : ∀ V c, BodyObligation (R.dat V c) (defs₀ (F := F)) Variants.none () Set.univ
  hin : ∀ V c, (Pipeline.ΦA spec1 c : sProp (MT nD τ sig Unit (Elt F) ℕ (UR sig nD τ) ℕ)) ⊢ R.Φ V c 0
  hout : ∀ V c, R.Φ V c (Fin.last cfg1.N) ⊢ (Pipeline.ΦA spec1 c : sProp (MT nD τ sig Unit (Elt F) ℕ (UR sig nD τ) ℕ))

/-- The scoped rest beside the generator register, from what a region's entry hands the invariant, -/
theorem PhiA0_in (c : Dev nD) (P : sProp 𝕄) :
    iprop((∃ r, prngReg c r) ∗ P ∗ Pipeline.scopedRest spec0 c) ⊢ (Pipeline.ΦA spec0 c : sProp 𝕄) := by
  unfold Pipeline.ΦA
  iintro ⟨Hp, -, Hr⟩
  isplitl [Hr]; · iexact Hr
  iexact Hp
/-- and back. -/
theorem PhiA0_out (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr
theorem PhiA1_in (c : Dev nD) (P : sProp 𝕄) :
    iprop((∃ r, prngReg c r) ∗ P ∗ Pipeline.scopedRest spec1 c) ⊢ (Pipeline.ΦA spec1 c : sProp 𝕄) := by
  unfold Pipeline.ΦA
  iintro ⟨Hp, -, Hr⟩
  isplitl [Hr]; · iexact Hr
  iexact Hp
theorem PhiA1_out (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

variable (R0 : Region0 F) (R1 : Region1 F)
variable (m : (ℓ : Loc nD τ sig) → Buf (Elt F) ℓ) (ρ : Dev nD → PrngReg)

/-! ## The buffers' contents through the program -/

/-- The first region's entry contents: the launch memory after the seven host stretches. -/
abbrev E7 : Entry F := fun c b => V7 m c b

/-- After the first region: its windows' arrays at what its write-backs leave, every other buffer as entered. -/
def W8 (c : Dev nD) : Valuation τ sig (Elt F) :=
  Pipeline.withArrays spec0 c (V7 m c) fun w => (R0.dat (E7 m) c).arrAt w cfg0.N
theorem W8_arr (c : Dev nD) (w : Fin cfg0.W) :
    W8 R0 m c (Proc.devRef .tc (Pipeline.arrRef spec0 w)) = (R0.dat (E7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 R0 m c (Proc.devRef .tc b) = V7 m c (Proc.devRef .tc b) := by
  unfold W8; exact Pipeline.withArrays_of_ne spec0 c _ _ b hb
/-- The second region's entry contents. -/
abbrev E8 : Entry F := fun c b => W8 R0 m c b
theorem hF0 (c : Dev nD) (w : Fin cfg0.W) : (R0.dat (E7 m) c).arrAt w cfg0.N = E8 R0 m c (Pipeline.arrRef spec0 w) :=
  (W8_arr R0 m c w).symm
theorem hrest0 (c : Dev nD) : ∀ b, b ∉ Finset.univ.image (Pipeline.arrRef spec0) → E8 R0 m c b = E7 m c b :=
  fun b hb => W8_of_ne R0 m c b fun w e => hb (Finset.mem_image.mpr ⟨w, Finset.mem_univ _, e⟩)

/-- After the second region. -/
def W9 (c : Dev nD) : Valuation τ sig (Elt F) :=
  Pipeline.withArrays spec1 c (W8 R0 m c) fun w => (R1.dat (E8 R0 m) c).arrAt w cfg1.N
theorem W9_arr (c : Dev nD) (w : Fin cfg1.W) :
    W9 R0 R1 m c (Proc.devRef .tc (Pipeline.arrRef spec1 w)) = (R1.dat (E8 R0 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 R0 R1 m c (Proc.devRef .tc b) = W8 R0 m c (Proc.devRef .tc b) := by
  unfold W9; exact Pipeline.withArrays_of_ne spec1 c _ _ b hb
abbrev E9 : Entry F := fun c b => W9 R0 R1 m c b
theorem hF1 (c : Dev nD) (w : Fin cfg1.W) : (R1.dat (E8 R0 m) c).arrAt w cfg1.N = E9 R0 R1 m c (Pipeline.arrRef spec1 w) :=
  (W9_arr R0 R1 m c w).symm
theorem hrest1 (c : Dev nD) : ∀ b, b ∉ Finset.univ.image (Pipeline.arrRef spec1) → E9 R0 R1 m c b = E8 R0 m c b :=
  fun b hb => W9_of_ne R0 R1 m c b fun w e => hb (Finset.mem_image.mpr ⟨w, Finset.mem_univ _, e⟩)

/-- At the end: after the last host operation. -/
abbrev W10 (c : Dev nD) : Valuation τ sig (Elt F) := StableHlo.after hostOps2 (W9 R0 R1 m c)

/-! ## The proof data family and the thread state -/

abbrev adm' : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm' p) c
  | ⟨0, _⟩ => fun c => R0.dat (E7 m) c
  | ⟨1, _⟩ => fun c => R1.dat (E8 R0 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev Rst (c : Dev nD) : sProp 𝕄 := iprop((∃ r, prngReg c r) ∗ ∃ W, owes (c : Thread nD τ) (0 : CellTallies nD τ sig Unit) W)
/-- It holds in particular that the core owes nothing. -/
theorem Rst_owes (c : Dev nD) : (Rst c : sProp 𝕄) ⊢ iprop(∃ W, owes (c : Thread nD τ) (0 : CellTallies nD τ sig Unit) W) := by
  iintro ⟨-, H⟩; iexact H
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-! ## The regions as segments -/

set_option backward.isDefEq.respectTransparency.types false in
/-- The first region over the thread state: entered from every unscoped buffer at the seventh stretch's contents,
    left with its arrays at what the write-backs leave. -/
def reg0 (h0 : R0.Ok) : Pipeline.RegionSeg (pcfgs (F := F)) adm' (pdats R0 R1 m) () defs₀ 𝒱₀ L lv 0 where
  win := launch0.win.to₀
  block_pos := launch0.block_pos
  stage_whole := launch0.stage_whole
  K := PEmpty
  osem k := k.elim
  ho := Pipeline.OwnSemFacts.none _
  hbody c := (h0.body (E7 m) c).loose
  hwaits := Pipeline.hwaits_of_owed_zero _ _ _ _ L lv 0 fun _ _ => rfl
  pre c := iprop(StableHlo.held (c : Thread nD τ) (Pipeline.ucRefs τ sig) (V7 m c) ∗ Rst c)
  post c := iprop(StableHlo.held (c : Thread nD τ) (Pipeline.ucRefs τ sig) (W8 R0 m c) ∗ Rst c)
  X c := iprop(∃ r, prngReg c r)
  Y c := iprop(∃ r, prngReg c r)
  Z c := Pipeline.unscopedRest (Ix := Unit) (Name := ℕ) (U := UR sig nD τ) (Lvl := ℕ) spec0 c (E7 m c)
  hentry c := by
    rw [Pipeline.ownSems0_none]
    have hsplit := Pipeline.arrays_of_unscopedBufs (p := 0) (pcfgs (F := F)) adm' (pdats R0 R1 m) launch0.win launch0.arr_whole c
      ((pdats R0 R1 m 0 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA0_in c _).trans (h0.hin (E7 m) c)
  hout c := by
    rw [Pipeline.ownSems0_none]
    exact (h0.hout (E7 m) c).trans (PhiA0_out c)
  hexit c := by
    have hjoin := Pipeline.unscopedBufs_of_arrays (p := 0) (pcfgs (F := F)) adm' (Ix := Unit) (Name := ℕ) (U := UR sig nD τ) (Lvl := ℕ)
      launch0.win launch0.arr_whole c (pdats R0 R1 m) ((pdats R0 R1 m 0 c).share_full fun _ => rfl)
      (E7 m c) (E8 R0 m c) ((pdats R0 R1 m 0 c).arrAt · cfg0.N) (hF0 R0 m c) (hrest0 R0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state. -/
def reg1 (h1 : R1.Ok) : Pipeline.RegionSeg (pcfgs (F := F)) adm' (pdats R0 R1 m) () defs₀ 𝒱₀ L lv 1 where
  win := launch1.win.to₀
  block_pos := launch1.block_pos
  stage_whole := launch1.stage_whole
  K := PEmpty
  osem k := k.elim
  ho := Pipeline.OwnSemFacts.none _
  hbody c := (h1.body (E8 R0 m) c).loose
  hwaits := Pipeline.hwaits_of_owed_zero _ _ _ _ L lv 1 fun _ _ => rfl
  pre c := iprop(StableHlo.held (c : Thread nD τ) (Pipeline.ucRefs τ sig) (W8 R0 m c) ∗ Rst c)
  post c := iprop(StableHlo.held (c : Thread nD τ) (Pipeline.ucRefs τ sig) (W9 R0 R1 m c) ∗ Rst c)
  X c := iprop(∃ r, prngReg c r)
  Y c := iprop(∃ r, prngReg c r)
  Z c := Pipeline.unscopedRest (Ix := Unit) (Name := ℕ) (U := UR sig nD τ) (Lvl := ℕ) spec1 c (E8 R0 m c)
  hentry c := by
    rw [Pipeline.ownSems0_none]
    have hsplit := Pipeline.arrays_of_unscopedBufs (p := 1) (pcfgs (F := F)) adm' (pdats R0 R1 m) launch1.win launch1.arr_whole c
      ((pdats R0 R1 m 1 c).share_full fun _ => rfl) (E8 R0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA1_in c _).trans (h1.hin (E8 R0 m) c)
  hout c := by
    rw [Pipeline.ownSems0_none]
    exact (h1.hout (E8 R0 m) c).trans (PhiA1_out c)
  hexit c := by
    have hjoin := Pipeline.unscopedBufs_of_arrays (p := 1) (pcfgs (F := F)) adm' (Ix := Unit) (Name := ℕ) (U := UR sig nD τ) (Lvl := ℕ)
      launch1.win launch1.arr_whole c (pdats R0 R1 m) ((pdats R0 R1 m 1 c).share_full fun _ => rfl)
      (E8 R0 m c) (E9 R0 R1 m c) ((pdats R0 R1 m 1 c).arrAt · cfg1.N) (hF1 R0 R1 m c) (hrest1 R0 R1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's ten segments in order. -/
abbrev segs (h0 : R0.Ok) (h1 : R1.Ok) : List (Pipeline.Seg (pcfgs (F := F)) adm' (pdats R0 R1 m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .region (reg0 R0 R1 m h0),
    .region (reg1 R0 R1 m h1),
    .host (hseg hostOps2 hostOps2_sub hostOps2_fresh (W9 R0 R1 m)) ]

set_option backward.isDefEq.respectTransparency.types false in
/-- THE RUN. From any memory with zero counters every weakly fair execution of the program terminates, nothing
    faulting, and the final memory holds every unscoped buffer of every core at the end of the fold. -/
theorem run (h0 : R0.Ok) (h1 : R1.Ok) : θ_run defs (onTc (τ := τ) (main (F := F))) ⟨m, fun _ => 0, ρ⟩ (fun r => ∀ c : Dev nD,
      ∀ b ∈ Pipeline.ucRefs τ sig, r.2.mem (((c : Thread nD τ)).1, b) = W10 R0 R1 m c b) :=
  Pipeline.θ_run_regions_kit (pcfgs (F := F)) adm' (pdats R0 R1 m) () cellOf_inj emb₁ defs₀ 𝒱₀ L lv m ρ main (segs R0 R1 m h0 h1)
    (fun c Q => by
      rewrite [main_chain c, Pipeline.Seg.run_eq_chain,
        show (segs R0 R1 m h0 h1).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (W10 R0 R1 m c))
    (hch := ⟨fun _ => .rfl, fun _ => .rfl, fun _ => .rfl, fun _ => .rfl, fun _ => .rfl, fun _ => .rfl, fun _ => .rfl, fun _ => .rfl,
      fun _ => .rfl, fun _ => .rfl, fun c => sep_mono .rfl (Rst_owes c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 R0 R1 m c b)
    (hfin := fun c s' => by
      iintro ⟨Hh, HSI⟩
      unfold StableHlo.held
      imodintro
      iapply (pointsTo_read_all (Pipeline.ucRefs τ sig) (fun b => (((c : Thread nD τ)).1, b)) (W10 R0 R1 m c) s')
      isplitl [Hh] <;> iassumption)
    (hQ := fun s h c => h c)

/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Kept.lean ====
/-
  The arguments end as launched. No host operation writes an argument's buffer, and no window of either region
  stages one, so the fold of the buffers' contents, read at an argument, walks back to the launch memory; with the
  run this is the frame claim's postcondition.
-/
import proofs.«130097_j62697932587275_2_alg».proof.Proof.K.Run

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]
variable (R0 : Region0 F) (R1 : Region1 F)
variable (m : (ℓ : Loc nD τ sig) → Buf (Elt F) ℓ) (ρ : Dev nD → PrngReg)

/-- A buffer that the last host operation does not write and that is no window's array of either region holds at the
    end what the seventh host stretch left in it. -/
theorem W10_of (c : Dev nD) (b : Ref sig .tc) (h2 : b ∉ hostOps2_W) (h1 : ∀ w, Pipeline.arrRef spec1 w ≠ b)
    (h0 : ∀ w, Pipeline.arrRef spec0 w ≠ b) :
    W10 R0 R1 m c (Proc.devRef .tc b) = V7 m c (Proc.devRef .tc b) :=
  (StableHlo.after_of_writes_sub hostOps2 _ hostOps2_writes h2).trans
    ((W9_of_ne R0 R1 m c b h1).trans (W8_of_ne R0 m c b h0))

/-- Argument 0 passes through the seven host stretches. -/
theorem V7_main_arg0 (c : Dev nD) : V7 m c main_arg0 = m ((c : Thread nD τ).loc main_arg0) :=
  (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
/-- Argument 0 ends as launched. -/
theorem W10_main_arg0 (c : Dev nD) : W10 R0 R1 m c main_arg0 = m ((c : Thread nD τ).loc main_arg0) :=
  (W10_of R0 R1 m c main_arg0 (by decide) (by decide) (by decide)).trans (V7_main_arg0 m c)
/-- Argument 1 passes through the seven host stretches. -/
theorem V7_main_arg1 (c : Dev nD) : V7 m c main_arg1 = m ((c : Thread nD τ).loc main_arg1) :=
  (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
/-- Argument 1 ends as launched. -/
theorem W10_main_arg1 (c : Dev nD) : W10 R0 R1 m c main_arg1 = m ((c : Thread nD τ).loc main_arg1) :=
  (W10_of R0 R1 m c main_arg1 (by decide) (by decide) (by decide)).trans (V7_main_arg1 m c)
/-- Argument 2 passes through the seven host stretches. -/
theorem V7_main_arg2 (c : Dev nD) : V7 m c main_arg2 = m ((c : Thread nD τ).loc main_arg2) :=
  (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
/-- Argument 2 ends as launched. -/
theorem W10_main_arg2 (c : Dev nD) : W10 R0 R1 m c main_arg2 = m ((c : Thread nD τ).loc main_arg2) :=
  (W10_of R0 R1 m c main_arg2 (by decide) (by decide) (by decide)).trans (V7_main_arg2 m c)
/-- Argument 3 passes through the seven host stretches. -/
theorem V7_main_arg3 (c : Dev nD) : V7 m c main_arg3 = m ((c : Thread nD τ).loc main_arg3) :=
  (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
/-- Argument 3 ends as launched. -/
theorem W10_main_arg3 (c : Dev nD) : W10 R0 R1 m c main_arg3 = m ((c : Thread nD τ).loc main_arg3) :=
  (W10_of R0 R1 m c main_arg3 (by decide) (by decide) (by decide)).trans (V7_main_arg3 m c)
/-- Argument 4 passes through the seven host stretches. -/
theorem V7_main_arg4 (c : Dev nD) : V7 m c main_arg4 = m ((c : Thread nD τ).loc main_arg4) :=
  (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl
/-- Argument 4 ends as launched. -/
theorem W10_main_arg4 (c : Dev nD) : W10 R0 R1 m c main_arg4 = m ((c : Thread nD τ).loc main_arg4) :=
  (W10_of R0 R1 m c main_arg4 (by decide) (by decide) (by decide)).trans (V7_main_arg4 m c)
/-- Argument 5 passes through the seven host stretches. -/
theorem V7_main_arg5 (c : Dev nD) : V7 m c main_arg5 = m ((c : Thread nD τ).loc main_arg5) :=
  (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
/-- Argument 5 ends as launched. -/
theorem W10_main_arg5 (c : Dev nD) : W10 R0 R1 m c main_arg5 = m ((c : Thread nD τ).loc main_arg5) :=
  (W10_of R0 R1 m c main_arg5 (by decide) (by decide) (by decide)).trans (V7_main_arg5 m c)
/-- Argument 6 passes through the seven host stretches. -/
theorem V7_main_arg6 (c : Dev nD) : V7 m c main_arg6 = m ((c : Thread nD τ).loc main_arg6) :=
  (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl
/-- Argument 6 ends as launched. -/
theorem W10_main_arg6 (c : Dev nD) : W10 R0 R1 m c main_arg6 = m ((c : Thread nD τ).loc main_arg6) :=
  (W10_of R0 R1 m c main_arg6 (by decide) (by decide) (by decide)).trans (V7_main_arg6 m c)
/-- Argument 7 passes through the seven host stretches. -/
theorem V7_main_arg7 (c : Dev nD) : V7 m c main_arg7 = m ((c : Thread nD τ).loc main_arg7) :=
  (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl
/-- Argument 7 ends as launched. -/
theorem W10_main_arg7 (c : Dev nD) : W10 R0 R1 m c main_arg7 = m ((c : Thread nD τ).loc main_arg7) :=
  (W10_of R0 R1 m c main_arg7 (by decide) (by decide) (by decide)).trans (V7_main_arg7 m c)
/-- Argument 8 passes through the seven host stretches. -/
theorem V7_main_arg8 (c : Dev nD) : V7 m c main_arg8 = m ((c : Thread nD τ).loc main_arg8) :=
  (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans rfl
/-- Argument 8 ends as launched. -/
theorem W10_main_arg8 (c : Dev nD) : W10 R0 R1 m c main_arg8 = m ((c : Thread nD τ).loc main_arg8) :=
  (W10_of R0 R1 m c main_arg8 (by decide) (by decide) (by decide)).trans (V7_main_arg8 m c)

/-- THE FRAME: every weakly fair execution terminates, nothing faulting, with every argument array as launched. -/
theorem frame (h0 : R0.Ok) (h1 : R1.Ok) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W10_main_arg0 R0 R1 m c),
     (h c _ (mem_uc main_arg1 (by decide))).trans (W10_main_arg1 R0 R1 m c),
     (h c _ (mem_uc main_arg2 (by decide))).trans (W10_main_arg2 R0 R1 m c),
     (h c _ (mem_uc main_arg3 (by decide))).trans (W10_main_arg3 R0 R1 m c),
     (h c _ (mem_uc main_arg4 (by decide))).trans (W10_main_arg4 R0 R1 m c),
     (h c _ (mem_uc main_arg5 (by decide))).trans (W10_main_arg5 R0 R1 m c),
     (h c _ (mem_uc main_arg6 (by decide))).trans (W10_main_arg6 R0 R1 m c),
     (h c _ (mem_uc main_arg7 (by decide))).trans (W10_main_arg7 R0 R1 m c),
     (h c _ (mem_uc main_arg8 (by decide))).trans (W10_main_arg8 R0 R1 m c)⟩)
    (run R0 R1 m ρ h0 h1)

end Cert.Kernel.Hand

end
-- ==== Proof.K.Region0Runs.lean ====
import proofs.«130097_j62697932587275_2_alg».proof.Proof.Gen.Kernel.Launch
import proofs.«130097_j62697932587275_2_alg».proof.Proof.Gen.Kernel.Skeleton
import proofs.«130097_j62697932587275_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

/-! # The low-rank projection kernel's body, run once per control case

The body of the first kernel has two conditionals on the second grid coordinate `k`: `k = 0` (zero-fill the
accumulator) and `k = 1` (scale, cast and store the low-rank block). On the 8 × 2 grid exactly one holds at each
point, so there are two cases. Each is stated with explicit contents: every load and store is of a whole buffer, so
each buffer ends holding the last payload stored into it. Generic in the float model. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The literal zero offsets of a rank-2 rectangle are the zero function. -/
theorem hz : (![0, 0] : Fin 2 → Nat) = fun _ => 0 := funext fun a => by fin_cases a <;> rfl

/-! ## The body's two branch conditions, decided over the grid -/

/-- The first conditional's condition (`k == 0`), as the skeleton's scalar chain over the grid coordinates. -/
abbrev cond0_0 (i : grid0.Coords) : Prop := (Scalar.cmpi .ne (Scalar.extui (Scalar.cmpi .eq (BitVec.ofNat 32 (i 1).val) 0#32)) 0#32) = 1#1
/-- It holds at the even points (those with second coordinate 0). -/
theorem hcond0_0 : ∀ t : Fin cfg0.N, cond0_0 (grid0.coords t) ↔ t.val % 2 = 0 :=
  (by decide +kernel : ∀ t : Fin grid0.N, cond0_0 (grid0.coords t) ↔ t.val % 2 = 0)
/-- The second conditional's condition (`k == 1`, the last step of the reduction axis). -/
abbrev cond0_1 (i : grid0.Coords) : Prop := k0_cond2 i = 1#1
/-- It holds at the odd points (those with second coordinate 1). -/
theorem hcond0_1 : ∀ t : Fin cfg0.N, cond0_1 (grid0.coords t) ↔ t.val % 2 = 1 :=
  (by decide +kernel : ∀ t : Fin grid0.N, cond0_1 (grid0.coords t) ↔ t.val % 2 = 1)

set_option maxHeartbeats 1000000 in
/-- The body at a point with `k = 0`, on whole staging memrefs: the three inputs at their contents, the low-rank
    output's buffer (idle here) at contents `xi3` handed back untouched, the cast output's and the accumulator at
    anything. It zero-fills the accumulator, stores the cast of `x`, and leaves the accumulator at
    `0 + x·Aᵀ` of this column block (each load and store is of a whole buffer, so a buffer ends at the last
    payload stored into it, and the accumulator read back after the zero fill is the zero block). -/
theorem run0_A (c : Dev nD) (i : grid0.Coords) (arg2 : Memref sig .tc .vmem S1024x2048 .f32) (harg2 : arg2.IsWhole)
    (arg3 : Memref sig .tc .vmem S128x2048 .bf16) (harg3 : arg3.IsWhole)
    (arg4 : Memref sig .tc .vmem S1x128 .f32) (harg4 : arg4.IsWhole)
    (arg5 : Memref sig .tc .vmem S1024x128 .bf16) (harg5 : arg5.IsWhole)
    (arg6 : Memref sig .tc .vmem S1024x2048 .bf16) (harg6 : arg6.IsWhole)
    (arg7 : Memref sig .tc .vmem S1024x128 .f32) (harg7 : arg7.IsWhole)
    (hc0 : cond0_0 i) (hc1 : ¬cond0_1 i)
    (x0 : Vec F S1024x2048 .f32) (x1 : Vec F S128x2048 .bf16) (x2 : Vec F S1x128 .f32) (xi3 : Vec F S1024x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k0_pay2 x0) ∗ owns (c : Thread nD τ) arg7 fullShare (k0_pay3 x0 (k0_pay1 (F := F)) x1)) -∗ K ⟨⟩))
      ⊢ wp frame (wpE (defs₀ (F := F)) Variants.none c none) E (cc0_lowrank_kernel i arg2 harg2 arg3 harg3 arg4 harg4 arg5 harg5 arg6 harg6 arg7 harg7) K := by
  simp only [cc0_lowrank_kernel_eq_skeleton]; unfold cc0_lowrank_kernel_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    refine (View.read_writes_eq_canon _ _ _ (fun y => ⟨_, List.mem_cons_self .., View.mem_set_unit_zero hz inb_S1024x2048_S1024x2048_0_0 y⟩)).trans ?_
    rw [View.canon_cons_unit_zero hz]
    simp only [View.readAt_eq_ld, harg2.read_unread, View.ld_unit_zero (S := S1024x2048) hz]
  · iexists _; isplitr
    swap; · iexact HS0
    ipureintro
    sl_unfold_words
    refine (View.read_writes_eq_canon _ _ _ (fun y => ⟨_, List.mem_cons_self .., View.mem_set_unit_zero hz inb_S1024x128_S1024x128_0_0 y⟩)).trans ?_
    rw [View.canon_cons_unit_zero hz]
    rw [View.readCov_unit_zero _ hz]
    simp only [View.readAt_eq_ld, harg2.read_unread, harg3.read_unread, View.ld_unit_zero (S := S1024x2048) hz, View.ld_unit_zero (S := S128x2048) hz]

set_option maxHeartbeats 1000000 in
/-- The body at a point with `k = 1`, on whole staging memrefs: the three inputs at their contents, both outputs'
    buffers at anything, the accumulator at what the point before left (`xs0`). It stores the cast of `x`,
    adds this column block's `x·Aᵀ` to the accumulator, and stores the accumulator times the broadcast scale,
    cast, into the low-rank output. -/
theorem run0_B (c : Dev nD) (i : grid0.Coords) (arg2 : Memref sig .tc .vmem S1024x2048 .f32) (harg2 : arg2.IsWhole)
    (arg3 : Memref sig .tc .vmem S128x2048 .bf16) (harg3 : arg3.IsWhole)
    (arg4 : Memref sig .tc .vmem S1x128 .f32) (harg4 : arg4.IsWhole)
    (arg5 : Memref sig .tc .vmem S1024x128 .bf16) (harg5 : arg5.IsWhole)
    (arg6 : Memref sig .tc .vmem S1024x2048 .bf16) (harg6 : arg6.IsWhole)
    (arg7 : Memref sig .tc .vmem S1024x128 .f32) (harg7 : arg7.IsWhole)
    (hc0 : ¬cond0_0 i) (hc1 : cond0_1 i)
    (x0 : Vec F S1024x2048 .f32) (x1 : Vec F S128x2048 .bf16) (x2 : Vec F S1x128 .f32) (xs0 : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (∃ d, owns (c : Thread nD τ) arg6 fullShare d) ∗ owns (c : Thread nD τ) arg7 fullShare xs0
        ∗ (iprop(owns (c : Thread nD τ) arg2 fullShare x0 ∗ owns (c : Thread nD τ) arg3 fullShare x1 ∗ owns (c : Thread nD τ) arg4 fullShare x2
            ∗ owns (c : Thread nD τ) arg5 fullShare (k0_pay4 (k0_pay3 x0 xs0 x1) x2)
            ∗ owns (c : Thread nD τ) arg6 fullShare (k0_pay2 x0) ∗ owns (c : Thread nD τ) arg7 fullShare (k0_pay3 x0 xs0 x1)) -∗ K ⟨⟩))
      ⊢ wp frame (wpE (defs₀ (F := F)) Variants.none c none) E (cc0_lowrank_kernel i arg2 harg2 arg3 harg3 arg4 harg4 arg5 harg5 arg6 harg6 arg7 harg7) K := by
  simp only [cc0_lowrank_kernel_eq_skeleton]; unfold cc0_lowrank_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
  obtain rfl := harg2.eq_unread hf0; obtain rfl := harg3.eq_unread hf1; obtain rfl := harg4.eq_unread hf2; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    refine (View.read_writes_eq_canon _ _ _ (fun y => ⟨_, List.mem_cons_self .., View.mem_set_unit_zero hz inb_S1024x128_S1024x128_0_0 y⟩)).trans ?_
    rw [View.canon_cons_unit_zero hz]
    first | rw [View.readCov_unit_zero _ hz] | skip
    simp only [View.readAt_eq_ld, harg2.read_unread, harg3.read_unread, harg4.read_unread, harg7.read_unread, View.ld_unit_zero (S := S1024x2048) hz, View.ld_unit_zero (S := S128x2048) hz, View.ld_unit_zero (S := S1x128) hz, View.ld_unit_zero (S := S1024x128) hz]
  isplitl [H4]
  · iexists _; isplitr
    swap; · iexact H4
    ipureintro
    sl_unfold_words
    refine (View.read_writes_eq_canon _ _ _ (fun y => ⟨_, List.mem_cons_self .., View.mem_set_unit_zero hz inb_S1024x2048_S1024x2048_0_0 y⟩)).trans ?_
    rw [View.canon_cons_unit_zero hz]
    simp only [View.readAt_eq_ld, harg2.read_unread, View.ld_unit_zero (S := S1024x2048) hz]
  · iexists _; isplitr
    swap; · iexact HS0
    ipureintro
    sl_unfold_words
    refine (View.read_writes_eq_canon _ _ _ (fun y => ⟨_, List.mem_cons_self .., View.mem_set_unit_zero hz inb_S1024x128_S1024x128_0_0 y⟩)).trans ?_
    rw [View.canon_cons_unit_zero hz]
    simp only [View.readAt_eq_ld, harg2.read_unread, harg3.read_unread, harg7.read_unread, View.ld_unit_zero (S := S1024x2048) hz, View.ld_unit_zero (S := S128x2048) hz, View.ld_unit_zero (S := S1024x128) hz]

end Cert.Kernel.Hand

end
-- ==== Proof.K.Region0.lean ====
import proofs.«130097_j62697932587275_2_alg».proof.Proof.K.Region0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-! # Region 0: the low-rank projection kernel on its 8 × 2 grid, at the entry contents `V`

Point `t` has coordinates `(t / 2, t % 2)`: row block `i = t / 2` of `x`, column block `k = t % 2`. The kernel
keeps an f32 accumulator `[1024, 128]` between the two column blocks of a row block: at `k = 0` it is zero-filled
and then holds `0 + x·Aᵀ` over the first 2048 columns; at `k = 1` it gains the product over the last 2048 columns
and the low-rank output block is the accumulator times the broadcast scale, cast. The cast of `x` is stored at
every point. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place (unfetched, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place (unfetched, the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place (unfetched, the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Where the windows are idle -/

/-- The inputs and the cast output are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_4 : ∀ t : Fin cfg0.N, cfg0.idle 4 (grid0.coords t) = false := by decide +kernel
/-- At the points with `k = 0` the low-rank output is idle: nothing is stored into it, -/
theorem idleAt0_3_A : ∀ t : Fin cfg0.N, cond0_0 (grid0.coords t) → ¬cond0_1 (grid0.coords t) → cfg0.idle 3 (grid0.coords t) = true := by decide +kernel
/-- and its block is not written back there. -/
theorem noFlush0_3_A : ∀ t : Fin cfg0.N, cond0_0 (grid0.coords t) → ¬cond0_1 (grid0.coords t) → (cfg0.win 3).flush t = false := by decide +kernel
/-- At the points with `k = 1` it is live. -/
theorem liveAt0_3_B : ∀ t : Fin cfg0.N, ¬cond0_0 (grid0.coords t) → cond0_1 (grid0.coords t) → cfg0.idle 3 (grid0.coords t) = false := by decide +kernel

/-! ## The staging memrefs, the accumulator, the rest of the scoped buffers -/

/-- Each window's current staging memref at point `t`, as the pipeline passes it to the body, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2048 .bf16 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0 : Memref sig .tc .vmem S1024x128 .f32 := Memref.whole cc0_scratch0

/-- The core's other scoped buffers that are no staging buffer of this kernel (the second kernel's staging buffers),
    each whole at some contents: the body never touches them. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the launch hands the region: the accumulator at some contents, the other scoped buffers, the generator register. -/
theorem PhiA0_eq (c : Dev nD) :
    (Pipeline.ΦA spec0 c : sProp 𝕄)
      = iprop(iprop((∃ d, owns (c : Thread nD τ) scM0 fullShare d) ∗ restS (F := F) c) ∗ (∃ r, prngReg c r)) := by
  unfold Pipeline.ΦA restS; rw [scopedRest0_eq]; simp only [scM0, owns_whole]; try rfl

/-! ## What the accumulator holds after each point -/

/-- The accumulator after the body at position `n`: at an even position (`k = 0`) the zero block plus this column
    block's product; at an odd one what the position before left plus this column block's product. -/
def outsAt0 (c : Dev nD) : (n : ℕ) → n < cfg0.N → Vec F S1024x128 .f32
  | 0, hn => k0_pay3 (iblk0 V c 0 ⟨0, hn⟩) (k0_pay1 (F := F)) (iblk0 V c 1 ⟨0, hn⟩)
  | n + 1, hn =>
    if (n + 1) % 2 = 0 then k0_pay3 (iblk0 V c 0 ⟨n + 1, hn⟩) (k0_pay1 (F := F)) (iblk0 V c 1 ⟨n + 1, hn⟩)
    else k0_pay3 (iblk0 V c 0 ⟨n + 1, hn⟩) (outsAt0 c n (Nat.lt_of_succ_lt hn)) (iblk0 V c 1 ⟨n + 1, hn⟩)

/-- At a point with `k = 0`: the zero block plus the product. -/
theorem outsAt0_A (c : Dev nD) (t : Fin cfg0.N) (h0 : t.val % 2 = 0) :
    outsAt0 V c t.val t.isLt = k0_pay3 (iblk0 V c 0 t) (k0_pay1 (F := F)) (iblk0 V c 1 t) := by
  obtain ⟨n, hn⟩ := t
  cases n with
  | zero => rfl
  | succ n => exact if_pos h0

/-- At a point with `k = 1`: what the point before left plus the product. -/
theorem outsAt0_B (c : Dev nD) (t : Fin cfg0.N) (h1 : t.val % 2 = 1) :
    outsAt0 V c t.val t.isLt = k0_pay3 (iblk0 V c 0 t) (outsAt0 V c (t.val - 1) (Nat.lt_of_le_of_lt (Nat.sub_le _ _) t.isLt)) (iblk0 V c 1 t) := by
  obtain ⟨n, hn⟩ := t
  cases n with
  | zero => exact absurd (show 0 % 2 = 1 from h1) (by decide)
  | succ n => exact if_neg (fun h => by dsimp only at h1; omega)

/-- The region invariant before position `n`: before the first point what the launch hands over (the accumulator at
    anything); afterwards the accumulator at what the point before left, the other scoped buffers and the generator
    register as they were. -/
def PhiS (c : Dev nD) : (n : ℕ) → n ≤ cfg0.N → sProp 𝕄
  | 0, _ => Pipeline.ΦA spec0 c
  | n + 1, hn => iprop(iprop(owns (c : Thread nD τ) scM0 fullShare (outsAt0 V c n hn) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (outsAt0 V c n hn) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (outsAt0 V c (n - 1) (by omega)) ∗ restS (F := F) c) ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block, the cast output's at the cast of the `x` block, the low-rank output's at
    the accumulator (as this point leaves it) times the broadcast scale, cast — consulted only at the points with
    `k = 1`, where the window is live; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay4 (outsAt0 V c t.val t.isLt) (iblk0 V c 2 t)
    | ⟨4, _⟩ => k0_pay2 (iblk0 V c 0 t)
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay4 (outsAt0 V c t.val t.isLt) (iblk0 V c 2 t) := by dsimp only [dat0]
theorem after0_4 (c : Dev nD) (t : Fin cfg0.N) : (dat0 V c).after 4 t = k0_pay2 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the point's parity says which case it is in; the
    invariant hands the body the accumulator (at anything at the first point, else at what the point before left)
    and takes it back at this point's contents; at `k = 0` the low-rank output's buffer is handed back as found;
    the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t]]
  rw [show (dat0 V c).leavesExact 1 t = owns (c : Thread nD τ) (ms0_1 t) fullShare ((dat0 V c).after 1 t) from by
    unfold Dat.leavesExact; rw [liveAt0_1 t]]
  rw [show (dat0 V c).leavesExact 2 t = owns (c : Thread nD τ) (ms0_2 t) fullShare ((dat0 V c).after 2 t) from by
    unfold Dat.leavesExact; rw [liveAt0_2 t]]
  rw [show (dat0 V c).leavesExact 4 t = owns (c : Thread nD τ) (ms0_4 t) fullShare ((dat0 V c).after 4 t) from by
    unfold Dat.leavesExact; rw [liveAt0_4 t]]
  rw [after0_0, after0_1, after0_2, after0_4]
  by_cases h0 : t.val % 2 = 0
  · have h1 : ¬t.val % 2 = 1 := by omega
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [outsAt0_A V c t h0]
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩⟩
      iapply (run0_A c (grid0.coords t) _ _ _ _ _ _ _ _ _ _ _ _ ((hcond0_0 t).mpr h0) (fun h => h1 ((hcond0_1 t).mp h)) (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexists _; iexact H3
      iexact H4
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply (run0_A c (grid0.coords t) _ _ _ _ _ _ _ _ _ _ _ _ ((hcond0_0 t).mpr h0) (fun h => h1 ((hcond0_1 t).mp h)) (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, H4, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexists _; iexact H3
      iexact H4
  · have h1 : t.val % 2 = 1 := by omega
    have hz : t.val ≠ 0 := by omega
    rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1)], after0_3]
    rw [outsAt0_B V c t h1]
    rw [PhiS_castSucc V c t, PhiS_pos V c _ _ hz]
    iintro ⟨⟨⟨HS0, HR⟩, Hg⟩, Ho, ⟨%d0, H0⟩, ⟨%d1, H1⟩, ⟨%d2, H2⟩, ⟨%d3, H3⟩, ⟨%d4, H4⟩⟩
    iapply (run0_B c (grid0.coords t) _ _ _ _ _ _ _ _ _ _ _ _ (fun h => h0 ((hcond0_0 t).mp h)) ((hcond0_1 t).mpr h1) (iblk0 V c 0 t) (iblk0 V c 1 t) (iblk0 V c 2 t) _ Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives it back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.Kernel.Hand

end
-- ==== Proof.K.Region1.lean ====
import proofs.«130097_j62697932587275_2_alg».proof.Proof.Gen.Kernel.Launch
import proofs.«130097_j62697932587275_2_alg».proof.Proof.Gen.Kernel.Skeleton
import proofs.«130097_j62697932587275_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call: the main product, accumulated over the reduction axis in its output block

Grid `[4, 4, 8]`, point `t` at coordinates `(i, j, k) = (t / 32, (t / 8) % 4, t % 8)`. Windows 0 and 1 are the
`(i, k)` block of the left operand and the `(j, k)` block of the right one; windows 2 and 3 the `(i, 0)` and `(j, 0)`
blocks of the two low-rank factors; window 4 is the `(i, j)` block of the result. Its block index does not read
`k`, so its staging buffer stays in place over the eight points of a block and is written back after the last. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the output block's buffer holds after each point -/

/-- The accumulation. Along the reduction axis the output's staging buffer holds: after the first point of a block
    (`k = 0`), zero plus the product of that point's stretch of columns; after each later point, what the point before
    left plus that point's product; and after the last point of the block (`k = 7`), that plus the low-rank product. -/
def outsAt1 (c : Dev nD) : (n : ℕ) → n < cfg1.N → Vec F S2048x1024 .f32
  | 0, hn => k1_pay2 (k1_pay1 (F := F)) (iblk1 V c 0 ⟨0, hn⟩) (iblk1 V c 1 ⟨0, hn⟩)
  | n + 1, hn =>
    if (n + 1) % 8 = 0 then
      k1_pay2 (k1_pay1 (F := F)) (iblk1 V c 0 ⟨n + 1, hn⟩) (iblk1 V c 1 ⟨n + 1, hn⟩)
    else if (n + 1) % 8 = 7 then
      k1_pay3 (k1_pay2 (outsAt1 c n (Nat.lt_of_succ_lt hn)) (iblk1 V c 0 ⟨n + 1, hn⟩) (iblk1 V c 1 ⟨n + 1, hn⟩))
        (iblk1 V c 2 ⟨n + 1, hn⟩) (iblk1 V c 3 ⟨n + 1, hn⟩)
    else
      k1_pay2 (outsAt1 c n (Nat.lt_of_succ_lt hn)) (iblk1 V c 0 ⟨n + 1, hn⟩) (iblk1 V c 1 ⟨n + 1, hn⟩)

/-- At a first point of a block: the product of the point's column stretch over zero. -/
theorem outsAt1_A (c : Dev nD) (t : Fin cfg1.N) (h0 : t.val % 8 = 0) :
    outsAt1 V c t.val t.isLt = k1_pay2 (k1_pay1 (F := F)) (iblk1 V c 0 t) (iblk1 V c 1 t) := by
  obtain ⟨n, hn⟩ := t
  cases n with
  | zero => exact rfl
  | succ n => exact (if_pos h0).trans rfl

/-- At a middle point: the product of the point's column stretch over what the point before left. -/
theorem outsAt1_B (c : Dev nD) (t : Fin cfg1.N) (h0 : ¬t.val % 8 = 0) (h7 : ¬t.val % 8 = 7) :
    outsAt1 V c t.val t.isLt
      = k1_pay2 (outsAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact (if_neg h0).trans ((if_neg h7).trans rfl)

/-- At a last point of a block: that, and then the low-rank product over it. -/
theorem outsAt1_C (c : Dev nD) (t : Fin cfg1.N) (h7 : t.val % 8 = 7) :
    outsAt1 V c t.val t.isLt
      = k1_pay3 (k1_pay2 (outsAt1 V c (t.val - 1) (Nat.lt_of_le_of_lt (Nat.sub_le _ _) t.isLt)) (iblk1 V c 0 t) (iblk1 V c 1 t))
          (iblk1 V c 2 t) (iblk1 V c 3 t) := by
  obtain ⟨n, hn⟩ := t
  cases n with
  | zero => exact absurd (show 0 % 8 = 7 from h7) (by decide)
  | succ n => exact (if_neg (by have h : (n + 1) % 8 = 7 := h7; omega)).trans ((if_pos h7).trans rfl)

/-! ## The pipeline's proof data -/

/-- The proof data of this pipeline on core `c`: the arrays as the region finds them (`V`); after the body at point
    `t` each input's buffer at its block and the output's at `outsAt1`; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

/-- Each input's current staging buffer holds its block at every point, fetched there or not: where it is not
    fetched its block index has not moved (the two low-rank factors' blocks move only with `i`, resp. `j`). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- At a point that is not the first of its block, the output's current staging buffer holds what the body left at the
    point before: the point is not the grid's first, and the buffer was not written back in between (it is written
    back only after a block's last point). -/
theorem before1_4 (c : Dev nD) (t : Fin cfg1.N) (h0 : ¬t.val % 8 = 0) (d) :
    (dat1 V c).before 4 t d = outsAt1 V c (t.val - 1) (Nat.lt_of_le_of_lt (Nat.sub_le _ _) t.isLt) := by
  rw [Dat.before_out_kept _ 4 rfl t (by omega)
    (Bool.eq_false_iff.mpr fun h => by have := (flush1_4 _).mp h; dsimp only at this; omega)
    (fun _ => rfl) (fun _ _ => rfl)]
  dsimp only [dat1]

/-! ## The body's two branch conditions -/

/-- The first conditional's condition (the reduction coordinate is 0), from the grid coordinates. -/
abbrev cond1_0 (i : grid1.Coords) : Prop := (Scalar.cmpi .ne (Scalar.extui (Scalar.cmpi .eq (BitVec.ofNat 32 (i 2).val) 0#32)) 0#32) = 1#1
/-- The second conditional's condition (the reduction coordinate is 7, the last). -/
abbrev cond1_1 (i : grid1.Coords) : Prop := (Scalar.cmpi .ne (Scalar.extui (Scalar.cmpi .eq (BitVec.ofNat 32 (i 2).val) 7#32)) 0#32) = 1#1
/-- In closed form over the grid: the first holds exactly at the points ≡ 0 (mod 8), -/
theorem hcond1_0 : ∀ t : Fin cfg1.N, cond1_0 (grid1.coords t) ↔ t.val % 8 = 0 :=
  (by decide +kernel : ∀ t : Fin grid1.N, cond1_0 (grid1.coords t) ↔ t.val % 8 = 0)
/-- the second exactly at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-- The offset of every access of this body: the origin. -/
theorem hz2 : (![0, 0] : Fin 2 → ℕ) = fun _ => 0 := by
  funext a; match a with | ⟨0, _⟩ => rfl | ⟨1, _⟩ => rfl

/-! ## The kernel body on any whole staging memrefs, case by case

The body's loads and stores are all of whole buffers, so what a run leaves in the output's memref is the payload of
its last store, and what a load after a store reads is that store's payload. -/

set_option maxHeartbeats 1000000 in
/-- At a block's first point (the first conditional taken, the second not): the output's memref, holding anything, ends
    at the point's product over the zero fill. -/
theorem run1_A (c : Dev nD) (E : Set ℕ) (i : grid1.Coords)
    (arg3 : Memref sig .tc .vmem S2048x512 .bf16) (harg3 : arg3.IsWhole) (arg4 : Memref sig .tc .vmem S1024x512 .bf16) (harg4 : arg4.IsWhole)
    (arg5 : Memref sig .tc .vmem S2048x128 .bf16) (harg5 : arg5.IsWhole) (arg6 : Memref sig .tc .vmem S1024x128 .bf16) (harg6 : arg6.IsWhole)
    (arg7 : Memref sig .tc .vmem S2048x1024 .f32) (harg7 : arg7.IsWhole)
    (hc0 : cond1_0 i) (hc1 : ¬cond1_1 i)
    (x0 : Vec F S2048x512 .bf16) (x1 : Vec F S1024x512 .bf16) (x2 : Vec F S2048x128 .bf16) (x3 : Vec F S1024x128 .bf16)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k1_pay2 (k1_pay1 (F := F)) x0 x1)) -∗ K ⟨⟩))
      ⊢ wp frame (wpE (defs₀ (F := F)) Variants.none c none) E (cc1_main_kernel i arg3 harg3 arg4 harg4 arg5 harg5 arg6 harg6 arg7 harg7) K := by
  simp only [cc1_main_kernel_eq_skeleton]; unfold cc1_main_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  rw [View.read_writes_eq_canon _ _ _ (fun y => ⟨_, List.mem_cons_self .., View.mem_set_unit_zero hz2 inb_S2048x1024_S2048x1024_0_0 y⟩)]
  rw [View.canon_cons_unit_zero hz2]
  rw [View.readCov_unit_zero _ hz2]
  simp only [View.readAt_eq_ld, View.ld_unit_zero (S := S2048x512) hz2, View.ld_unit_zero (S := S1024x512) hz2,
    View.ld_unit_zero (S := S2048x128) hz2, View.ld_unit_zero (S := S1024x128) hz2, View.ld_unit_zero (S := S2048x1024) hz2]

set_option maxHeartbeats 1000000 in
/-- At a middle point (neither conditional taken): the output's memref, holding `xo`, ends at the point's product
    over `xo`. -/
theorem run1_B (c : Dev nD) (E : Set ℕ) (i : grid1.Coords)
    (arg3 : Memref sig .tc .vmem S2048x512 .bf16) (harg3 : arg3.IsWhole) (arg4 : Memref sig .tc .vmem S1024x512 .bf16) (harg4 : arg4.IsWhole)
    (arg5 : Memref sig .tc .vmem S2048x128 .bf16) (harg5 : arg5.IsWhole) (arg6 : Memref sig .tc .vmem S1024x128 .bf16) (harg6 : arg6.IsWhole)
    (arg7 : Memref sig .tc .vmem S2048x1024 .f32) (harg7 : arg7.IsWhole)
    (hc0 : ¬cond1_0 i) (hc1 : ¬cond1_1 i)
    (x0 : Vec F S2048x512 .bf16) (x1 : Vec F S1024x512 .bf16) (x2 : Vec F S2048x128 .bf16) (x3 : Vec F S1024x128 .bf16) (xo : Vec F S2048x1024 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k1_pay2 xo x0 x1)) -∗ K ⟨⟩))
      ⊢ wp frame (wpE (defs₀ (F := F)) Variants.none c none) E (cc1_main_kernel i arg3 harg3 arg4 harg4 arg5 harg5 arg6 harg6 arg7 harg7) K := by
  simp only [cc1_main_kernel_eq_skeleton]; unfold cc1_main_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  rw [View.read_writes_eq_canon _ _ _ (fun y => ⟨_, List.mem_cons_self .., View.mem_set_unit_zero hz2 inb_S2048x1024_S2048x1024_0_0 y⟩)]
  rw [View.canon_cons_unit_zero hz2]
  simp only [View.readAt_eq_ld, View.ld_unit_zero (S := S2048x512) hz2, View.ld_unit_zero (S := S1024x512) hz2,
    View.ld_unit_zero (S := S2048x128) hz2, View.ld_unit_zero (S := S1024x128) hz2, View.ld_unit_zero (S := S2048x1024) hz2]

set_option maxHeartbeats 1000000 in
/-- At a block's last point (the second conditional taken, the first not): the output's memref, holding `xo`, ends at
    the low-rank product over the point's product over `xo`. -/
theorem run1_C (c : Dev nD) (E : Set ℕ) (i : grid1.Coords)
    (arg3 : Memref sig .tc .vmem S2048x512 .bf16) (harg3 : arg3.IsWhole) (arg4 : Memref sig .tc .vmem S1024x512 .bf16) (harg4 : arg4.IsWhole)
    (arg5 : Memref sig .tc .vmem S2048x128 .bf16) (harg5 : arg5.IsWhole) (arg6 : Memref sig .tc .vmem S1024x128 .bf16) (harg6 : arg6.IsWhole)
    (arg7 : Memref sig .tc .vmem S2048x1024 .f32) (harg7 : arg7.IsWhole)
    (hc0 : ¬cond1_0 i) (hc1 : cond1_1 i)
    (x0 : Vec F S2048x512 .bf16) (x1 : Vec F S1024x512 .bf16) (x2 : Vec F S2048x128 .bf16) (x3 : Vec F S1024x128 .bf16) (xo : Vec F S2048x1024 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k1_pay3 (k1_pay2 xo x0 x1) x2 x3)) -∗ K ⟨⟩))
      ⊢ wp frame (wpE (defs₀ (F := F)) Variants.none c none) E (cc1_main_kernel i arg3 harg3 arg4 harg4 arg5 harg5 arg6 harg6 arg7 harg7) K := by
  simp only [cc1_main_kernel_eq_skeleton]; unfold cc1_main_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  rw [View.read_writes_eq_canon _ _ _ (fun y => ⟨_, List.mem_cons_self .., View.mem_set_unit_zero hz2 inb_S2048x1024_S2048x1024_0_0 y⟩)]
  rw [View.canon_cons_unit_zero hz2]
  rw [View.readCov_unit_zero _ hz2]
  simp only [View.readAt_eq_ld, View.ld_unit_zero (S := S2048x512) hz2, View.ld_unit_zero (S := S1024x512) hz2,
    View.ld_unit_zero (S := S2048x128) hz2, View.ld_unit_zero (S := S1024x128) hz2, View.ld_unit_zero (S := S2048x1024) hz2]

/-! ## The body obligation, at a generic point -/

/-- Each window's current staging memref at point `t`, spelled as the pipeline passes it, and its wholeness. -/
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .f32 := win1_4.stage (cfg1.slots t 4)
abbrev hs1_4 (t : Fin cfg1.N) : (ms1_4 t).IsWhole := hstage1_4 ((cfg1.slots t 4).cast nbuf1_4)

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' memrefs hold their blocks; the closed forms of the two conditions say which
    of the three cases the point is in; off a block's first point the output's memref holds what the point before
    left; so the case's run applies. The invariant passes through unread and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 8 = 0
  · rw [outsAt1_A V c t h0]
    iintro ⟨HΦ, Ho, ⟨%d0, H0⟩, ⟨%d1, H1⟩, ⟨%d2, H2⟩, ⟨%d3, H3⟩, ⟨%d4, H4⟩⟩
    iapply (run1_A c Set.univ (grid1.coords t) _ _ _ _ _ _ _ _ _ _ ((hcond1_0 t).mpr h0)
      (fun h => by have := (hcond1_1 t).mp h; omega) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before1_4 V c t h0]
    by_cases h7 : t.val % 8 = 7
    · rw [outsAt1_C V c t h7]
      iintro ⟨HΦ, Ho, ⟨%d0, H0⟩, ⟨%d1, H1⟩, ⟨%d2, H2⟩, ⟨%d3, H3⟩, ⟨%d4, H4⟩⟩
      iapply (run1_C c Set.univ (grid1.coords t) _ _ _ _ _ _ _ _ _ _ (fun h => h0 ((hcond1_0 t).mp h))
        ((hcond1_1 t).mpr h7) (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [outsAt1_B V c t h0 h7]
      iintro ⟨HΦ, Ho, ⟨%d0, H0⟩, ⟨%d1, H1⟩, ⟨%d2, H2⟩, ⟨%d3, H3⟩, ⟨%d4, H4⟩⟩
      iapply (run1_B c Set.univ (grid1.coords t) _ _ _ _ _ _ _ _ _ _ (fun h => h0 ((hcond1_0 t).mp h))
        (fun h => h7 ((hcond1_1 t).mp h)) (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Both.lean ====
/-
  The two regions' proof data, as the run takes them: what each window's staging buffer holds after the body at each
  point and the region's invariant, with the body's obligation and the invariant's two ends.
-/
import proofs.«130097_j62697932587275_2_alg».proof.Proof.K.Kept
import proofs.«130097_j62697932587275_2_alg».proof.Proof.K.Region0
import proofs.«130097_j62697932587275_2_alg».proof.Proof.K.Region1

set_option maxRecDepth 16384

noncomputable section

namespace Cert.Kernel.Hand

open Idealize.ShloMosaic Idealize.ShloMosaic.TcCoe
open Idealize.SL Idealize.SL.BI Idealize.SL.Sem
open Cert.Kernel Cert.Kernel.Gen

variable {F : FTy → Type} [FloatOps F]

/-- The first region: the projection kernel's staging contents and its invariant (the carried accumulator). -/
def region0 : Region0 F := ⟨fun V c => (dat0 V c).after, fun V c => (dat0 V c).Φ⟩
/-- Its proof data is the region's own. -/
theorem region0_dat (V : Entry F) (c : Dev nD) : (region0 (F := F)).dat V c = dat0 V c := rfl
theorem region0_ok : (region0 (F := F)).Ok :=
  ⟨fun V c => body_obligation0 V c, fun V c => hin0 V c, fun V c => hout0 V c⟩

/-- The second region: the main kernel's staging contents; its invariant is the scoped rest throughout. -/
def region1 : Region1 F := ⟨fun V c => (dat1 V c).after, fun V c => (dat1 V c).Φ⟩
theorem region1_dat (V : Entry F) (c : Dev nD) : (region1 (F := F)).dat V c = dat1 V c := rfl
theorem region1_ok : (region1 (F := F)).Ok :=
  ⟨fun V c => body_obligation1 V c, fun V c => BI.Entails.refl _, fun V c => BI.Entails.refl _⟩

end Cert.Kernel.Hand

end
-- ==== Proof.KI.Run.lean ====
/-
  The whole program as a run: seven stretches of host operations, the two kernel regions, one last host operation.
  Stated over what each region's own proof supplies (its proof data at ANY entry contents, the body's obligation,
  and how its invariant begins and ends), this module follows the buffers' contents through the program — a fold
  from the launch memory: a host stretch applies its operations, a region replaces the arrays of its windows by
  what its write-backs leave — and concludes that every weakly fair execution terminates with every unscoped
  buffer at the end of that fold.
-/
import proofs.«130097_j62697932587275_2_alg».proof.Proof.Gen.KernelIdeal.Regions
import proofs.«130097_j62697932587275_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Every core's buffer contents when a region is entered. -/
abbrev Entry (F : FTy → Type) [FloatOps F] : Type :=
  (c : Dev nD) → (b : Ref sig .tc) → Buf (Elt F) ((c : Thread nD τ).loc b)

/-- What the first region's proof chooses, at any entry contents: what each window's staging buffer holds after the
    body at each point, and the region's invariant before each point. -/
structure Region0 (F : FTy → Type) [FloatOps F] where
  after : Entry F → (c : Dev nD) → (w : Fin cfg0.W) → Fin cfg0.N → (cfg0.win w).block.Idx → Elt F (cfg0.win w).elt
  Φ : Entry F → (c : Dev nD) → Fin (cfg0.N + 1) → sProp (MT nD τ sig Unit (Elt F) ℕ (UR sig nD τ) ℕ)

/-- The first region's proof data: its arrays read off the entry contents, held at the full share, nothing owed. -/
def Region0.dat (R : Region0 F) (V : Entry F) (c : Dev nD) : Dat τ (Elt F) Unit ℕ (UR sig nD τ) ℕ cfg0 c where
  A w := V c (Pipeline.arrRef spec0 w)
  after := R.after V c
  Φ := R.Φ V c
  q _ := fullShare
  owed _ := 0

/-- What the first region's proof owes: the body's obligation, and that the invariant begins and ends at the
    scoped rest beside the generator register. -/
structure Region0.Ok (R : Region0 F) : Prop where
  body : ∀ V c, BodyObligation (R.dat V c) (defs₀ (F := F)) Variants.none () Set.univ
  hin : ∀ V c, (Pipeline.ΦA spec0 c : sProp (MT nD τ sig Unit (Elt F) ℕ (UR sig nD τ) ℕ)) ⊢ R.Φ V c 0
  hout : ∀ V c, R.Φ V c (Fin.last cfg0.N) ⊢ (Pipeline.ΦA spec0 c : sProp (MT nD τ sig Unit (Elt F) ℕ (UR sig nD τ) ℕ))

/-- The same of the second region. -/
structure Region1 (F : FTy → Type) [FloatOps F] where
  after : Entry F → (c : Dev nD) → (w : Fin cfg1.W) → Fin cfg1.N → (cfg1.win w).block.Idx → Elt F (cfg1.win w).elt
  Φ : Entry F → (c : Dev nD) → Fin (cfg1.N + 1) → sProp (MT nD τ sig Unit (Elt F) ℕ (UR sig nD τ) ℕ)

def Region1.dat (R : Region1 F) (V : Entry F) (c : Dev nD) : Dat τ (Elt F) Unit ℕ (UR sig nD τ) ℕ cfg1 c where
  A w := V c (Pipeline.arrRef spec1 w)
  after := R.after V c
  Φ := R.Φ V c
  q _ := fullShare
  owed _ := 0

structure Region1.Ok (R : Region1 F) : Prop where
  body : ∀ V c, BodyObligation (R.dat V c) (defs₀ (F := F)) Variants.none () Set.univ
  hin : ∀ V c, (Pipeline.ΦA spec1 c : sProp (MT nD τ sig Unit (Elt F) ℕ (UR sig nD τ) ℕ)) ⊢ R.Φ V c 0
  hout : ∀ V c, R.Φ V c (Fin.last cfg1.N) ⊢ (Pipeline.ΦA spec1 c : sProp (MT nD τ sig Unit (Elt F) ℕ (UR sig nD τ) ℕ))

/-- The scoped rest beside the generator register, from what a region's entry hands the invariant, -/
theorem PhiA0_in (c : Dev nD) (P : sProp 𝕄) :
    iprop((∃ r, prngReg c r) ∗ P ∗ Pipeline.scopedRest spec0 c) ⊢ (Pipeline.ΦA spec0 c : sProp 𝕄) := by
  unfold Pipeline.ΦA
  iintro ⟨Hp, -, Hr⟩
  isplitl [Hr]; · iexact Hr
  iexact Hp
/-- and back. -/
theorem PhiA0_out (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr
theorem PhiA1_in (c : Dev nD) (P : sProp 𝕄) :
    iprop((∃ r, prngReg c r) ∗ P ∗ Pipeline.scopedRest spec1 c) ⊢ (Pipeline.ΦA spec1 c : sProp 𝕄) := by
  unfold Pipeline.ΦA
  iintro ⟨Hp, -, Hr⟩
  isplitl [Hr]; · iexact Hr
  iexact Hp
theorem PhiA1_out (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

variable (R0 : Region0 F) (R1 : Region1 F)
variable (m : (ℓ : Loc nD τ sig) → Buf (Elt F) ℓ) (ρ : Dev nD → PrngReg)

/-! ## The buffers' contents through the program -/

/-- The first region's entry contents: the launch memory after the seven host stretches. -/
abbrev E7 : Entry F := fun c b => V7 m c b

/-- After the first region: its windows' arrays at what its write-backs leave, every other buffer as entered. -/
def W8 (c : Dev nD) : Valuation τ sig (Elt F) :=
  Pipeline.withArrays spec0 c (V7 m c) fun w => (R0.dat (E7 m) c).arrAt w cfg0.N
theorem W8_arr (c : Dev nD) (w : Fin cfg0.W) :
    W8 R0 m c (Proc.devRef .tc (Pipeline.arrRef spec0 w)) = (R0.dat (E7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 R0 m c (Proc.devRef .tc b) = V7 m c (Proc.devRef .tc b) := by
  unfold W8; exact Pipeline.withArrays_of_ne spec0 c _ _ b hb
/-- The second region's entry contents. -/
abbrev E8 : Entry F := fun c b => W8 R0 m c b
theorem hF0 (c : Dev nD) (w : Fin cfg0.W) : (R0.dat (E7 m) c).arrAt w cfg0.N = E8 R0 m c (Pipeline.arrRef spec0 w) :=
  (W8_arr R0 m c w).symm
theorem hrest0 (c : Dev nD) : ∀ b, b ∉ Finset.univ.image (Pipeline.arrRef spec0) → E8 R0 m c b = E7 m c b :=
  fun b hb => W8_of_ne R0 m c b fun w e => hb (Finset.mem_image.mpr ⟨w, Finset.mem_univ _, e⟩)

/-- After the second region. -/
def W9 (c : Dev nD) : Valuation τ sig (Elt F) :=
  Pipeline.withArrays spec1 c (W8 R0 m c) fun w => (R1.dat (E8 R0 m) c).arrAt w cfg1.N
theorem W9_arr (c : Dev nD) (w : Fin cfg1.W) :
    W9 R0 R1 m c (Proc.devRef .tc (Pipeline.arrRef spec1 w)) = (R1.dat (E8 R0 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 R0 R1 m c (Proc.devRef .tc b) = W8 R0 m c (Proc.devRef .tc b) := by
  unfold W9; exact Pipeline.withArrays_of_ne spec1 c _ _ b hb
abbrev E9 : Entry F := fun c b => W9 R0 R1 m c b
theorem hF1 (c : Dev nD) (w : Fin cfg1.W) : (R1.dat (E8 R0 m) c).arrAt w cfg1.N = E9 R0 R1 m c (Pipeline.arrRef spec1 w) :=
  (W9_arr R0 R1 m c w).symm
theorem hrest1 (c : Dev nD) : ∀ b, b ∉ Finset.univ.image (Pipeline.arrRef spec1) → E9 R0 R1 m c b = E8 R0 m c b :=
  fun b hb => W9_of_ne R0 R1 m c b fun w e => hb (Finset.mem_image.mpr ⟨w, Finset.mem_univ _, e⟩)

/-- At the end: after the last host operation. -/
abbrev W10 (c : Dev nD) : Valuation τ sig (Elt F) := StableHlo.after hostOps2 (W9 R0 R1 m c)

/-! ## The proof data family and the thread state -/

abbrev adm' : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm' p) c
  | ⟨0, _⟩ => fun c => R0.dat (E7 m) c
  | ⟨1, _⟩ => fun c => R1.dat (E8 R0 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev Rst (c : Dev nD) : sProp 𝕄 := iprop((∃ r, prngReg c r) ∗ ∃ W, owes (c : Thread nD τ) (0 : CellTallies nD τ sig Unit) W)
/-- It holds in particular that the core owes nothing. -/
theorem Rst_owes (c : Dev nD) : (Rst c : sProp 𝕄) ⊢ iprop(∃ W, owes (c : Thread nD τ) (0 : CellTallies nD τ sig Unit) W) := by
  iintro ⟨-, H⟩; iexact H
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-! ## The regions as segments -/

set_option backward.isDefEq.respectTransparency.types false in
/-- The first region over the thread state: entered from every unscoped buffer at the seventh stretch's contents,
    left with its arrays at what the write-backs leave. -/
def reg0 (h0 : R0.Ok) : Pipeline.RegionSeg (pcfgs (F := F)) adm' (pdats R0 R1 m) () defs₀ 𝒱₀ L lv 0 where
  win := launch0.win.to₀
  block_pos := launch0.block_pos
  stage_whole := launch0.stage_whole
  K := PEmpty
  osem k := k.elim
  ho := Pipeline.OwnSemFacts.none _
  hbody c := (h0.body (E7 m) c).loose
  hwaits := Pipeline.hwaits_of_owed_zero _ _ _ _ L lv 0 fun _ _ => rfl
  pre c := iprop(StableHlo.held (c : Thread nD τ) (Pipeline.ucRefs τ sig) (V7 m c) ∗ Rst c)
  post c := iprop(StableHlo.held (c : Thread nD τ) (Pipeline.ucRefs τ sig) (W8 R0 m c) ∗ Rst c)
  X c := iprop(∃ r, prngReg c r)
  Y c := iprop(∃ r, prngReg c r)
  Z c := Pipeline.unscopedRest (Ix := Unit) (Name := ℕ) (U := UR sig nD τ) (Lvl := ℕ) spec0 c (E7 m c)
  hentry c := by
    rw [Pipeline.ownSems0_none]
    have hsplit := Pipeline.arrays_of_unscopedBufs (p := 0) (pcfgs (F := F)) adm' (pdats R0 R1 m) launch0.win launch0.arr_whole c
      ((pdats R0 R1 m 0 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA0_in c _).trans (h0.hin (E7 m) c)
  hout c := by
    rw [Pipeline.ownSems0_none]
    exact (h0.hout (E7 m) c).trans (PhiA0_out c)
  hexit c := by
    have hjoin := Pipeline.unscopedBufs_of_arrays (p := 0) (pcfgs (F := F)) adm' (Ix := Unit) (Name := ℕ) (U := UR sig nD τ) (Lvl := ℕ)
      launch0.win launch0.arr_whole c (pdats R0 R1 m) ((pdats R0 R1 m 0 c).share_full fun _ => rfl)
      (E7 m c) (E8 R0 m c) ((pdats R0 R1 m 0 c).arrAt · cfg0.N) (hF0 R0 m c) (hrest0 R0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state. -/
def reg1 (h1 : R1.Ok) : Pipeline.RegionSeg (pcfgs (F := F)) adm' (pdats R0 R1 m) () defs₀ 𝒱₀ L lv 1 where
  win := launch1.win.to₀
  block_pos := launch1.block_pos
  stage_whole := launch1.stage_whole
  K := PEmpty
  osem k := k.elim
  ho := Pipeline.OwnSemFacts.none _
  hbody c := (h1.body (E8 R0 m) c).loose
  hwaits := Pipeline.hwaits_of_owed_zero _ _ _ _ L lv 1 fun _ _ => rfl
  pre c := iprop(StableHlo.held (c : Thread nD τ) (Pipeline.ucRefs τ sig) (W8 R0 m c) ∗ Rst c)
  post c := iprop(StableHlo.held (c : Thread nD τ) (Pipeline.ucRefs τ sig) (W9 R0 R1 m c) ∗ Rst c)
  X c := iprop(∃ r, prngReg c r)
  Y c := iprop(∃ r, prngReg c r)
  Z c := Pipeline.unscopedRest (Ix := Unit) (Name := ℕ) (U := UR sig nD τ) (Lvl := ℕ) spec1 c (E8 R0 m c)
  hentry c := by
    rw [Pipeline.ownSems0_none]
    have hsplit := Pipeline.arrays_of_unscopedBufs (p := 1) (pcfgs (F := F)) adm' (pdats R0 R1 m) launch1.win launch1.arr_whole c
      ((pdats R0 R1 m 1 c).share_full fun _ => rfl) (E8 R0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA1_in c _).trans (h1.hin (E8 R0 m) c)
  hout c := by
    rw [Pipeline.ownSems0_none]
    exact (h1.hout (E8 R0 m) c).trans (PhiA1_out c)
  hexit c := by
    have hjoin := Pipeline.unscopedBufs_of_arrays (p := 1) (pcfgs (F := F)) adm' (Ix := Unit) (Name := ℕ) (U := UR sig nD τ) (Lvl := ℕ)
      launch1.win launch1.arr_whole c (pdats R0 R1 m) ((pdats R0 R1 m 1 c).share_full fun _ => rfl)
      (E8 R0 m c) (E9 R0 R1 m c) ((pdats R0 R1 m 1 c).arrAt · cfg1.N) (hF1 R0 R1 m c) (hrest1 R0 R1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's ten segments in order. -/
abbrev segs (h0 : R0.Ok) (h1 : R1.Ok) : List (Pipeline.Seg (pcfgs (F := F)) adm' (pdats R0 R1 m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .region (reg0 R0 R1 m h0),
    .region (reg1 R0 R1 m h1),
    .host (hseg hostOps2 hostOps2_sub hostOps2_fresh (W9 R0 R1 m)) ]

set_option backward.isDefEq.respectTransparency.types false in
/-- THE RUN. From any memory with zero counters every weakly fair execution of the program terminates, nothing
    faulting, and the final memory holds every unscoped buffer of every core at the end of the fold. -/
theorem run (h0 : R0.Ok) (h1 : R1.Ok) : θ_run defs (onTc (τ := τ) (main (F := F))) ⟨m, fun _ => 0, ρ⟩ (fun r => ∀ c : Dev nD,
      ∀ b ∈ Pipeline.ucRefs τ sig, r.2.mem (((c : Thread nD τ)).1, b) = W10 R0 R1 m c b) :=
  Pipeline.θ_run_regions_kit (pcfgs (F := F)) adm' (pdats R0 R1 m) () cellOf_inj emb₁ defs₀ 𝒱₀ L lv m ρ main (segs R0 R1 m h0 h1)
    (fun c Q => by
      rewrite [main_chain c, Pipeline.Seg.run_eq_chain,
        show (segs R0 R1 m h0 h1).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (W10 R0 R1 m c))
    (hch := ⟨fun _ => .rfl, fun _ => .rfl, fun _ => .rfl, fun _ => .rfl, fun _ => .rfl, fun _ => .rfl, fun _ => .rfl, fun _ => .rfl,
      fun _ => .rfl, fun _ => .rfl, fun c => sep_mono .rfl (Rst_owes c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 R0 R1 m c b)
    (hfin := fun c s' => by
      iintro ⟨Hh, HSI⟩
      unfold StableHlo.held
      imodintro
      iapply (pointsTo_read_all (Pipeline.ucRefs τ sig) (fun b => (((c : Thread nD τ)).1, b)) (W10 R0 R1 m c) s')
      isplitl [Hh] <;> iassumption)
    (hQ := fun s h c => h c)

/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Kept.lean ====
/-
  The arguments end as launched. No host operation writes an argument's buffer, and no window of either region
  stages one, so the fold of the buffers' contents, read at an argument, walks back to the launch memory; with the
  run this is the frame claim's postcondition.
-/
import proofs.«130097_j62697932587275_2_alg».proof.Proof.KI.Run

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (R0 : Region0 F) (R1 : Region1 F)
variable (m : (ℓ : Loc nD τ sig) → Buf (Elt F) ℓ) (ρ : Dev nD → PrngReg)

/-- A buffer that the last host operation does not write and that is no window's array of either region holds at the
    end what the seventh host stretch left in it. -/
theorem W10_of (c : Dev nD) (b : Ref sig .tc) (h2 : b ∉ hostOps2_W) (h1 : ∀ w, Pipeline.arrRef spec1 w ≠ b)
    (h0 : ∀ w, Pipeline.arrRef spec0 w ≠ b) :
    W10 R0 R1 m c (Proc.devRef .tc b) = V7 m c (Proc.devRef .tc b) :=
  (StableHlo.after_of_writes_sub hostOps2 _ hostOps2_writes h2).trans
    ((W9_of_ne R0 R1 m c b h1).trans (W8_of_ne R0 m c b h0))

/-- Argument 0 passes through the seven host stretches. -/
theorem V7_main_arg0 (c : Dev nD) : V7 m c main_arg0 = m ((c : Thread nD τ).loc main_arg0) :=
  (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
/-- Argument 0 ends as launched. -/
theorem W10_main_arg0 (c : Dev nD) : W10 R0 R1 m c main_arg0 = m ((c : Thread nD τ).loc main_arg0) :=
  (W10_of R0 R1 m c main_arg0 (by decide) (by decide) (by decide)).trans (V7_main_arg0 m c)
/-- Argument 1 passes through the seven host stretches. -/
theorem V7_main_arg1 (c : Dev nD) : V7 m c main_arg1 = m ((c : Thread nD τ).loc main_arg1) :=
  (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
/-- Argument 1 ends as launched. -/
theorem W10_main_arg1 (c : Dev nD) : W10 R0 R1 m c main_arg1 = m ((c : Thread nD τ).loc main_arg1) :=
  (W10_of R0 R1 m c main_arg1 (by decide) (by decide) (by decide)).trans (V7_main_arg1 m c)
/-- Argument 2 passes through the seven host stretches. -/
theorem V7_main_arg2 (c : Dev nD) : V7 m c main_arg2 = m ((c : Thread nD τ).loc main_arg2) :=
  (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
/-- Argument 2 ends as launched. -/
theorem W10_main_arg2 (c : Dev nD) : W10 R0 R1 m c main_arg2 = m ((c : Thread nD τ).loc main_arg2) :=
  (W10_of R0 R1 m c main_arg2 (by decide) (by decide) (by decide)).trans (V7_main_arg2 m c)
/-- Argument 3 passes through the seven host stretches. -/
theorem V7_main_arg3 (c : Dev nD) : V7 m c main_arg3 = m ((c : Thread nD τ).loc main_arg3) :=
  (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
/-- Argument 3 ends as launched. -/
theorem W10_main_arg3 (c : Dev nD) : W10 R0 R1 m c main_arg3 = m ((c : Thread nD τ).loc main_arg3) :=
  (W10_of R0 R1 m c main_arg3 (by decide) (by decide) (by decide)).trans (V7_main_arg3 m c)
/-- Argument 4 passes through the seven host stretches. -/
theorem V7_main_arg4 (c : Dev nD) : V7 m c main_arg4 = m ((c : Thread nD τ).loc main_arg4) :=
  (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl
/-- Argument 4 ends as launched. -/
theorem W10_main_arg4 (c : Dev nD) : W10 R0 R1 m c main_arg4 = m ((c : Thread nD τ).loc main_arg4) :=
  (W10_of R0 R1 m c main_arg4 (by decide) (by decide) (by decide)).trans (V7_main_arg4 m c)
/-- Argument 5 passes through the seven host stretches. -/
theorem V7_main_arg5 (c : Dev nD) : V7 m c main_arg5 = m ((c : Thread nD τ).loc main_arg5) :=
  (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
/-- Argument 5 ends as launched. -/
theorem W10_main_arg5 (c : Dev nD) : W10 R0 R1 m c main_arg5 = m ((c : Thread nD τ).loc main_arg5) :=
  (W10_of R0 R1 m c main_arg5 (by decide) (by decide) (by decide)).trans (V7_main_arg5 m c)
/-- Argument 6 passes through the seven host stretches. -/
theorem V7_main_arg6 (c : Dev nD) : V7 m c main_arg6 = m ((c : Thread nD τ).loc main_arg6) :=
  (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl
/-- Argument 6 ends as launched. -/
theorem W10_main_arg6 (c : Dev nD) : W10 R0 R1 m c main_arg6 = m ((c : Thread nD τ).loc main_arg6) :=
  (W10_of R0 R1 m c main_arg6 (by decide) (by decide) (by decide)).trans (V7_main_arg6 m c)
/-- Argument 7 passes through the seven host stretches. -/
theorem V7_main_arg7 (c : Dev nD) : V7 m c main_arg7 = m ((c : Thread nD τ).loc main_arg7) :=
  (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl
/-- Argument 7 ends as launched. -/
theorem W10_main_arg7 (c : Dev nD) : W10 R0 R1 m c main_arg7 = m ((c : Thread nD τ).loc main_arg7) :=
  (W10_of R0 R1 m c main_arg7 (by decide) (by decide) (by decide)).trans (V7_main_arg7 m c)
/-- Argument 8 passes through the seven host stretches. -/
theorem V7_main_arg8 (c : Dev nD) : V7 m c main_arg8 = m ((c : Thread nD τ).loc main_arg8) :=
  (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans rfl
/-- Argument 8 ends as launched. -/
theorem W10_main_arg8 (c : Dev nD) : W10 R0 R1 m c main_arg8 = m ((c : Thread nD τ).loc main_arg8) :=
  (W10_of R0 R1 m c main_arg8 (by decide) (by decide) (by decide)).trans (V7_main_arg8 m c)

/-- THE FRAME: every weakly fair execution terminates, nothing faulting, with every argument array as launched. -/
theorem frame (h0 : R0.Ok) (h1 : R1.Ok) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W10_main_arg0 R0 R1 m c),
     (h c _ (mem_uc main_arg1 (by decide))).trans (W10_main_arg1 R0 R1 m c),
     (h c _ (mem_uc main_arg2 (by decide))).trans (W10_main_arg2 R0 R1 m c),
     (h c _ (mem_uc main_arg3 (by decide))).trans (W10_main_arg3 R0 R1 m c),
     (h c _ (mem_uc main_arg4 (by decide))).trans (W10_main_arg4 R0 R1 m c),
     (h c _ (mem_uc main_arg5 (by decide))).trans (W10_main_arg5 R0 R1 m c),
     (h c _ (mem_uc main_arg6 (by decide))).trans (W10_main_arg6 R0 R1 m c),
     (h c _ (mem_uc main_arg7 (by decide))).trans (W10_main_arg7 R0 R1 m c),
     (h c _ (mem_uc main_arg8 (by decide))).trans (W10_main_arg8 R0 R1 m c)⟩)
    (run R0 R1 m ρ h0 h1)

end Cert.KernelIdeal.Hand

end
-- ==== Proof.KI.Region0Runs.lean ====
import proofs.«130097_j62697932587275_2_alg».proof.Proof.Gen.KernelIdeal.Launch
import proofs.«130097_j62697932587275_2_alg».proof.Proof.Gen.KernelIdeal.Skeleton
import proofs.«130097_j62697932587275_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

/-! # The low-rank projection kernel's body, run once per control case

The body of the first kernel has two conditionals on the second grid coordinate `k`: `k = 0` (zero-fill the
accumulator) and `k = 1` (scale, cast and store the low-rank block). On the 8 × 2 grid exactly one holds at each
point, so there are two cases. Each is stated with explicit contents: every load and store is of a whole buffer, so
each buffer ends holding the last payload stored into it. Generic in the float model. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The literal zero offsets of a rank-2 rectangle are the zero function. -/
theorem hz : (![0, 0] : Fin 2 → Nat) = fun _ => 0 := funext fun a => by fin_cases a <;> rfl

/-! ## The body's two branch conditions, decided over the grid -/

/-- The first conditional's condition (`k == 0`), as the skeleton's scalar chain over the grid coordinates. -/
abbrev cond0_0 (i : grid0.Coords) : Prop := (Scalar.cmpi .ne (Scalar.extui (Scalar.cmpi .eq (BitVec.ofNat 32 (i 1).val) 0#32)) 0#32) = 1#1
/-- It holds at the even points (those with second coordinate 0). -/
theorem hcond0_0 : ∀ t : Fin cfg0.N, cond0_0 (grid0.coords t) ↔ t.val % 2 = 0 :=
  (by decide +kernel : ∀ t : Fin grid0.N, cond0_0 (grid0.coords t) ↔ t.val % 2 = 0)
/-- The second conditional's condition (`k == 1`, the last step of the reduction axis). -/
abbrev cond0_1 (i : grid0.Coords) : Prop := k0_cond2 i = 1#1
/-- It holds at the odd points (those with second coordinate 1). -/
theorem hcond0_1 : ∀ t : Fin cfg0.N, cond0_1 (grid0.coords t) ↔ t.val % 2 = 1 :=
  (by decide +kernel : ∀ t : Fin grid0.N, cond0_1 (grid0.coords t) ↔ t.val % 2 = 1)

set_option maxHeartbeats 1000000 in
/-- The body at a point with `k = 0`, on whole staging memrefs: the three inputs at their contents, the low-rank
    output's buffer (idle here) at contents `xi3` handed back untouched, the cast output's and the accumulator at
    anything. It zero-fills the accumulator, stores the cast of `x`, and leaves the accumulator at
    `0 + x·Aᵀ` of this column block (each load and store is of a whole buffer, so a buffer ends at the last
    payload stored into it, and the accumulator read back after the zero fill is the zero block). -/
theorem run0_A (c : Dev nD) (i : grid0.Coords) (arg2 : Memref sig .tc .vmem S1024x2048 .f32) (harg2 : arg2.IsWhole)
    (arg3 : Memref sig .tc .vmem S128x2048 .bf16) (harg3 : arg3.IsWhole)
    (arg4 : Memref sig .tc .vmem S1x128 .f32) (harg4 : arg4.IsWhole)
    (arg5 : Memref sig .tc .vmem S1024x128 .bf16) (harg5 : arg5.IsWhole)
    (arg6 : Memref sig .tc .vmem S1024x2048 .bf16) (harg6 : arg6.IsWhole)
    (arg7 : Memref sig .tc .vmem S1024x128 .f32) (harg7 : arg7.IsWhole)
    (hc0 : cond0_0 i) (hc1 : ¬cond0_1 i)
    (x0 : Vec F S1024x2048 .f32) (x1 : Vec F S128x2048 .bf16) (x2 : Vec F S1x128 .f32) (xi3 : Vec F S1024x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k0_pay2 x0) ∗ owns (c : Thread nD τ) arg7 fullShare (k0_pay3 x0 (k0_pay1 (F := F)) x1)) -∗ K ⟨⟩))
      ⊢ wp frame (wpE (defs₀ (F := F)) Variants.none c none) E (cc0_lowrank_kernel i arg2 harg2 arg3 harg3 arg4 harg4 arg5 harg5 arg6 harg6 arg7 harg7) K := by
  simp only [cc0_lowrank_kernel_eq_skeleton]; unfold cc0_lowrank_kernel_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    refine (View.read_writes_eq_canon _ _ _ (fun y => ⟨_, List.mem_cons_self .., View.mem_set_unit_zero hz inb_S1024x2048_S1024x2048_0_0 y⟩)).trans ?_
    rw [View.canon_cons_unit_zero hz]
    simp only [View.readAt_eq_ld, harg2.read_unread, View.ld_unit_zero (S := S1024x2048) hz]
  · iexists _; isplitr
    swap; · iexact HS0
    ipureintro
    sl_unfold_words
    refine (View.read_writes_eq_canon _ _ _ (fun y => ⟨_, List.mem_cons_self .., View.mem_set_unit_zero hz inb_S1024x128_S1024x128_0_0 y⟩)).trans ?_
    rw [View.canon_cons_unit_zero hz]
    rw [View.readCov_unit_zero _ hz]
    simp only [View.readAt_eq_ld, harg2.read_unread, harg3.read_unread, View.ld_unit_zero (S := S1024x2048) hz, View.ld_unit_zero (S := S128x2048) hz]

set_option maxHeartbeats 1000000 in
/-- The body at a point with `k = 1`, on whole staging memrefs: the three inputs at their contents, both outputs'
    buffers at anything, the accumulator at what the point before left (`xs0`). It stores the cast of `x`,
    adds this column block's `x·Aᵀ` to the accumulator, and stores the accumulator times the broadcast scale,
    cast, into the low-rank output. -/
theorem run0_B (c : Dev nD) (i : grid0.Coords) (arg2 : Memref sig .tc .vmem S1024x2048 .f32) (harg2 : arg2.IsWhole)
    (arg3 : Memref sig .tc .vmem S128x2048 .bf16) (harg3 : arg3.IsWhole)
    (arg4 : Memref sig .tc .vmem S1x128 .f32) (harg4 : arg4.IsWhole)
    (arg5 : Memref sig .tc .vmem S1024x128 .bf16) (harg5 : arg5.IsWhole)
    (arg6 : Memref sig .tc .vmem S1024x2048 .bf16) (harg6 : arg6.IsWhole)
    (arg7 : Memref sig .tc .vmem S1024x128 .f32) (harg7 : arg7.IsWhole)
    (hc0 : ¬cond0_0 i) (hc1 : cond0_1 i)
    (x0 : Vec F S1024x2048 .f32) (x1 : Vec F S128x2048 .bf16) (x2 : Vec F S1x128 .f32) (xs0 : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (∃ d, owns (c : Thread nD τ) arg6 fullShare d) ∗ owns (c : Thread nD τ) arg7 fullShare xs0
        ∗ (iprop(owns (c : Thread nD τ) arg2 fullShare x0 ∗ owns (c : Thread nD τ) arg3 fullShare x1 ∗ owns (c : Thread nD τ) arg4 fullShare x2
            ∗ owns (c : Thread nD τ) arg5 fullShare (k0_pay4 (k0_pay3 x0 xs0 x1) x2)
            ∗ owns (c : Thread nD τ) arg6 fullShare (k0_pay2 x0) ∗ owns (c : Thread nD τ) arg7 fullShare (k0_pay3 x0 xs0 x1)) -∗ K ⟨⟩))
      ⊢ wp frame (wpE (defs₀ (F := F)) Variants.none c none) E (cc0_lowrank_kernel i arg2 harg2 arg3 harg3 arg4 harg4 arg5 harg5 arg6 harg6 arg7 harg7) K := by
  simp only [cc0_lowrank_kernel_eq_skeleton]; unfold cc0_lowrank_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
  obtain rfl := harg2.eq_unread hf0; obtain rfl := harg3.eq_unread hf1; obtain rfl := harg4.eq_unread hf2; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    refine (View.read_writes_eq_canon _ _ _ (fun y => ⟨_, List.mem_cons_self .., View.mem_set_unit_zero hz inb_S1024x128_S1024x128_0_0 y⟩)).trans ?_
    rw [View.canon_cons_unit_zero hz]
    first | rw [View.readCov_unit_zero _ hz] | skip
    simp only [View.readAt_eq_ld, harg2.read_unread, harg3.read_unread, harg4.read_unread, harg7.read_unread, View.ld_unit_zero (S := S1024x2048) hz, View.ld_unit_zero (S := S128x2048) hz, View.ld_unit_zero (S := S1x128) hz, View.ld_unit_zero (S := S1024x128) hz]
  isplitl [H4]
  · iexists _; isplitr
    swap; · iexact H4
    ipureintro
    sl_unfold_words
    refine (View.read_writes_eq_canon _ _ _ (fun y => ⟨_, List.mem_cons_self .., View.mem_set_unit_zero hz inb_S1024x2048_S1024x2048_0_0 y⟩)).trans ?_
    rw [View.canon_cons_unit_zero hz]
    simp only [View.readAt_eq_ld, harg2.read_unread, View.ld_unit_zero (S := S1024x2048) hz]
  · iexists _; isplitr
    swap; · iexact HS0
    ipureintro
    sl_unfold_words
    refine (View.read_writes_eq_canon _ _ _ (fun y => ⟨_, List.mem_cons_self .., View.mem_set_unit_zero hz inb_S1024x128_S1024x128_0_0 y⟩)).trans ?_
    rw [View.canon_cons_unit_zero hz]
    simp only [View.readAt_eq_ld, harg2.read_unread, harg3.read_unread, harg7.read_unread, View.ld_unit_zero (S := S1024x2048) hz, View.ld_unit_zero (S := S128x2048) hz, View.ld_unit_zero (S := S1024x128) hz]

end Cert.KernelIdeal.Hand

end
-- ==== Proof.KI.Region0.lean ====
import proofs.«130097_j62697932587275_2_alg».proof.Proof.KI.Region0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region is stated at
variable (V : (c : Dev nD) → (b : Ref sig .tc) → Buf (Elt F) ((c : Thread nD τ).loc b))

/-! # Region 0: the low-rank projection kernel on its 8 × 2 grid, at the entry contents `V`

Point `t` has coordinates `(t / 2, t % 2)`: row block `i = t / 2` of `x`, column block `k = t % 2`. The kernel
keeps an f32 accumulator `[1024, 128]` between the two column blocks of a row block: at `k = 0` it is zero-filled
and then holds `0 + x·Aᵀ` over the first 2048 columns; at `k = 1` it gains the product over the last 2048 columns
and the low-rank output block is the accumulator times the broadcast scale, cast. The cast of `x` is stored at
every point. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place (unfetched, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place (unfetched, the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place (unfetched, the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Where the windows are idle -/

/-- The inputs and the cast output are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_4 : ∀ t : Fin cfg0.N, cfg0.idle 4 (grid0.coords t) = false := by decide +kernel
/-- At the points with `k = 0` the low-rank output is idle: nothing is stored into it, -/
theorem idleAt0_3_A : ∀ t : Fin cfg0.N, cond0_0 (grid0.coords t) → ¬cond0_1 (grid0.coords t) → cfg0.idle 3 (grid0.coords t) = true := by decide +kernel
/-- and its block is not written back there. -/
theorem noFlush0_3_A : ∀ t : Fin cfg0.N, cond0_0 (grid0.coords t) → ¬cond0_1 (grid0.coords t) → (cfg0.win 3).flush t = false := by decide +kernel
/-- At the points with `k = 1` it is live. -/
theorem liveAt0_3_B : ∀ t : Fin cfg0.N, ¬cond0_0 (grid0.coords t) → cond0_1 (grid0.coords t) → cfg0.idle 3 (grid0.coords t) = false := by decide +kernel

/-! ## The staging memrefs, the accumulator, the rest of the scoped buffers -/

/-- Each window's current staging memref at point `t`, as the pipeline passes it to the body, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2048 .bf16 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0 : Memref sig .tc .vmem S1024x128 .f32 := Memref.whole cc0_scratch0

/-- The core's other scoped buffers that are no staging buffer of this kernel (the second kernel's staging buffers),
    each whole at some contents: the body never touches them. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the launch hands the region: the accumulator at some contents, the other scoped buffers, the generator register. -/
theorem PhiA0_eq (c : Dev nD) :
    (Pipeline.ΦA spec0 c : sProp 𝕄)
      = iprop(iprop((∃ d, owns (c : Thread nD τ) scM0 fullShare d) ∗ restS (F := F) c) ∗ (∃ r, prngReg c r)) := by
  unfold Pipeline.ΦA restS; rw [scopedRest0_eq]; simp only [scM0, owns_whole]; try rfl

/-! ## What the accumulator holds after each point -/

/-- The accumulator after the body at position `n`: at an even position (`k = 0`) the zero block plus this column
    block's product; at an odd one what the position before left plus this column block's product. -/
def outsAt0 (c : Dev nD) : (n : ℕ) → n < cfg0.N → Vec F S1024x128 .f32
  | 0, hn => k0_pay3 (iblk0 V c 0 ⟨0, hn⟩) (k0_pay1 (F := F)) (iblk0 V c 1 ⟨0, hn⟩)
  | n + 1, hn =>
    if (n + 1) % 2 = 0 then k0_pay3 (iblk0 V c 0 ⟨n + 1, hn⟩) (k0_pay1 (F := F)) (iblk0 V c 1 ⟨n + 1, hn⟩)
    else k0_pay3 (iblk0 V c 0 ⟨n + 1, hn⟩) (outsAt0 c n (Nat.lt_of_succ_lt hn)) (iblk0 V c 1 ⟨n + 1, hn⟩)

/-- At a point with `k = 0`: the zero block plus the product. -/
theorem outsAt0_A (c : Dev nD) (t : Fin cfg0.N) (h0 : t.val % 2 = 0) :
    outsAt0 V c t.val t.isLt = k0_pay3 (iblk0 V c 0 t) (k0_pay1 (F := F)) (iblk0 V c 1 t) := by
  obtain ⟨n, hn⟩ := t
  cases n with
  | zero => rfl
  | succ n => exact if_pos h0

/-- At a point with `k = 1`: what the point before left plus the product. -/
theorem outsAt0_B (c : Dev nD) (t : Fin cfg0.N) (h1 : t.val % 2 = 1) :
    outsAt0 V c t.val t.isLt = k0_pay3 (iblk0 V c 0 t) (outsAt0 V c (t.val - 1) (Nat.lt_of_le_of_lt (Nat.sub_le _ _) t.isLt)) (iblk0 V c 1 t) := by
  obtain ⟨n, hn⟩ := t
  cases n with
  | zero => exact absurd (show 0 % 2 = 1 from h1) (by decide)
  | succ n => exact if_neg (fun h => by dsimp only at h1; omega)

/-- The region invariant before position `n`: before the first point what the launch hands over (the accumulator at
    anything); afterwards the accumulator at what the point before left, the other scoped buffers and the generator
    register as they were. -/
def PhiS (c : Dev nD) : (n : ℕ) → n ≤ cfg0.N → sProp 𝕄
  | 0, _ => Pipeline.ΦA spec0 c
  | n + 1, hn => iprop(iprop(owns (c : Thread nD τ) scM0 fullShare (outsAt0 V c n hn) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (outsAt0 V c n hn) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (outsAt0 V c (n - 1) (by omega)) ∗ restS (F := F) c) ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block, the cast output's at the cast of the `x` block, the low-rank output's at
    the accumulator (as this point leaves it) times the broadcast scale, cast — consulted only at the points with
    `k = 1`, where the window is live; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay4 (outsAt0 V c t.val t.isLt) (iblk0 V c 2 t)
    | ⟨4, _⟩ => k0_pay2 (iblk0 V c 0 t)
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay4 (outsAt0 V c t.val t.isLt) (iblk0 V c 2 t) := by dsimp only [dat0]
theorem after0_4 (c : Dev nD) (t : Fin cfg0.N) : (dat0 V c).after 4 t = k0_pay2 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the point's parity says which case it is in; the
    invariant hands the body the accumulator (at anything at the first point, else at what the point before left)
    and takes it back at this point's contents; at `k = 0` the low-rank output's buffer is handed back as found;
    the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t]]
  rw [show (dat0 V c).leavesExact 1 t = owns (c : Thread nD τ) (ms0_1 t) fullShare ((dat0 V c).after 1 t) from by
    unfold Dat.leavesExact; rw [liveAt0_1 t]]
  rw [show (dat0 V c).leavesExact 2 t = owns (c : Thread nD τ) (ms0_2 t) fullShare ((dat0 V c).after 2 t) from by
    unfold Dat.leavesExact; rw [liveAt0_2 t]]
  rw [show (dat0 V c).leavesExact 4 t = owns (c : Thread nD τ) (ms0_4 t) fullShare ((dat0 V c).after 4 t) from by
    unfold Dat.leavesExact; rw [liveAt0_4 t]]
  rw [after0_0, after0_1, after0_2, after0_4]
  by_cases h0 : t.val % 2 = 0
  · have h1 : ¬t.val % 2 = 1 := by omega
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [outsAt0_A V c t h0]
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩⟩
      iapply (run0_A c (grid0.coords t) _ _ _ _ _ _ _ _ _ _ _ _ ((hcond0_0 t).mpr h0) (fun h => h1 ((hcond0_1 t).mp h)) (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexists _; iexact H3
      iexact H4
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply (run0_A c (grid0.coords t) _ _ _ _ _ _ _ _ _ _ _ _ ((hcond0_0 t).mpr h0) (fun h => h1 ((hcond0_1 t).mp h)) (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, H4, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexists _; iexact H3
      iexact H4
  · have h1 : t.val % 2 = 1 := by omega
    have hz : t.val ≠ 0 := by omega
    rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1)], after0_3]
    rw [outsAt0_B V c t h1]
    rw [PhiS_castSucc V c t, PhiS_pos V c _ _ hz]
    iintro ⟨⟨⟨HS0, HR⟩, Hg⟩, Ho, ⟨%d0, H0⟩, ⟨%d1, H1⟩, ⟨%d2, H2⟩, ⟨%d3, H3⟩, ⟨%d4, H4⟩⟩
    iapply (run0_B c (grid0.coords t) _ _ _ _ _ _ _ _ _ _ _ _ (fun h => h0 ((hcond0_0 t).mp h)) ((hcond0_1 t).mpr h1) (iblk0 V c 0 t) (iblk0 V c 1 t) (iblk0 V c 2 t) _ Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives it back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Hand

end
-- ==== Proof.KI.Region1.lean ====
import proofs.«130097_j62697932587275_2_alg».proof.Proof.Gen.KernelIdeal.Launch
import proofs.«130097_j62697932587275_2_alg».proof.Proof.Gen.KernelIdeal.Skeleton
import proofs.«130097_j62697932587275_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call: the main product, accumulated over the reduction axis in its output block

Grid `[4, 4, 8]`, point `t` at coordinates `(i, j, k) = (t / 32, (t / 8) % 4, t % 8)`. Windows 0 and 1 are the
`(i, k)` block of the left operand and the `(j, k)` block of the right one; windows 2 and 3 the `(i, 0)` and `(j, 0)`
blocks of the two low-rank factors; window 4 is the `(i, j)` block of the result. Its block index does not read
`k`, so its staging buffer stays in place over the eight points of a block and is written back after the last. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the output block's buffer holds after each point -/

/-- The accumulation. Along the reduction axis the output's staging buffer holds: after the first point of a block
    (`k = 0`), zero plus the product of that point's stretch of columns; after each later point, what the point before
    left plus that point's product; and after the last point of the block (`k = 7`), that plus the low-rank product. -/
def outsAt1 (c : Dev nD) : (n : ℕ) → n < cfg1.N → Vec F S2048x1024 .f32
  | 0, hn => k1_pay2 (k1_pay1 (F := F)) (iblk1 V c 0 ⟨0, hn⟩) (iblk1 V c 1 ⟨0, hn⟩)
  | n + 1, hn =>
    if (n + 1) % 8 = 0 then
      k1_pay2 (k1_pay1 (F := F)) (iblk1 V c 0 ⟨n + 1, hn⟩) (iblk1 V c 1 ⟨n + 1, hn⟩)
    else if (n + 1) % 8 = 7 then
      k1_pay3 (k1_pay2 (outsAt1 c n (Nat.lt_of_succ_lt hn)) (iblk1 V c 0 ⟨n + 1, hn⟩) (iblk1 V c 1 ⟨n + 1, hn⟩))
        (iblk1 V c 2 ⟨n + 1, hn⟩) (iblk1 V c 3 ⟨n + 1, hn⟩)
    else
      k1_pay2 (outsAt1 c n (Nat.lt_of_succ_lt hn)) (iblk1 V c 0 ⟨n + 1, hn⟩) (iblk1 V c 1 ⟨n + 1, hn⟩)

/-- At a first point of a block: the product of the point's column stretch over zero. -/
theorem outsAt1_A (c : Dev nD) (t : Fin cfg1.N) (h0 : t.val % 8 = 0) :
    outsAt1 V c t.val t.isLt = k1_pay2 (k1_pay1 (F := F)) (iblk1 V c 0 t) (iblk1 V c 1 t) := by
  obtain ⟨n, hn⟩ := t
  cases n with
  | zero => exact rfl
  | succ n => exact (if_pos h0).trans rfl

/-- At a middle point: the product of the point's column stretch over what the point before left. -/
theorem outsAt1_B (c : Dev nD) (t : Fin cfg1.N) (h0 : ¬t.val % 8 = 0) (h7 : ¬t.val % 8 = 7) :
    outsAt1 V c t.val t.isLt
      = k1_pay2 (outsAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact (if_neg h0).trans ((if_neg h7).trans rfl)

/-- At a last point of a block: that, and then the low-rank product over it. -/
theorem outsAt1_C (c : Dev nD) (t : Fin cfg1.N) (h7 : t.val % 8 = 7) :
    outsAt1 V c t.val t.isLt
      = k1_pay3 (k1_pay2 (outsAt1 V c (t.val - 1) (Nat.lt_of_le_of_lt (Nat.sub_le _ _) t.isLt)) (iblk1 V c 0 t) (iblk1 V c 1 t))
          (iblk1 V c 2 t) (iblk1 V c 3 t) := by
  obtain ⟨n, hn⟩ := t
  cases n with
  | zero => exact absurd (show 0 % 8 = 7 from h7) (by decide)
  | succ n => exact (if_neg (by have h : (n + 1) % 8 = 7 := h7; omega)).trans ((if_pos h7).trans rfl)

/-! ## The pipeline's proof data -/

/-- The proof data of this pipeline on core `c`: the arrays as the region finds them (`V`); after the body at point
    `t` each input's buffer at its block and the output's at `outsAt1`; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

/-- Each input's current staging buffer holds its block at every point, fetched there or not: where it is not
    fetched its block index has not moved (the two low-rank factors' blocks move only with `i`, resp. `j`). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- At a point that is not the first of its block, the output's current staging buffer holds what the body left at the
    point before: the point is not the grid's first, and the buffer was not written back in between (it is written
    back only after a block's last point). -/
theorem before1_4 (c : Dev nD) (t : Fin cfg1.N) (h0 : ¬t.val % 8 = 0) (d) :
    (dat1 V c).before 4 t d = outsAt1 V c (t.val - 1) (Nat.lt_of_le_of_lt (Nat.sub_le _ _) t.isLt) := by
  rw [Dat.before_out_kept _ 4 rfl t (by omega)
    (Bool.eq_false_iff.mpr fun h => by have := (flush1_4 _).mp h; dsimp only at this; omega)
    (fun _ => rfl) (fun _ _ => rfl)]
  dsimp only [dat1]

/-! ## The body's two branch conditions -/

/-- The first conditional's condition (the reduction coordinate is 0), from the grid coordinates. -/
abbrev cond1_0 (i : grid1.Coords) : Prop := (Scalar.cmpi .ne (Scalar.extui (Scalar.cmpi .eq (BitVec.ofNat 32 (i 2).val) 0#32)) 0#32) = 1#1
/-- The second conditional's condition (the reduction coordinate is 7, the last). -/
abbrev cond1_1 (i : grid1.Coords) : Prop := (Scalar.cmpi .ne (Scalar.extui (Scalar.cmpi .eq (BitVec.ofNat 32 (i 2).val) 7#32)) 0#32) = 1#1
/-- In closed form over the grid: the first holds exactly at the points ≡ 0 (mod 8), -/
theorem hcond1_0 : ∀ t : Fin cfg1.N, cond1_0 (grid1.coords t) ↔ t.val % 8 = 0 :=
  (by decide +kernel : ∀ t : Fin grid1.N, cond1_0 (grid1.coords t) ↔ t.val % 8 = 0)
/-- the second exactly at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-- The offset of every access of this body: the origin. -/
theorem hz2 : (![0, 0] : Fin 2 → ℕ) = fun _ => 0 := by
  funext a; match a with | ⟨0, _⟩ => rfl | ⟨1, _⟩ => rfl

/-! ## The kernel body on any whole staging memrefs, case by case

The body's loads and stores are all of whole buffers, so what a run leaves in the output's memref is the payload of
its last store, and what a load after a store reads is that store's payload. -/

set_option maxHeartbeats 1000000 in
/-- At a block's first point (the first conditional taken, the second not): the output's memref, holding anything, ends
    at the point's product over the zero fill. -/
theorem run1_A (c : Dev nD) (E : Set ℕ) (i : grid1.Coords)
    (arg3 : Memref sig .tc .vmem S2048x512 .bf16) (harg3 : arg3.IsWhole) (arg4 : Memref sig .tc .vmem S1024x512 .bf16) (harg4 : arg4.IsWhole)
    (arg5 : Memref sig .tc .vmem S2048x128 .bf16) (harg5 : arg5.IsWhole) (arg6 : Memref sig .tc .vmem S1024x128 .bf16) (harg6 : arg6.IsWhole)
    (arg7 : Memref sig .tc .vmem S2048x1024 .f32) (harg7 : arg7.IsWhole)
    (hc0 : cond1_0 i) (hc1 : ¬cond1_1 i)
    (x0 : Vec F S2048x512 .bf16) (x1 : Vec F S1024x512 .bf16) (x2 : Vec F S2048x128 .bf16) (x3 : Vec F S1024x128 .bf16)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k1_pay2 (k1_pay1 (F := F)) x0 x1)) -∗ K ⟨⟩))
      ⊢ wp frame (wpE (defs₀ (F := F)) Variants.none c none) E (cc1_main_kernel i arg3 harg3 arg4 harg4 arg5 harg5 arg6 harg6 arg7 harg7) K := by
  simp only [cc1_main_kernel_eq_skeleton]; unfold cc1_main_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  rw [View.read_writes_eq_canon _ _ _ (fun y => ⟨_, List.mem_cons_self .., View.mem_set_unit_zero hz2 inb_S2048x1024_S2048x1024_0_0 y⟩)]
  rw [View.canon_cons_unit_zero hz2]
  rw [View.readCov_unit_zero _ hz2]
  simp only [View.readAt_eq_ld, View.ld_unit_zero (S := S2048x512) hz2, View.ld_unit_zero (S := S1024x512) hz2,
    View.ld_unit_zero (S := S2048x128) hz2, View.ld_unit_zero (S := S1024x128) hz2, View.ld_unit_zero (S := S2048x1024) hz2]

set_option maxHeartbeats 1000000 in
/-- At a middle point (neither conditional taken): the output's memref, holding `xo`, ends at the point's product
    over `xo`. -/
theorem run1_B (c : Dev nD) (E : Set ℕ) (i : grid1.Coords)
    (arg3 : Memref sig .tc .vmem S2048x512 .bf16) (harg3 : arg3.IsWhole) (arg4 : Memref sig .tc .vmem S1024x512 .bf16) (harg4 : arg4.IsWhole)
    (arg5 : Memref sig .tc .vmem S2048x128 .bf16) (harg5 : arg5.IsWhole) (arg6 : Memref sig .tc .vmem S1024x128 .bf16) (harg6 : arg6.IsWhole)
    (arg7 : Memref sig .tc .vmem S2048x1024 .f32) (harg7 : arg7.IsWhole)
    (hc0 : ¬cond1_0 i) (hc1 : ¬cond1_1 i)
    (x0 : Vec F S2048x512 .bf16) (x1 : Vec F S1024x512 .bf16) (x2 : Vec F S2048x128 .bf16) (x3 : Vec F S1024x128 .bf16) (xo : Vec F S2048x1024 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k1_pay2 xo x0 x1)) -∗ K ⟨⟩))
      ⊢ wp frame (wpE (defs₀ (F := F)) Variants.none c none) E (cc1_main_kernel i arg3 harg3 arg4 harg4 arg5 harg5 arg6 harg6 arg7 harg7) K := by
  simp only [cc1_main_kernel_eq_skeleton]; unfold cc1_main_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  rw [View.read_writes_eq_canon _ _ _ (fun y => ⟨_, List.mem_cons_self .., View.mem_set_unit_zero hz2 inb_S2048x1024_S2048x1024_0_0 y⟩)]
  rw [View.canon_cons_unit_zero hz2]
  simp only [View.readAt_eq_ld, View.ld_unit_zero (S := S2048x512) hz2, View.ld_unit_zero (S := S1024x512) hz2,
    View.ld_unit_zero (S := S2048x128) hz2, View.ld_unit_zero (S := S1024x128) hz2, View.ld_unit_zero (S := S2048x1024) hz2]

set_option maxHeartbeats 1000000 in
/-- At a block's last point (the second conditional taken, the first not): the output's memref, holding `xo`, ends at
    the low-rank product over the point's product over `xo`. -/
theorem run1_C (c : Dev nD) (E : Set ℕ) (i : grid1.Coords)
    (arg3 : Memref sig .tc .vmem S2048x512 .bf16) (harg3 : arg3.IsWhole) (arg4 : Memref sig .tc .vmem S1024x512 .bf16) (harg4 : arg4.IsWhole)
    (arg5 : Memref sig .tc .vmem S2048x128 .bf16) (harg5 : arg5.IsWhole) (arg6 : Memref sig .tc .vmem S1024x128 .bf16) (harg6 : arg6.IsWhole)
    (arg7 : Memref sig .tc .vmem S2048x1024 .f32) (harg7 : arg7.IsWhole)
    (hc0 : ¬cond1_0 i) (hc1 : cond1_1 i)
    (x0 : Vec F S2048x512 .bf16) (x1 : Vec F S1024x512 .bf16) (x2 : Vec F S2048x128 .bf16) (x3 : Vec F S1024x128 .bf16) (xo : Vec F S2048x1024 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k1_pay3 (k1_pay2 xo x0 x1) x2 x3)) -∗ K ⟨⟩))
      ⊢ wp frame (wpE (defs₀ (F := F)) Variants.none c none) E (cc1_main_kernel i arg3 harg3 arg4 harg4 arg5 harg5 arg6 harg6 arg7 harg7) K := by
  simp only [cc1_main_kernel_eq_skeleton]; unfold cc1_main_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  rw [View.read_writes_eq_canon _ _ _ (fun y => ⟨_, List.mem_cons_self .., View.mem_set_unit_zero hz2 inb_S2048x1024_S2048x1024_0_0 y⟩)]
  rw [View.canon_cons_unit_zero hz2]
  rw [View.readCov_unit_zero _ hz2]
  simp only [View.readAt_eq_ld, View.ld_unit_zero (S := S2048x512) hz2, View.ld_unit_zero (S := S1024x512) hz2,
    View.ld_unit_zero (S := S2048x128) hz2, View.ld_unit_zero (S := S1024x128) hz2, View.ld_unit_zero (S := S2048x1024) hz2]

/-! ## The body obligation, at a generic point -/

/-- Each window's current staging memref at point `t`, spelled as the pipeline passes it, and its wholeness. -/
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .f32 := win1_4.stage (cfg1.slots t 4)
abbrev hs1_4 (t : Fin cfg1.N) : (ms1_4 t).IsWhole := hstage1_4 ((cfg1.slots t 4).cast nbuf1_4)

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' memrefs hold their blocks; the closed forms of the two conditions say which
    of the three cases the point is in; off a block's first point the output's memref holds what the point before
    left; so the case's run applies. The invariant passes through unread and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 8 = 0
  · rw [outsAt1_A V c t h0]
    iintro ⟨HΦ, Ho, ⟨%d0, H0⟩, ⟨%d1, H1⟩, ⟨%d2, H2⟩, ⟨%d3, H3⟩, ⟨%d4, H4⟩⟩
    iapply (run1_A c Set.univ (grid1.coords t) _ _ _ _ _ _ _ _ _ _ ((hcond1_0 t).mpr h0)
      (fun h => by have := (hcond1_1 t).mp h; omega) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before1_4 V c t h0]
    by_cases h7 : t.val % 8 = 7
    · rw [outsAt1_C V c t h7]
      iintro ⟨HΦ, Ho, ⟨%d0, H0⟩, ⟨%d1, H1⟩, ⟨%d2, H2⟩, ⟨%d3, H3⟩, ⟨%d4, H4⟩⟩
      iapply (run1_C c Set.univ (grid1.coords t) _ _ _ _ _ _ _ _ _ _ (fun h => h0 ((hcond1_0 t).mp h))
        ((hcond1_1 t).mpr h7) (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [outsAt1_B V c t h0 h7]
      iintro ⟨HΦ, Ho, ⟨%d0, H0⟩, ⟨%d1, H1⟩, ⟨%d2, H2⟩, ⟨%d3, H3⟩, ⟨%d4, H4⟩⟩
      iapply (run1_B c Set.univ (grid1.coords t) _ _ _ _ _ _ _ _ _ _ (fun h => h0 ((hcond1_0 t).mp h))
        (fun h => h7 ((hcond1_1 t).mp h)) (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Both.lean ====
/-
  The two regions' proof data, as the run takes them: what each window's staging buffer holds after the body at each
  point and the region's invariant, with the body's obligation and the invariant's two ends.
-/
import proofs.«130097_j62697932587275_2_alg».proof.Proof.KI.Kept
import proofs.«130097_j62697932587275_2_alg».proof.Proof.KI.Region0
import proofs.«130097_j62697932587275_2_alg».proof.Proof.KI.Region1

set_option maxRecDepth 16384

noncomputable section

namespace Cert.KernelIdeal.Hand

open Idealize.ShloMosaic Idealize.ShloMosaic.TcCoe
open Idealize.SL Idealize.SL.BI Idealize.SL.Sem
open Cert.KernelIdeal Cert.KernelIdeal.Gen

variable {F : FTy → Type} [FloatOps F]

/-- The first region: the projection kernel's staging contents and its invariant (the carried accumulator). -/
def region0 : Region0 F := ⟨fun V c => (dat0 V c).after, fun V c => (dat0 V c).Φ⟩
/-- Its proof data is the region's own. -/
theorem region0_dat (V : Entry F) (c : Dev nD) : (region0 (F := F)).dat V c = dat0 V c := rfl
theorem region0_ok : (region0 (F := F)).Ok :=
  ⟨fun V c => body_obligation0 V c, fun V c => hin0 V c, fun V c => hout0 V c⟩

/-- The second region: the main kernel's staging contents; its invariant is the scoped rest throughout. -/
def region1 : Region1 F := ⟨fun V c => (dat1 V c).after, fun V c => (dat1 V c).Φ⟩
theorem region1_dat (V : Entry F) (c : Dev nD) : (region1 (F := F)).dat V c = dat1 V c := rfl
theorem region1_ok : (region1 (F := F)).Ok :=
  ⟨fun V c => body_obligation1 V c, fun V c => BI.Entails.refl _, fun V c => BI.Entails.refl _⟩

end Cert.KernelIdeal.Hand

end
-- ==== Proof.KI.Payloads.lean ====
/-
  The bodies' arithmetic read at an index, on the extended reals.

  Every shape cast here is between equal shapes and so the identity; a conversion between float formats is the
  identity on the extended reals; the zero word denotes 0; a row broadcast [1,128] → [1024,128] reads row 0; and a
  matrix product that contracts both operands' second axis into the zero accumulator reads, at (p, o), the sum over
  the contraction coordinate d of lhs (p, d) · rhs (o, d). Two splittings of a sum over 4096 coordinates follow, into
  two halves and into eight blocks of 512.
-/
import proofs.«130097_j62697932587275_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.KernelIdeal.Hand

open Idealize.ShloMosaic Idealize.ShloMosaic.ValueIdx Cert.KernelIdeal Cert.KernelIdeal.Gen

/-! The product S1024x2048 × S128x2048 → S1024x128, contracting both operands' second axis. -/

theorem mm0_lhs0 (i : S1024x128.Idx) (q : dot_S1024x2048_S128x2048_S1024x128_1_1_0_0_n_n.contr.Idx) : (dot_S1024x2048_S128x2048_S1024x128_1_1_0_0_n_n.lhsIdx i q 0).val = (i 0).val := by
  unfold DotDims.lhsIdx
  rw [dif_neg (show ¬(0 : Fin S1024x2048.rank) ∈ dot_S1024x2048_S128x2048_S1024x128_1_1_0_0_n_n.lhsBatch by decide),
    dif_pos (show (0 : Fin S1024x2048.rank) ∈ dot_S1024x2048_S128x2048_S1024x128_1_1_0_0_n_n.lhsNonContracting by decide)]
  rfl
theorem mm0_lhs1 (i : S1024x128.Idx) (q : dot_S1024x2048_S128x2048_S1024x128_1_1_0_0_n_n.contr.Idx) :
    (dot_S1024x2048_S128x2048_S1024x128_1_1_0_0_n_n.lhsIdx i q 1).val = (q ⟨0, by decide⟩).val :=
  dot_S1024x2048_S128x2048_S1024x128_1_1_0_0_n_n.lhsIdx_val_of_single rfl i q
theorem mm0_rhs0 (i : S1024x128.Idx) (q : dot_S1024x2048_S128x2048_S1024x128_1_1_0_0_n_n.contr.Idx) : (dot_S1024x2048_S128x2048_S1024x128_1_1_0_0_n_n.rhsIdx i q 0).val = (i 1).val := by
  unfold DotDims.rhsIdx
  rw [dif_neg (show ¬(0 : Fin S128x2048.rank) ∈ dot_S1024x2048_S128x2048_S1024x128_1_1_0_0_n_n.rhsBatch by decide),
    dif_pos (show (0 : Fin S128x2048.rank) ∈ dot_S1024x2048_S128x2048_S1024x128_1_1_0_0_n_n.rhsNonContracting by decide)]
  rfl
theorem mm0_rhs1 (i : S1024x128.Idx) (q : dot_S1024x2048_S128x2048_S1024x128_1_1_0_0_n_n.contr.Idx) :
    (dot_S1024x2048_S128x2048_S1024x128_1_1_0_0_n_n.rhsIdx i q 1).val = (q ⟨0, by decide⟩).val :=
  dot_S1024x2048_S128x2048_S1024x128_1_1_0_0_n_n.rhsIdx_val_of_single rfl i q

/-- Into the zero accumulator the product at (p, o) is the sum over d of lhs (p, d) · rhs (o, d). -/
theorem mm0_apply (lhs : FVec Ideal S1024x2048 .bf16) (rhs : FVec Ideal S128x2048 .bf16) (p : Fin 1024) (o : Fin 128) :
    matmul dot_S1024x2048_S128x2048_S1024x128_1_1_0_0_n_n none lhs rhs (constant (F := Ideal) S1024x128 .f32 0x00000000#32) (ix2 p o)
      = ∑ d : Fin 2048, lhs (ix2 p d) * rhs (ix2 o d) := by
  simp only [matmul]
  rw [Ideal.matmul_constant_zero_apply, ← Equiv.sum_comp (contrEquiv1 dot_S1024x2048_S128x2048_S1024x128_1_1_0_0_n_n 2048 rfl rfl).symm]
  refine Finset.sum_congr rfl fun k _ => ?_
  have hk := contrEquiv1_symm_val dot_S1024x2048_S128x2048_S1024x128_1_1_0_0_n_n 2048 rfl rfl k
  have el : dot_S1024x2048_S128x2048_S1024x128_1_1_0_0_n_n.lhsIdx (ix2 p o) ((contrEquiv1 dot_S1024x2048_S128x2048_S1024x128_1_1_0_0_n_n 2048 rfl rfl).symm k) = ix2 p k :=
    funext fun a => Fin.ext (by
      match a with
      | ⟨0, _⟩ => exact mm0_lhs0 _ _
      | ⟨1, _⟩ => exact (mm0_lhs1 _ _).trans hk)
  have er : dot_S1024x2048_S128x2048_S1024x128_1_1_0_0_n_n.rhsIdx (ix2 p o) ((contrEquiv1 dot_S1024x2048_S128x2048_S1024x128_1_1_0_0_n_n 2048 rfl rfl).symm k) = ix2 o k :=
    funext fun a => Fin.ext (by
      match a with
      | ⟨0, _⟩ => exact mm0_rhs0 _ _
      | ⟨1, _⟩ => exact (mm0_rhs1 _ _).trans hk)
  rw [el, er]

/-! The product S2048x512 × S1024x512 → S2048x1024, contracting both operands' second axis. -/

theorem mm1_lhs0 (i : S2048x1024.Idx) (q : dot_S2048x512_S1024x512_S2048x1024_1_1_0_0_n_n.contr.Idx) : (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide),
    dif_pos (show (0 : Fin S2048x512.rank) ∈ dot_S2048x512_S1024x512_S2048x1024_1_1_0_0_n_n.lhsNonContracting by decide)]
  rfl
theorem mm1_lhs1 (i : S2048x1024.Idx) (q : dot_S2048x512_S1024x512_S2048x1024_1_1_0_0_n_n.contr.Idx) :
    (dot_S2048x512_S1024x512_S2048x1024_1_1_0_0_n_n.lhsIdx i q 1).val = (q ⟨0, by decide⟩).val :=
  dot_S2048x512_S1024x512_S2048x1024_1_1_0_0_n_n.lhsIdx_val_of_single rfl i q
theorem mm1_rhs0 (i : S2048x1024.Idx) (q : dot_S2048x512_S1024x512_S2048x1024_1_1_0_0_n_n.contr.Idx) : (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide),
    dif_pos (show (0 : Fin S1024x512.rank) ∈ dot_S2048x512_S1024x512_S2048x1024_1_1_0_0_n_n.rhsNonContracting by decide)]
  rfl
theorem mm1_rhs1 (i : S2048x1024.Idx) (q : dot_S2048x512_S1024x512_S2048x1024_1_1_0_0_n_n.contr.Idx) :
    (dot_S2048x512_S1024x512_S2048x1024_1_1_0_0_n_n.rhsIdx i q 1).val = (q ⟨0, by decide⟩).val :=
  dot_S2048x512_S1024x512_S2048x1024_1_1_0_0_n_n.rhsIdx_val_of_single rfl i q

/-- Into the zero accumulator the product at (p, o) is the sum over d of lhs (p, d) · rhs (o, d). -/
theorem mm1_apply (lhs : FVec Ideal S2048x512 .bf16) (rhs : FVec Ideal S1024x512 .bf16) (p : Fin 2048) (o : Fin 1024) :
    matmul dot_S2048x512_S1024x512_S2048x1024_1_1_0_0_n_n none lhs rhs (constant (F := Ideal) S2048x1024 .f32 0x00000000#32) (ix2 p o)
      = ∑ d : Fin 512, lhs (ix2 p d) * rhs (ix2 o d) := by
  simp only [matmul]
  rw [Ideal.matmul_constant_zero_apply, ← Equiv.sum_comp (contrEquiv1 dot_S2048x512_S1024x512_S2048x1024_1_1_0_0_n_n 512 rfl rfl).symm]
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 p o) ((contrEquiv1 dot_S2048x512_S1024x512_S2048x1024_1_1_0_0_n_n 512 rfl rfl).symm k) = ix2 p k :=
    funext fun a => Fin.ext (by
      match a with
      | ⟨0, _⟩ => exact mm1_lhs0 _ _
      | ⟨1, _⟩ => exact (mm1_lhs1 _ _).trans hk)
  have er : dot_S2048x512_S1024x512_S2048x1024_1_1_0_0_n_n.rhsIdx (ix2 p o) ((contrEquiv1 dot_S2048x512_S1024x512_S2048x1024_1_1_0_0_n_n 512 rfl rfl).symm k) = ix2 o k :=
    funext fun a => Fin.ext (by
      match a with
      | ⟨0, _⟩ => exact mm1_rhs0 _ _
      | ⟨1, _⟩ => exact (mm1_rhs1 _ _).trans hk)
  rw [el, er]

/-! The product S2048x128 × S1024x128 → S2048x1024, contracting both operands' second axis. -/

theorem mm2_lhs0 (i : S2048x1024.Idx) (q : dot_S2048x128_S1024x128_S2048x1024_1_1_0_0_n_n.contr.Idx) : (dot_S2048x128_S1024x128_S2048x1024_1_1_0_0_n_n.lhsIdx i q 0).val = (i 0).val := by
  unfold DotDims.lhsIdx
  rw [dif_neg (show ¬(0 : Fin S2048x128.rank) ∈ dot_S2048x128_S1024x128_S2048x1024_1_1_0_0_n_n.lhsBatch by decide),
    dif_pos (show (0 : Fin S2048x128.rank) ∈ dot_S2048x128_S1024x128_S2048x1024_1_1_0_0_n_n.lhsNonContracting by decide)]
  rfl
theorem mm2_lhs1 (i : S2048x1024.Idx) (q : dot_S2048x128_S1024x128_S2048x1024_1_1_0_0_n_n.contr.Idx) :
    (dot_S2048x128_S1024x128_S2048x1024_1_1_0_0_n_n.lhsIdx i q 1).val = (q ⟨0, by decide⟩).val :=
  dot_S2048x128_S1024x128_S2048x1024_1_1_0_0_n_n.lhsIdx_val_of_single rfl i q
theorem mm2_rhs0 (i : S2048x1024.Idx) (q : dot_S2048x128_S1024x128_S2048x1024_1_1_0_0_n_n.contr.Idx) : (dot_S2048x128_S1024x128_S2048x1024_1_1_0_0_n_n.rhsIdx i q 0).val = (i 1).val := by
  unfold DotDims.rhsIdx
  rw [dif_neg (show ¬(0 : Fin S1024x128.rank) ∈ dot_S2048x128_S1024x128_S2048x1024_1_1_0_0_n_n.rhsBatch by decide),
    dif_pos (show (0 : Fin S1024x128.rank) ∈ dot_S2048x128_S1024x128_S2048x1024_1_1_0_0_n_n.rhsNonContracting by decide)]
  rfl
theorem mm2_rhs1 (i : S2048x1024.Idx) (q : dot_S2048x128_S1024x128_S2048x1024_1_1_0_0_n_n.contr.Idx) :
    (dot_S2048x128_S1024x128_S2048x1024_1_1_0_0_n_n.rhsIdx i q 1).val = (q ⟨0, by decide⟩).val :=
  dot_S2048x128_S1024x128_S2048x1024_1_1_0_0_n_n.rhsIdx_val_of_single rfl i q

/-- Into the zero accumulator the product at (p, o) is the sum over d of lhs (p, d) · rhs (o, d). -/
theorem mm2_apply (lhs : FVec Ideal S2048x128 .bf16) (rhs : FVec Ideal S1024x128 .bf16) (p : Fin 2048) (o : Fin 1024) :
    matmul dot_S2048x128_S1024x128_S2048x1024_1_1_0_0_n_n none lhs rhs (constant (F := Ideal) S2048x1024 .f32 0x00000000#32) (ix2 p o)
      = ∑ d : Fin 128, lhs (ix2 p d) * rhs (ix2 o d) := by
  simp only [matmul]
  rw [Ideal.matmul_constant_zero_apply, ← Equiv.sum_comp (contrEquiv1 dot_S2048x128_S1024x128_S2048x1024_1_1_0_0_n_n 128 rfl rfl).symm]
  refine Finset.sum_congr rfl fun k _ => ?_
  have hk := contrEquiv1_symm_val dot_S2048x128_S1024x128_S2048x1024_1_1_0_0_n_n 128 rfl rfl k
  have el : dot_S2048x128_S1024x128_S2048x1024_1_1_0_0_n_n.lhsIdx (ix2 p o) ((contrEquiv1 dot_S2048x128_S1024x128_S2048x1024_1_1_0_0_n_n 128 rfl rfl).symm k) = ix2 p k :=
    funext fun a => Fin.ext (by
      match a with
      | ⟨0, _⟩ => exact mm2_lhs0 _ _
      | ⟨1, _⟩ => exact (mm2_lhs1 _ _).trans hk)
  have er : dot_S2048x128_S1024x128_S2048x1024_1_1_0_0_n_n.rhsIdx (ix2 p o) ((contrEquiv1 dot_S2048x128_S1024x128_S2048x1024_1_1_0_0_n_n 128 rfl rfl).symm k) = ix2 o k :=
    funext fun a => Fin.ext (by
      match a with
      | ⟨0, _⟩ => exact mm2_rhs0 _ _
      | ⟨1, _⟩ => exact (mm2_rhs1 _ _).trans hk)
  rw [el, er]

/-! The payloads at an index. -/

theorem k0_pay1_apply (p : Fin 1024) (r : Fin 128) : k0_pay1 (F := Ideal) (ix2 p r) = 0 := by
  unfold k0_pay1
  rw [shapeCast_self]
  exact Ideal.ofBits_zero_f32

theorem k0_pay2_apply (v3 : Vec Ideal S1024x2048 .f32) (p : Fin 1024) (d : Fin 2048) :
    k0_pay2 v3 (ix2 p d) = v3 (ix2 p d) := by
  unfold k0_pay2
  rw [shapeCast_self]
  rfl

theorem k0_pay3_apply (v3 : Vec Ideal S1024x2048 .f32) (v7 : Vec Ideal S1024x128 .f32) (v8 : Vec Ideal S128x2048 .bf16)
    (p : Fin 1024) (r : Fin 128) :
    k0_pay3 v3 v7 v8 (ix2 p r) = v7 (ix2 p r) + ∑ d : Fin 2048, v3 (ix2 p d) * v8 (ix2 r d) := by
  unfold k0_pay3
  rw [shapeCast_self, shapeCast_self]
  exact congrArg (v7 (ix2 p r) + ·)
    ((mm0_apply (k0_pay2 v3) v8 p r).trans (Finset.sum_congr rfl fun d _ => by rw [k0_pay2_apply]))

theorem k0_pay4_apply (v18 : Vec Ideal S1024x128 .f32) (v19 : Vec Ideal S1x128 .f32) (p : Fin 1024) (r : Fin 128) :
    k0_pay4 v18 v19 (ix2 p r) = v18 (ix2 p r) * v19 (ix2 0 r) := by
  unfold k0_pay4
  rw [shapeCast_self, shapeCast_self]
  show v18 (ix2 p r) * broadcastTo S1024x128 v19 broadcasts_S1x128_S1024x128 (ix2 p r) = _
  rw [broadcastTo_1b_ab_apply]

theorem k1_pay1_apply (p : Fin 2048) (o : Fin 1024) : k1_pay1 (F := Ideal) (ix2 p o) = 0 := by
  unfold k1_pay1
  exact Ideal.ofBits_zero_f32

theorem k1_pay2_apply (v3 : Vec Ideal S2048x1024 .f32) (v5 : Vec Ideal S2048x512 .bf16) (v7 : Vec Ideal S1024x512 .bf16)
    (p : Fin 2048) (o : Fin 1024) :
    k1_pay2 v3 v5 v7 (ix2 p o) = v3 (ix2 p o) + ∑ d : Fin 512, v5 (ix2 p d) * v7 (ix2 o d) := by
  unfold k1_pay2
  rw [shapeCast_self, shapeCast_self, shapeCast_self]
  exact congrArg (v3 (ix2 p o) + ·) (mm1_apply v5 v7 p o)

theorem k1_pay3_apply (v15 : Vec Ideal S2048x1024 .f32) (v17 : Vec Ideal S2048x128 .bf16) (v19 : Vec Ideal S1024x128 .bf16)
    (p : Fin 2048) (o : Fin 1024) :
    k1_pay3 v15 v17 v19 (ix2 p o) = v15 (ix2 p o) + ∑ r : Fin 128, v17 (ix2 p r) * v19 (ix2 o r) := by
  unfold k1_pay3
  rw [shapeCast_self, shapeCast_self, shapeCast_self]
  exact congrArg (v15 (ix2 p o) + ·) (mm2_apply v17 v19 p o)

theorem sum_4096_halves {M : Type*} [AddCommMonoid M] (f : Fin 4096 → M) :
    ∑ d, f d = (∑ d : Fin 2048, f ⟨d.val, by omega⟩) + ∑ d : Fin 2048, f ⟨2048 + d.val, by omega⟩ := Fin.sum_univ_add (a := 2048) (b := 2048) f

theorem sum_4096_blocks8 {M : Type*} [AddCommMonoid M] (f : Fin 4096 → M) :
    ∑ d, f d = ∑ k : Fin 8, ∑ d : Fin 512, f ⟨k.val * 512 + d.val, by omega⟩ := by
  have e := (Equiv.sum_comp (finProdFinEquiv (m := 8) (n := 512)) (fun i : Fin (8 * 512) => f i)).symm
  rw [Fintype.sum_prod_type] at e
  refine e.trans ?_
  refine Finset.sum_congr rfl fun k _ => Finset.sum_congr rfl fun d _ => congrArg f (Fin.ext ?_)
  show d.val + 512 * k.val = k.val * 512 + d.val
  omega

end Cert.KernelIdeal.Hand

end
-- ==== Proof.KI.Region0Value.lean ====
import proofs.«130097_j62697932587275_2_alg».proof.Proof.KI.Region0
import proofs.«130097_j62697932587275_2_alg».proof.Proof.KI.Payloads
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! # Region 0's two output arrays after its last point, entry by entry on the extended reals

Point `t` = (i, k) with i = t / 2, k = t % 2. The cast output's block at `t` is rows 1024·i.., columns 2048·k.. of
`x`, unchanged (the cast is the identity on the extended reals), and these sixteen blocks tile the array. The
low-rank output's block i is written back at k = 1 and holds
`((0 + Σ_{d<2048} x·A) + Σ_{2048≤d<4096} x·A) · scale`, which is `(Σ_{d<4096} x·A) · scale`: zero is neutral and
a sum over 4096 terms is the sum of its two halves. -/

variable (V : (c : Dev nD) → (b : Ref sig .tc) → Buf (Elt Ideal) ((c : Thread nD τ).loc b))

/-- The printed index maps over the grid: `x` and its cast move with (i, k); `A` with k along its columns; the scale
    is one block; the low-rank output moves with i. -/
theorem idx_facts0 : ∀ t : Fin cfg0.N,
    win0_0.index t (0 : Fin 2) = t.val / 2 ∧ win0_0.index t (1 : Fin 2) = t.val % 2
    ∧ win0_1.index t (0 : Fin 2) = 0 ∧ win0_1.index t (1 : Fin 2) = t.val % 2
    ∧ win0_2.index t (0 : Fin 2) = 0 ∧ win0_2.index t (1 : Fin 2) = 0
    ∧ win0_3.index t (0 : Fin 2) = t.val / 2 ∧ win0_3.index t (1 : Fin 2) = 0
    ∧ win0_4.index t (0 : Fin 2) = t.val / 2 ∧ win0_4.index t (1 : Fin 2) = t.val % 2 :=
  (by decide +kernel : ∀ t : Fin grid0.N, _)

/-! ## Where a block's entry sits in its array: block index × block size + the coordinate inside the block -/

theorem emb0_0 (t : Fin cfg0.N) (a : Fin 1024) (b : Fin 2048) (P : Fin 8192) (D : Fin 4096)
    (hP : P.val = 1024 * (t.val / 2) + a.val) (hD : D.val = 2048 * (t.val % 2) + b.val) :
    (((cfg0.win 0).blk t).view.emb (ix2 a b) : S8192x4096.Idx) = ix2 P D := by
  obtain ⟨e0, e1, -⟩ := idx_facts0 t
  funext x; apply Fin.ext
  match x with
  | ⟨0, _⟩ => show win0_0.index t (0 : Fin 2) * 1024 + 1 * a.val = P.val; omega
  | ⟨1, _⟩ => show win0_0.index t (1 : Fin 2) * 2048 + 1 * b.val = D.val; omega

theorem emb0_1 (t : Fin cfg0.N) (a : Fin 128) (b : Fin 2048) (D : Fin 4096)
    (hD : D.val = 2048 * (t.val % 2) + b.val) :
    (((cfg0.win 1).blk t).view.emb (ix2 a b) : S128x4096.Idx) = ix2 a D := by
  obtain ⟨-, -, e0, e1, -⟩ := idx_facts0 t
  funext x; apply Fin.ext
  match x with
  | ⟨0, _⟩ => show win0_1.index t (0 : Fin 2) * 128 + 1 * a.val = a.val; omega
  | ⟨1, _⟩ => show win0_1.index t (1 : Fin 2) * 2048 + 1 * b.val = D.val; omega

theorem emb0_2 (t : Fin cfg0.N) (a : Fin 1) (b : Fin 128) :
    (((cfg0.win 2).blk t).view.emb (ix2 a b) : S1x128.Idx) = ix2 a b := by
  obtain ⟨-, -, -, -, e0, e1, -⟩ := idx_facts0 t
  funext x; apply Fin.ext
  match x with
  | ⟨0, _⟩ => show win0_2.index t (0 : Fin 2) * 1 + 1 * a.val = a.val; omega
  | ⟨1, _⟩ => show win0_2.index t (1 : Fin 2) * 128 + 1 * b.val = b.val; omega

theorem emb0_3 (t : Fin cfg0.N) (a : Fin 1024) (b : Fin 128) (P : Fin 8192)
    (hP : P.val = 1024 * (t.val / 2) + a.val) :
    (((cfg0.win 3).blk t).view.emb (ix2 a b) : S8192x128.Idx) = ix2 P b := by
  obtain ⟨-, -, -, -, -, -, e0, e1, -⟩ := idx_facts0 t
  funext x; apply Fin.ext
  match x with
  | ⟨0, _⟩ => show win0_3.index t (0 : Fin 2) * 1024 + 1 * a.val = P.val; omega
  | ⟨1, _⟩ => show win0_3.index t (1 : Fin 2) * 128 + 1 * b.val = b.val; omega

theorem emb0_4 (t : Fin cfg0.N) (a : Fin 1024) (b : Fin 2048) (P : Fin 8192) (D : Fin 4096)
    (hP : P.val = 1024 * (t.val / 2) + a.val) (hD : D.val = 2048 * (t.val % 2) + b.val) :
    (((cfg0.win 4).blk t).view.emb (ix2 a b) : S8192x4096.Idx) = ix2 P D := by
  obtain ⟨-, -, -, -, -, -, -, -, e0, e1⟩ := idx_facts0 t
  funext x; apply Fin.ext
  match x with
  | ⟨0, _⟩ => show win0_4.index t (0 : Fin 2) * 1024 + 1 * a.val = P.val; omega
  | ⟨1, _⟩ => show win0_4.index t (1 : Fin 2) * 2048 + 1 * b.val = D.val; omega

/-! ## The input blocks at an entry -/

/-- `x`'s block at point (i, k), entry (a, b): `x` at row 1024·i + a, column 2048·k + b. -/
theorem iblk0_0_apply (c : Dev nD) (t : Fin cfg0.N) (a : Fin 1024) (b : Fin 2048) (P : Fin 8192) (D : Fin 4096)
    (hP : P.val = 1024 * (t.val / 2) + a.val) (hD : D.val = 2048 * (t.val % 2) + b.val) :
    (iblk0 V c 0 t : S1024x2048.Idx → EReal) (ix2 a b) = (V c main_v0 : S8192x4096.Idx → EReal) (ix2 P D) := by
  unfold iblk0
  rw [View.read_apply]
  show (V c main_v0 : S8192x4096.Idx → EReal) (((cfg0.win 0).blk t).view.emb (ix2 a b)) = _
  rw [emb0_0 t a b P D hP hD]

/-- `A`'s block at point (i, k), entry (r, b): `A` at row r, column 2048·k + b. -/
theorem iblk0_1_apply (c : Dev nD) (t : Fin cfg0.N) (a : Fin 128) (b : Fin 2048) (D : Fin 4096)
    (hD : D.val = 2048 * (t.val % 2) + b.val) :
    (iblk0 V c 1 t : S128x2048.Idx → EReal) (ix2 a b) = (V c main_v20 : S128x4096.Idx → EReal) (ix2 a D) := by
  unfold iblk0
  rw [View.read_apply]
  show (V c main_v20 : S128x4096.Idx → EReal) (((cfg0.win 1).blk t).view.emb (ix2 a b)) = _
  rw [emb0_1 t a b D hD]

/-- The scale's one block is the scale. -/
theorem iblk0_2_apply (c : Dev nD) (t : Fin cfg0.N) (a : Fin 1) (b : Fin 128) :
    (iblk0 V c 2 t : S1x128.Idx → EReal) (ix2 a b) = (V c main_v19 : S1x128.Idx → EReal) (ix2 a b) := by
  unfold iblk0
  rw [View.read_apply]
  show (V c main_v19 : S1x128.Idx → EReal) (((cfg0.win 2).blk t).view.emb (ix2 a b)) = _
  rw [emb0_2 t a b]

/-! ## The cast output -/

/-- What point `t` writes back to the cast output is block `t` of `x`. -/
theorem flushed0_4_eq (c : Dev nD) (t : Fin cfg0.N) :
    (dat0 V c).flushed 4 t = ((cfg0.win 4).blk t).view.read (Elt Ideal) (V c main_v0 : S8192x4096.Idx → EReal) := by
  show (cfg0.win 4).cut (grid0.coords t) ((dat0 V c).after 4 t) = _
  rw [after0_4]
  funext j
  obtain ⟨a, b, rfl⟩ : ∃ (a : Fin 1024) (b : Fin 2048), j = ix2 a b := ⟨j 0, j 1, eq_ix2 j⟩
  have hN : t.val < 16 := lt_of_lt_of_eq t.isLt (show cfg0.N = 16 from N_0)
  have ha := a.isLt; have hb := b.isLt
  rw [View.read_apply]
  show k0_pay2 (F := Ideal) (iblk0 V c 0 t) (ix2 a b) = (V c main_v0 : S8192x4096.Idx → EReal) (((cfg0.win 4).blk t).view.emb (ix2 a b))
  rw [emb0_4 t a b ⟨1024 * (t.val / 2) + a.val, by omega⟩ ⟨2048 * (t.val % 2) + b.val, by omega⟩ rfl rfl]
  refine (k0_pay2_apply (iblk0 V c 0 t) a b).trans ?_
  exact iblk0_0_apply V c t a b _ _ rfl rfl

/-- An index of the cast output is in point `t`'s block iff each coordinate is in the block's range. -/
theorem mem_blk0_4 (t : Fin cfg0.N) (i : S8192x4096.Idx) :
    i ∈ ((cfg0.win 4).blk t).view.set ↔ ∀ a : Fin 2, win0_4.index t a * S1024x2048.size a ≤ (i a).val ∧ (i a).val < win0_4.index t a * S1024x2048.size a + S1024x2048.size a := by
  show i ∈ ((View.whole main_v23_1).slice (win0_4.rect t)).set ↔ _
  rw [View.set_slice_whole, Rect.mem_set_unit]
  exact Iff.rfl

/-- Every entry of the cast output is in the block of the point (row / 1024, column / 2048). -/
theorem cover0_4 (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 16 := N_0
  refine ⟨⟨2 * ((i 0).val / 1024) + (i 1).val / 2048, by omega⟩, flush0_4 _, ?_⟩
  rw [mem_blk0_4]
  obtain ⟨-, -, -, -, -, -, -, -, e0, e1⟩ := idx_facts0 ⟨2 * ((i 0).val / 1024) + (i 1).val / 2048, by omega⟩
  intro a
  match a with
  | ⟨0, _⟩ =>
    show win0_4.index _ (0 : Fin 2) * 1024 ≤ (i 0).val ∧ (i 0).val < win0_4.index _ (0 : Fin 2) * 1024 + 1024
    rw [e0]; dsimp only; omega
  | ⟨1, _⟩ =>
    show win0_4.index _ (1 : Fin 2) * 2048 ≤ (i 1).val ∧ (i 1).val < win0_4.index _ (1 : Fin 2) * 2048 + 2048
    rw [e1]; dsimp only; omega

/-- THE CAST OUTPUT after the region: `x`, entry by entry. -/
theorem arrAt0_4 (c : Dev nD) (p : Fin 8192) (d : Fin 4096) :
    (dat0 (F := Ideal) V c).arrAt 4 cfg0.N (ix2 p d) = V c main_v0 (ix2 p d) :=
  congrFun ((dat0 V c).arrAt_eq_of_cover 4 (V c main_v0 : S8192x4096.Idx → EReal) (fun t _ => flushed0_4_eq V c t) cover0_4) (ix2 p d)

/-! ## The low-rank output -/

/-- One column block's products for entry (a, r): row a of the `x` block against row r of the `A` block. -/
abbrev halfDot (x : S1024x2048.Idx → EReal) (A : S128x2048.Idx → EReal) (a : Fin 1024) (r : Fin 128) : EReal :=
  ∑ d : Fin 2048, x (ix2 a d) * A (ix2 r d)

/-- One term of the whole row's product: `x[p, d] · A[r, d]`. -/
abbrev dotTerm (x : S8192x4096.Idx → EReal) (A : S128x4096.Idx → EReal) (p : Fin 8192) (r : Fin 128) (d : Fin 4096) : EReal :=
  x (ix2 p d) * A (ix2 r d)

/-- What the low-rank output holds at (p, r): row p of `x` against row r of `A`, times the scale's entry r. -/
abbrev lowScaledAt (x : S8192x4096.Idx → EReal) (A : S128x4096.Idx → EReal) (s : S1x128.Idx → EReal) (p : Fin 8192) (r : Fin 128) : EReal :=
  (∑ d : Fin 4096, x (ix2 p d) * A (ix2 r d)) * s (ix2 0 r)

/-- The accumulator after a point with `k = 0`, at an entry: zero plus this column block's products. -/
theorem acc_even (c : Dev nD) (t : Fin cfg0.N) (h0 : t.val % 2 = 0) (a : Fin 1024) (r : Fin 128) :
    (outsAt0 V c t.val t.isLt : S1024x128.Idx → EReal) (ix2 a r) = 0 + halfDot (iblk0 V c 0 t) (iblk0 V c 1 t) a r := by
  rw [outsAt0_A V c t h0]
  refine (k0_pay3_apply (iblk0 V c 0 t) (k0_pay1 (F := Ideal)) (iblk0 V c 1 t) a r).trans ?_
  exact congrArg (fun z : EReal => z + halfDot (iblk0 V c 0 t) (iblk0 V c 1 t) a r) (k0_pay1_apply a r)

/-- The accumulator after a point with `k = 1`, at an entry: what the point before left plus this column block's products. -/
theorem acc_odd (c : Dev nD) (t : Fin cfg0.N) (h1 : t.val % 2 = 1) (a : Fin 1024) (r : Fin 128) :
    (outsAt0 V c t.val t.isLt : S1024x128.Idx → EReal) (ix2 a r)
      = (outsAt0 V c (t.val - 1) (Nat.lt_of_le_of_lt (Nat.sub_le _ _) t.isLt) : S1024x128.Idx → EReal) (ix2 a r)
        + halfDot (iblk0 V c 0 t) (iblk0 V c 1 t) a r := by
  rw [outsAt0_B V c t h1]
  exact k0_pay3_apply (iblk0 V c 0 t) _ (iblk0 V c 1 t) a r

/-- The accumulator after the second column block of row block i, at an entry: the whole row of `x` against the
    whole row of `A` — zero is neutral and the 4096 terms are the two halves' terms. -/
theorem acc_row (c : Dev nD) (t : Fin cfg0.N) (h1 : t.val % 2 = 1) (a : Fin 1024) (r : Fin 128) (P : Fin 8192)
    (hP : P.val = 1024 * (t.val / 2) + a.val) :
    (outsAt0 V c t.val t.isLt : S1024x128.Idx → EReal) (ix2 a r) = ∑ d : Fin 4096, dotTerm (V c main_v0) (V c main_v20) P r d := by
  have hN : t.val < 16 := lt_of_lt_of_eq t.isLt (show cfg0.N = 16 from N_0)
  refine (acc_odd V c t h1 a r).trans ?_
  refine (congrArg (fun z : EReal => z + halfDot (iblk0 V c 0 t) (iblk0 V c 1 t) a r)
    (acc_even V c ⟨t.val - 1, Nat.lt_of_le_of_lt (Nat.sub_le _ _) t.isLt⟩ (by dsimp only; omega) a r)).trans ?_
  refine Eq.trans ?_ (sum_4096_halves (dotTerm (V c main_v0) (V c main_v20) P r)).symm
  rw [zero_add]
  congr 1
  · refine Finset.sum_congr rfl fun d _ => ?_
    have hd := d.isLt
    exact congrArg₂ (fun x y : EReal => x * y)
      (iblk0_0_apply V c ⟨t.val - 1, Nat.lt_of_le_of_lt (Nat.sub_le _ _) t.isLt⟩ a d P ⟨d.val, by omega⟩ (by dsimp only; omega) (by dsimp only; omega))
      (iblk0_1_apply V c ⟨t.val - 1, Nat.lt_of_le_of_lt (Nat.sub_le _ _) t.isLt⟩ r d ⟨d.val, by omega⟩ (by dsimp only; omega))
  · refine Finset.sum_congr rfl fun d _ => ?_
    have hd := d.isLt
    exact congrArg₂ (fun x y : EReal => x * y)
      (iblk0_0_apply V c t a d P ⟨2048 + d.val, by omega⟩ hP (by dsimp only; omega))
      (iblk0_1_apply V c t r d ⟨2048 + d.val, by omega⟩ (by dsimp only; omega))

/-- What the low-rank output ends holding, as contents of its array. -/
def lowScaled (c : Dev nD) : S8192x128.Idx → EReal := fun i =>
  lowScaledAt (V c main_v0) (V c main_v20) (V c main_v19) (i 0) (i 1)

/-- What a point with `k = 1` writes back to the low-rank output is its block of `lowScaled`. -/
theorem flushed0_3_eq (c : Dev nD) (t : Fin cfg0.N) (hf : (cfg0.win 3).flush t = true) :
    (dat0 V c).flushed 3 t = ((cfg0.win 3).blk t).view.read (Elt Ideal) (lowScaled V c) := by
  have h1 : t.val % 2 = 1 := (flush0_3 t).mp hf
  have hN : t.val < 16 := lt_of_lt_of_eq t.isLt (show cfg0.N = 16 from N_0)
  show (cfg0.win 3).cut (grid0.coords t) ((dat0 V c).after 3 t) = _
  rw [after0_3]
  funext j
  obtain ⟨a, r, rfl⟩ : ∃ (a : Fin 1024) (r : Fin 128), j = ix2 a r := ⟨j 0, j 1, eq_ix2 j⟩
  have ha := a.isLt
  rw [View.read_apply]
  show k0_pay4 (F := Ideal) (outsAt0 V c t.val t.isLt) (iblk0 V c 2 t) (ix2 a r) = lowScaled V c (((cfg0.win 3).blk t).view.emb (ix2 a r))
  rw [emb0_3 t a r ⟨1024 * (t.val / 2) + a.val, by omega⟩ rfl]
  refine (k0_pay4_apply (outsAt0 V c t.val t.isLt) (iblk0 V c 2 t) a r).trans ?_
  exact congrArg₂ (fun x y : EReal => x * y)
    (acc_row V c t h1 a r ⟨1024 * (t.val / 2) + a.val, by omega⟩ rfl) (iblk0_2_apply V c t 0 r)

/-- An index of the low-rank output is in point `t`'s block iff each coordinate is in the block's range. -/
theorem mem_blk0_3 (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v23_0).slice (win0_3.rect t)).set ↔ _
  rw [View.set_slice_whole, Rect.mem_set_unit]
  exact Iff.rfl

/-- Every entry of the low-rank output is in the block written back at the point (row / 1024, 1). -/
theorem cover0_3 (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 16 := N_0
  refine ⟨⟨2 * ((i 0).val / 1024) + 1, by omega⟩, (flush0_3 _).mpr (by dsimp only; omega), ?_⟩
  rw [mem_blk0_3]
  obtain ⟨-, -, -, -, -, -, e0, e1, -⟩ := idx_facts0 ⟨2 * ((i 0).val / 1024) + 1, by omega⟩
  intro a
  match a with
  | ⟨0, _⟩ =>
    show win0_3.index _ (0 : Fin 2) * 1024 ≤ (i 0).val ∧ (i 0).val < win0_3.index _ (0 : Fin 2) * 1024 + 1024
    rw [e0]; dsimp only; omega
  | ⟨1, _⟩ =>
    show win0_3.index _ (1 : Fin 2) * 128 ≤ (i 1).val ∧ (i 1).val < win0_3.index _ (1 : Fin 2) * 128 + 128
    rw [e1]; dsimp only; omega

/-- THE LOW-RANK OUTPUT after the region, entry by entry. -/
theorem arrAt0_3 (c : Dev nD) (p : Fin 8192) (r : Fin 128) :
    (dat0 (F := Ideal) V c).arrAt 3 cfg0.N (ix2 p r) = lowScaledAt (V c main_v0) (V c main_v20) (V c main_v19) p r :=
  congrFun ((dat0 V c).arrAt_eq_of_cover 3 (lowScaled V c) (fun t hf => flushed0_3_eq V c t hf) cover0_3) (ix2 p r)

end Cert.KernelIdeal.Hand

end
-- ==== Proof.KI.Region1Blocks.lean ====
import proofs.«130097_j62697932587275_2_alg».proof.Proof.KI.Region1
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! # The second pallas_call's input blocks, read at coordinates off the arrays the region finds

Point `t` of the grid `[4, 4, 8]` has coordinates `(i, j, k) = (t / 32, t / 8 % 4, t % 8)`. A block's coordinate in its
array is always block index × block extent + the coordinate inside the block. -/

/-- The grid has 128 points. -/
theorem lt128 (t : Fin cfg1.N) : t.val < 128 := lt_of_lt_of_eq t.isLt (show cfg1.N = 128 from N_1)

/-- The printed index maps over the grid: the left operand's block is `(i, k)`, the right one's `(j, k)`, the low-rank
    factors' `(i, 0)` and `(j, 0)`, the result's `(i, j)`. -/
theorem idx_facts1 : ∀ t : Fin cfg1.N,
    win1_0.index t (0 : Fin 2) = t.val / 32 ∧ win1_0.index t (1 : Fin 2) = t.val % 8
    ∧ win1_1.index t (0 : Fin 2) = t.val / 8 % 4 ∧ win1_1.index t (1 : Fin 2) = t.val % 8
    ∧ win1_2.index t (0 : Fin 2) = t.val / 32 ∧ win1_2.index t (1 : Fin 2) = 0
    ∧ win1_3.index t (0 : Fin 2) = t.val / 8 % 4 ∧ win1_3.index t (1 : Fin 2) = 0
    ∧ win1_4.index t (0 : Fin 2) = t.val / 32 ∧ win1_4.index t (1 : Fin 2) = t.val / 8 % 4 :=
  (by decide +kernel : ∀ t : Fin grid1.N, _)

/-- The four arrays the region reads, as it finds them: extended reals at the rows and columns of their shapes. -/
abbrev X1 (c : Dev nD) : S8192x4096.Idx → EReal := V c main_v23_1
abbrev W1 (c : Dev nD) : S4096x4096.Idx → EReal := V c main_v22
abbrev L1 (c : Dev nD) : S8192x128.Idx → EReal := V c main_v23_0
abbrev B1 (c : Dev nD) : S4096x128.Idx → EReal := V c main_v21

/-- The left operand's block at `t`: rows `i·2048 …`, columns `k·512 …`. -/
theorem iblk1_0_apply (c : Dev nD) (t : Fin cfg1.N) (y0 : Fin 2048) (d : Fin 512) :
    iblk1 V c 0 t (ix2 y0 d)
      = X1 V c (ix2 ⟨t.val / 32 * 2048 + y0.val, by have := lt128 t; omega⟩
          ⟨t.val % 8 * 512 + d.val, by omega⟩) := by
  obtain ⟨e0, e1, -⟩ := idx_facts1 t
  unfold iblk1
  rw [View.read_apply]
  show V c main_v23_1 (((cfg1.win 0).blk t).view.emb (ix2 y0 d)) = V c main_v23_1 _
  congr 1
  funext a; apply Fin.ext
  match a with
  | ⟨0, _⟩ => show win1_0.index t (0 : Fin 2) * 2048 + 1 * y0.val = t.val / 32 * 2048 + y0.val; omega
  | ⟨1, _⟩ => show win1_0.index t (1 : Fin 2) * 512 + 1 * d.val = t.val % 8 * 512 + d.val; omega

/-- The right operand's block at `t`: rows `j·1024 …`, columns `k·512 …`. -/
theorem iblk1_1_apply (c : Dev nD) (t : Fin cfg1.N) (y1 : Fin 1024) (d : Fin 512) :
    iblk1 V c 1 t (ix2 y1 d)
      = W1 V c (ix2 ⟨t.val / 8 % 4 * 1024 + y1.val, by omega⟩
          ⟨t.val % 8 * 512 + d.val, by omega⟩) := by
  obtain ⟨-, -, e2, e3, -⟩ := idx_facts1 t
  unfold iblk1
  rw [View.read_apply]
  show V c main_v22 (((cfg1.win 1).blk t).view.emb (ix2 y1 d)) = V c main_v22 _
  congr 1
  funext a; apply Fin.ext
  match a with
  | ⟨0, _⟩ => show win1_1.index t (0 : Fin 2) * 1024 + 1 * y1.val = t.val / 8 % 4 * 1024 + y1.val; omega
  | ⟨1, _⟩ => show win1_1.index t (1 : Fin 2) * 512 + 1 * d.val = t.val % 8 * 512 + d.val; omega

/-- The left low-rank factor's block at `t`: rows `i·2048 …`, all 128 columns. -/
theorem iblk1_2_apply (c : Dev nD) (t : Fin cfg1.N) (y0 : Fin 2048) (r : Fin 128) :
    iblk1 V c 2 t (ix2 y0 r)
      = L1 V c (ix2 ⟨t.val / 32 * 2048 + y0.val, by have := lt128 t; omega⟩ r) := by
  obtain ⟨-, -, -, -, e4, e5, -⟩ := idx_facts1 t
  unfold iblk1
  rw [View.read_apply]
  show V c main_v23_0 (((cfg1.win 2).blk t).view.emb (ix2 y0 r)) = V c main_v23_0 _
  congr 1
  funext a; apply Fin.ext
  match a with
  | ⟨0, _⟩ => show win1_2.index t (0 : Fin 2) * 2048 + 1 * y0.val = t.val / 32 * 2048 + y0.val; omega
  | ⟨1, _⟩ => show win1_2.index t (1 : Fin 2) * 128 + 1 * r.val = r.val; omega

/-- The right low-rank factor's block at `t`: rows `j·1024 …`, all 128 columns. -/
theorem iblk1_3_apply (c : Dev nD) (t : Fin cfg1.N) (y1 : Fin 1024) (r : Fin 128) :
    iblk1 V c 3 t (ix2 y1 r)
      = B1 V c (ix2 ⟨t.val / 8 % 4 * 1024 + y1.val, by omega⟩ r) := by
  obtain ⟨-, -, -, -, -, -, e6, e7, -⟩ := idx_facts1 t
  unfold iblk1
  rw [View.read_apply]
  show V c main_v21 (((cfg1.win 3).blk t).view.emb (ix2 y1 r)) = V c main_v21 _
  congr 1
  funext a; apply Fin.ext
  match a with
  | ⟨0, _⟩ => show win1_3.index t (0 : Fin 2) * 1024 + 1 * y1.val = t.val / 8 % 4 * 1024 + y1.val; omega
  | ⟨1, _⟩ => show win1_3.index t (1 : Fin 2) * 128 + 1 * r.val = r.val; omega

/-- What the result array ends holding, as one function of the arrays the region finds: at row `p` and column `o` the
    full-depth product of the left operand's row `p` with the right operand's row `o`, plus the rank-128 product of
    the low-rank factors' rows `p` and `o`. -/
def G1 (c : Dev nD) : S8192x4096.Idx → EReal := fun i =>
  (∑ d : Fin 4096, X1 V c (ix2 (i 0) d) * W1 V c (ix2 (i 1) d)) + ∑ r : Fin 128, L1 V c (ix2 (i 0) r) * B1 V c (ix2 (i 1) r)

end Cert.KernelIdeal.Hand

end
-- ==== Proof.KI.Region1Acc.lean ====
import proofs.«130097_j62697932587275_2_alg».proof.Proof.KI.Region1Blocks
import proofs.«130097_j62697932587275_2_alg».proof.Proof.KI.Payloads
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! # The accumulation over the reduction sweep, read off the arrays

Over the eight points of an output block's sweep the block's buffer holds `((0 + S₀) + S₁) + … + S_k` with `S_k` the product
of the block's rows over the `k`-th stretch of 512 columns, and after the last point that plus the rank-128 product. On
the extended reals `0 + a = a` and a sum over 4096 columns is the sum of its eight stretches' sums, so after the last
point the buffer holds the block of `G1`. Coordinates are carried as natural numbers (the operands extended by zero off
their arrays), so that the blocks' offsets are plain arithmetic. -/

section Acc
variable (c : Dev nD)

/-- The two operands at natural-number coordinates: zero off the arrays. -/
def Xn (r d : ℕ) : EReal := if h : r < 8192 ∧ d < 4096 then X1 V c (ix2 ⟨r, h.1⟩ ⟨d, h.2⟩) else 0
def Wn (q d : ℕ) : EReal := if h : q < 4096 ∧ d < 4096 then W1 V c (ix2 ⟨q, h.1⟩ ⟨d, h.2⟩) else 0

/-- The product of the left operand's row `r` and the right operand's row `q` over the `k`-th stretch of 512 columns. -/
def T (r q k : ℕ) : EReal := ∑ e ∈ Finset.range 512, Xn V c r (k * 512 + e) * Wn V c q (k * 512 + e)

/-- Inside the arrays it is the sum over the stretch's columns. -/
theorem T_eq (r q k : ℕ) (hr : r < 8192) (hq : q < 4096) (hk : k < 8) :
    (∑ d : Fin 512, X1 V c (ix2 ⟨r, hr⟩ ⟨k * 512 + d.val, by omega⟩) * W1 V c (ix2 ⟨q, hq⟩ ⟨k * 512 + d.val, by omega⟩))
      = T V c r q k := by
  unfold T
  rw [← Fin.sum_univ_eq_sum_range (fun e => Xn V c r (k * 512 + e) * Wn V c q (k * 512 + e)) 512]
  refine Finset.sum_congr rfl fun d _ => ?_
  unfold Xn Wn
  rw [dif_pos ⟨hr, by omega⟩, dif_pos ⟨hq, by omega⟩]

/-- One point's product, of blocks that are the point's blocks of the two operands: the point's stretch of columns of
    the block's rows. -/
theorem step_eq (t : Fin cfg1.N) (y0 : Fin 2048) (y1 : Fin 1024) (x : Vec Ideal S2048x512 .bf16) (w : Vec Ideal S1024x512 .bf16)
    (hx : ∀ d : Fin 512, x (ix2 y0 d) = X1 V c (ix2 ⟨t.val / 32 * 2048 + y0.val, by have := lt128 t; omega⟩ ⟨t.val % 8 * 512 + d.val, by omega⟩))
    (hw : ∀ d : Fin 512, w (ix2 y1 d) = W1 V c (ix2 ⟨t.val / 8 % 4 * 1024 + y1.val, by omega⟩ ⟨t.val % 8 * 512 + d.val, by omega⟩)) :
    (∑ d : Fin 512, x (ix2 y0 d) * w (ix2 y1 d))
      = T V c (t.val / 32 * 2048 + y0.val) (t.val / 8 % 4 * 1024 + y1.val) (t.val % 8) := by
  have := lt128 t
  rw [← T_eq V c _ _ _ (by omega) (by omega) (by omega)]
  refine Finset.sum_congr rfl fun d _ => ?_
  rw [hx, hw]

/-- Off a block's last point, the output block's buffer holds the sum of the stretches' products so far: by induction on
    the point — a first point starts from the zero fill, a later one adds its stretch to what the point before left, and
    the points of one sweep share their block's rows. -/
theorem outsAt1_partial (y0 : Fin 2048) (y1 : Fin 1024) : ∀ (n : ℕ) (h : n < cfg1.N), n % 8 ≠ 7 →
    outsAt1 V c n h (ix2 y0 y1)
      = ∑ k ∈ Finset.range (n % 8 + 1), T V c (n / 32 * 2048 + y0.val) (n / 8 % 4 * 1024 + y1.val) k := by
  intro n
  induction n with
  | zero =>
    intro h _
    rw [outsAt1_A V c ⟨0, h⟩ rfl]
    refine (k1_pay2_apply _ (iblk1 V c 0 ⟨0, h⟩) (iblk1 V c 1 ⟨0, h⟩) y0 y1).trans ?_
    rw [k1_pay1_apply, zero_add, step_eq V c _ y0 y1 _ _ (iblk1_0_apply V c _ y0) (iblk1_1_apply V c _ y1)]
    simp
  | succ m ih =>
    intro h h7
    by_cases h0 : (m + 1) % 8 = 0
    · rw [outsAt1_A V c ⟨m + 1, h⟩ h0]
      refine (k1_pay2_apply _ (iblk1 V c 0 ⟨m + 1, h⟩) (iblk1 V c 1 ⟨m + 1, h⟩) y0 y1).trans ?_
      rw [k1_pay1_apply, zero_add, step_eq V c _ y0 y1 _ _ (iblk1_0_apply V c _ y0) (iblk1_1_apply V c _ y1)]
      show T V c _ _ ((m + 1) % 8) = _
      rw [h0]; simp
    · rw [outsAt1_B V c ⟨m + 1, h⟩ h0 h7]
      refine (k1_pay2_apply _ (iblk1 V c 0 ⟨m + 1, h⟩) (iblk1 V c 1 ⟨m + 1, h⟩) y0 y1).trans ?_
      rw [step_eq V c _ y0 y1 _ _ (iblk1_0_apply V c _ y0) (iblk1_1_apply V c _ y1)]
      show outsAt1 V c m _ (ix2 y0 y1) + T V c ((m + 1) / 32 * 2048 + y0.val) ((m + 1) / 8 % 4 * 1024 + y1.val) ((m + 1) % 8) = _
      rw [ih _ (by omega), Finset.sum_range_succ (n := (m + 1) % 8)]
      have e1 : m / 32 = (m + 1) / 32 := by omega
      have e2 : m / 8 % 4 = (m + 1) / 8 % 4 := by omega
      have e3 : m % 8 + 1 = (m + 1) % 8 := by omega
      rw [e1, e2, e3]

/-- The full-depth product of two rows is the sum of the eight stretches' products. -/
theorem full_eq (r q : ℕ) (hr : r < 8192) (hq : q < 4096) :
    (∑ d : Fin 4096, X1 V c (ix2 ⟨r, hr⟩ d) * W1 V c (ix2 ⟨q, hq⟩ d)) = ∑ k ∈ Finset.range 8, T V c r q k := by
  rw [sum_4096_blocks8, ← Fin.sum_univ_eq_sum_range (fun k => T V c r q k) 8]
  refine Finset.sum_congr rfl fun k _ => ?_
  exact T_eq V c r q k.val hr hq k.isLt

/-- The low-rank product, of blocks that are the point's blocks of the two factors. -/
theorem low_eq (t : Fin cfg1.N) (y0 : Fin 2048) (y1 : Fin 1024) (l : Vec Ideal S2048x128 .bf16) (b : Vec Ideal S1024x128 .bf16)
    (hl : ∀ r : Fin 128, l (ix2 y0 r) = L1 V c (ix2 ⟨t.val / 32 * 2048 + y0.val, by have := lt128 t; omega⟩ r))
    (hb : ∀ r : Fin 128, b (ix2 y1 r) = B1 V c (ix2 ⟨t.val / 8 % 4 * 1024 + y1.val, by omega⟩ r)) :
    (∑ r : Fin 128, l (ix2 y0 r) * b (ix2 y1 r))
      = ∑ r : Fin 128, L1 V c (ix2 ⟨t.val / 32 * 2048 + y0.val, by have := lt128 t; omega⟩ r)
          * B1 V c (ix2 ⟨t.val / 8 % 4 * 1024 + y1.val, by omega⟩ r) :=
  Finset.sum_congr rfl fun r _ => by rw [hl, hb]

/-- At a block's last point the output block's buffer holds the block of `G1`: the seven stretches so far, the eighth,
    and the low-rank product. -/
theorem outsAt1_flush (t : Fin cfg1.N) (h7 : t.val % 8 = 7) (y0 : Fin 2048) (y1 : Fin 1024) :
    outsAt1 V c t.val t.isLt (ix2 y0 y1)
      = G1 V c (ix2 ⟨t.val / 32 * 2048 + y0.val, by have := lt128 t; omega⟩ ⟨t.val / 8 % 4 * 1024 + y1.val, by omega⟩) := by
  have hlt := lt128 t
  rw [outsAt1_C V c t h7]
  refine (k1_pay3_apply _ (iblk1 V c 2 t) (iblk1 V c 3 t) y0 y1).trans ?_
  rw [k1_pay2_apply (outsAt1 V c (t.val - 1) _) (iblk1 V c 0 t) (iblk1 V c 1 t) y0 y1]
  rw [outsAt1_partial V c y0 y1 (t.val - 1) _ (by omega),
    step_eq V c t y0 y1 _ _ (iblk1_0_apply V c t y0) (iblk1_1_apply V c t y1),
    low_eq V c t y0 y1 _ _ (iblk1_2_apply V c t y0) (iblk1_3_apply V c t y1)]
  have e1 : (t.val - 1) / 32 = t.val / 32 := by omega
  have e2 : (t.val - 1) / 8 % 4 = t.val / 8 % 4 := by omega
  have e3 : (t.val - 1) % 8 + 1 = 7 := by omega
  rw [e1, e2, e3, h7, ← Finset.sum_range_succ (fun k => T V c (t.val / 32 * 2048 + y0.val) (t.val / 8 % 4 * 1024 + y1.val) k) 7]
  unfold G1
  show _ = (∑ d : Fin 4096, X1 V c (ix2 ⟨t.val / 32 * 2048 + y0.val, _⟩ d) * W1 V c (ix2 ⟨t.val / 8 % 4 * 1024 + y1.val, _⟩ d)) + _
  rw [full_eq]

end Acc

end Cert.KernelIdeal.Hand

end
-- ==== Proof.KI.Region1Value.lean ====
import proofs.«130097_j62697932587275_2_alg».proof.Proof.KI.Region1Blocks
import proofs.«130097_j62697932587275_2_alg».proof.Proof.KI.Region1Acc
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! # From the result's blocks to the result array

The result's block `(i, j)` is written back after the last point of its reduction sweep (`t % 8 = 7`), holding the
accumulated product and the low-rank product of its rows and columns; the sixteen blocks tile the array. -/

/-- What a flushing point writes back is its block of `G1`. -/
theorem flushed1_4_eq (c : Dev nD) (t : Fin cfg1.N) (hf : (cfg1.win 4).flush t = true) :
    (dat1 V c).flushed 4 t = ((cfg1.win 4).blk t).view.read (Elt Ideal) (G1 V c) := by
  have h7 : t.val % 8 = 7 := (flush1_4 t).mp hf
  obtain ⟨-, -, -, -, -, -, -, -, e8, e9⟩ := idx_facts1 t
  show ((cfg1.win 4).cut (grid1.coords t) ((dat1 V c).after 4 t) : S2048x1024.Idx → EReal) = _
  rw [after1_4]
  funext j
  obtain ⟨y0, y1, rfl⟩ : ∃ (y0 : Fin 2048) (y1 : Fin 1024), j = ix2 y0 y1 := ⟨j 0, j 1, eq_ix2 j⟩
  rw [View.read_apply]
  show outsAt1 V c t.val t.isLt (ix2 y0 y1) = G1 V c (((cfg1.win 4).blk t).view.emb (ix2 y0 y1))
  rw [outsAt1_flush V c t h7 y0 y1]
  congr 1
  funext a; apply Fin.ext
  match a with
  | ⟨0, _⟩ => show t.val / 32 * 2048 + y0.val = win1_4.index t (0 : Fin 2) * 2048 + 1 * y0.val; omega
  | ⟨1, _⟩ => show t.val / 8 % 4 * 1024 + y1.val = win1_4.index t (1 : Fin 2) * 1024 + 1 * y1.val; omega

/-- An index of the result array is in point `t`'s block iff each coordinate is in the block's range on its axis. -/
theorem mem_blk1_4 (t : Fin cfg1.N) (i : S8192x4096.Idx) :
    i ∈ ((cfg1.win 4).blk t).view.set ↔ ∀ a : Fin 2, win1_4.index t a * S2048x1024.size a ≤ (i a).val
      ∧ (i a).val < win1_4.index t a * S2048x1024.size a + S2048x1024.size a := by
  show i ∈ ((View.whole main_v24).slice (win1_4.rect t)).set ↔ _
  rw [View.set_slice_whole, Rect.mem_set_unit]
  exact Iff.rfl

/-- Every index of the result array is in the block of a flushing point: row `p`, column `o` in block
    `(p / 2048, o / 1024)`, flushed at the last point of that block's sweep. -/
theorem cover1_4 (i : S8192x4096.Idx) :
    ∃ t : Fin cfg1.N, (cfg1.win 4).flush t = true ∧ i ∈ ((cfg1.win 4).blk t).view.set := by
  have hi0 : (i 0).val < 8192 := idx2_lt0 i
  have hi1 : (i 1).val < 4096 := idx2_lt1 i
  have hN : cfg1.N = 128 := N_1
  let t : Fin cfg1.N := ⟨(i 0).val / 2048 * 32 + (i 1).val / 1024 * 8 + 7, by rw [hN]; omega⟩
  have ht : t.val = (i 0).val / 2048 * 32 + (i 1).val / 1024 * 8 + 7 := rfl
  obtain ⟨-, -, -, -, -, -, -, -, e8, e9⟩ := idx_facts1 t
  refine ⟨t, (flush1_4 t).mpr (by omega), ?_⟩
  rw [mem_blk1_4]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 1024 ≤ (i 1).val ∧ (i 1).val < win1_4.index t (1 : Fin 2) * 1024 + 1024; omega

/-- So the result array ends holding `G1`. -/
theorem arrAt1_4_eq (c : Dev nD) : (dat1 (F := Ideal) V c).arrAt 4 cfg1.N = G1 V c :=
  (dat1 V c).arrAt_eq_of_cover 4 (G1 V c) (flushed1_4_eq V c) cover1_4

/-- At row `p` and column `o`. -/
theorem arrAt1_4 (c : Dev nD) (p : Fin 8192) (o : Fin 4096) :
    (dat1 (F := Ideal) V c).arrAt 4 cfg1.N (ix2 p o) = G1 V c (ix2 p o) :=
  congrFun (arrAt1_4_eq V c) (ix2 p o)

end Cert.KernelIdeal.Hand

end
-- ==== Proof.Spec.lean ====
/-
  The layer's mathematics, stated once and for no program: a dense layer with three low-rank adapters of ranks
  8, 16 and 32. With x an input row, W the base matrix, (A_i, B_i) the adapters' factor pairs, α_i their gains and
  h the common scaling, the layer's value at an output column o is

      Σ_d x_d · W[o,d]  +  (Σ_i α_i · Σ_r (Σ_d x_d · A_i[r,d]) · B_i[o,r]) · h.

  Two arrangements of that value are named here. `refForm` is the one above, adapter by adapter. `kerForm` stacks
  the three adapters into one factor pair of rank 128 — rows 0..7 the first adapter, 8..23 the second, 24..55 the
  third, rows 56..127 zero — and moves the gains and the scaling into one per-row factor `scale`, so that the
  adapters' part is a single sum over 128 rows. The two agree when every entry is a real number (distributivity
  is what joins them, and it fails at the infinities).
-/
import Idealize.ShloMosaic.Lib.ValueIdx

noncomputable section

namespace Cert.Lora

open Idealize.ShloMosaic Idealize.ShloMosaic.ValueIdx

/-- The layer's inputs, entry by entry on the extended reals: a batch of 4 × 2048 input rows of width 4096, the
    4096 × 4096 base matrix, the three factor pairs, the three gains, and the scaling `hf`. -/
structure Args where
  x : Fin 4 → Fin 2048 → Fin 4096 → EReal
  W : Fin 4096 → Fin 4096 → EReal
  A8 : Fin 8 → Fin 4096 → EReal
  B8 : Fin 4096 → Fin 8 → EReal
  A16 : Fin 16 → Fin 4096 → EReal
  B16 : Fin 4096 → Fin 16 → EReal
  A32 : Fin 32 → Fin 4096 → EReal
  B32 : Fin 4096 → Fin 32 → EReal
  al : Fin 3 → EReal
  hf : EReal

/-- Every entry is a real number. -/
structure Args.Finite (a : Args) : Prop where
  x : ∀ b s d, ∃ r : ℝ, a.x b s d = (r : EReal)
  W : ∀ o d, ∃ r : ℝ, a.W o d = (r : EReal)
  A8 : ∀ r d, ∃ v : ℝ, a.A8 r d = (v : EReal)
  B8 : ∀ o r, ∃ v : ℝ, a.B8 o r = (v : EReal)
  A16 : ∀ r d, ∃ v : ℝ, a.A16 r d = (v : EReal)
  B16 : ∀ o r, ∃ v : ℝ, a.B16 o r = (v : EReal)
  A32 : ∀ r d, ∃ v : ℝ, a.A32 r d = (v : EReal)
  B32 : ∀ o r, ∃ v : ℝ, a.B32 o r = (v : EReal)
  al : ∀ i, ∃ v : ℝ, a.al i = (v : EReal)
  hf : ∃ v : ℝ, a.hf = (v : EReal)

variable (a : Args)

/-- The base layer: row (b,s) of x against row o of W. -/
def base (b : Fin 4) (s : Fin 2048) (o : Fin 4096) : EReal := ∑ d : Fin 4096, a.x b s d * a.W o d

/-- One adapter's contribution before its gain: the row projected to rank r by A, then expanded by B. -/
def lora8 (b : Fin 4) (s : Fin 2048) (o : Fin 4096) : EReal :=
  ∑ r : Fin 8, (∑ d : Fin 4096, a.x b s d * a.A8 r d) * a.B8 o r
def lora16 (b : Fin 4) (s : Fin 2048) (o : Fin 4096) : EReal :=
  ∑ r : Fin 16, (∑ d : Fin 4096, a.x b s d * a.A16 r d) * a.B16 o r
def lora32 (b : Fin 4) (s : Fin 2048) (o : Fin 4096) : EReal :=
  ∑ r : Fin 32, (∑ d : Fin 4096, a.x b s d * a.A32 r d) * a.B32 o r

/-- Adapter by adapter: the gains applied to each adapter's contribution, summed from zero, scaled, added to the base. -/
def refForm (b : Fin 4) (s : Fin 2048) (o : Fin 4096) : EReal :=
  base a b s o + (((0 + a.al 0 * lora8 a b s o) + a.al 1 * lora16 a b s o) + a.al 2 * lora32 a b s o) * a.hf

/-- The stacked projection: rows 0..7, 8..23, 24..55 are the three adapters' A, the rest zero. -/
def Acat (r : Fin 128) (d : Fin 4096) : EReal :=
  if h8 : r.val < 8 then a.A8 ⟨r.val, h8⟩ d
  else if h24 : r.val < 24 then a.A16 ⟨r.val - 8, by omega⟩ d
  else if h56 : r.val < 56 then a.A32 ⟨r.val - 24, by omega⟩ d
  else 0

/-- The stacked expansion: columns 0..7, 8..23, 24..55 are the three adapters' B, the rest zero. -/
def Bcat (o : Fin 4096) (r : Fin 128) : EReal :=
  if h8 : r.val < 8 then a.B8 o ⟨r.val, h8⟩
  else if h24 : r.val < 24 then a.B16 o ⟨r.val - 8, by omega⟩
  else if h56 : r.val < 56 then a.B32 o ⟨r.val - 24, by omega⟩
  else 0

/-- The per-row factor: each adapter's gain times the scaling on its rows, zero on the padding. -/
def scale (r : Fin 128) : EReal :=
  if r.val < 8 then a.al 0 * a.hf
  else if r.val < 24 then a.al 1 * a.hf
  else if r.val < 56 then a.al 2 * a.hf
  else 0

/-- Stacked: the base plus one sum over the 128 stacked rows of (projection · per-row factor) · expansion. -/
def kerForm (b : Fin 4) (s : Fin 2048) (o : Fin 4096) : EReal :=
  base a b s o + ∑ r : Fin 128, ((∑ d : Fin 4096, a.x b s d * Acat a r d) * scale a r) * Bcat a o r

/-- The inputs read off nine arrays of the layer's shapes, with the scaling `hf`. -/
def Args.ofArrays (x : (⟨3, ![4, 2048, 4096]⟩ : Shape).Idx → EReal) (W : (⟨2, ![4096, 4096]⟩ : Shape).Idx → EReal)
    (A8 : (⟨2, ![8, 4096]⟩ : Shape).Idx → EReal) (B8 : (⟨2, ![4096, 8]⟩ : Shape).Idx → EReal)
    (A16 : (⟨2, ![16, 4096]⟩ : Shape).Idx → EReal) (B16 : (⟨2, ![4096, 16]⟩ : Shape).Idx → EReal)
    (A32 : (⟨2, ![32, 4096]⟩ : Shape).Idx → EReal) (B32 : (⟨2, ![4096, 32]⟩ : Shape).Idx → EReal)
    (al : (⟨1, ![3]⟩ : Shape).Idx → EReal) (hf : EReal) : Args where
  x b s d := x (ix3 b s d)
  W o d := W (ix2 o d)
  A8 r d := A8 (ix2 r d)
  B8 o r := B8 (ix2 o r)
  A16 r d := A16 (ix2 r d)
  B16 o r := B16 (ix2 o r)
  A32 r d := A32 (ix2 r d)
  B32 o r := B32 (ix2 o r)
  al i := al (ix1 i)
  hf := hf

end Cert.Lora

end
-- ==== Proof.KI.Args.lean ====
/-
  The layer's nine inputs read off a memory of this program on one core, with the scaling 1/2 the program's literal.
-/
import proofs.«130097_j62697932587275_2_alg».proof.KernelIdeal
import proofs.«130097_j62697932587275_2_alg».proof.Proof.Spec
import Idealize.ShloMosaic.PureOps.Ideal

noncomputable section

namespace Cert.KernelIdeal.Hand

open Idealize.ShloMosaic Idealize.SL.Sem Cert.KernelIdeal

/-- The inputs as the memory `m` holds them on core `c`. -/
def argsOf (m : (ℓ : Loc nD τ sig) → Buf (Elt Ideal) ℓ) (c : Dev nD) : Cert.Lora.Args :=
  Cert.Lora.Args.ofArrays
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (Ideal.ofBits .f32 0x3F000000#32)

end Cert.KernelIdeal.Hand

end
-- ==== Proof.KI.HostVals.lean ====
/-
  What the host operations leave in the five arrays the two kernel regions read, entry by entry, as the
  specification's stacked tables; and the reshape after the regions.
-/
import proofs.«130097_j62697932587275_2_alg».proof.Proof.Gen.KernelIdeal.Regions
import proofs.«130097_j62697932587275_2_alg».proof.Proof.KI.Args
import Idealize.ShloMosaic.Lib.StableHlo.Run
import Idealize.ShloMosaic.Lib.Pipeline.Value
import Idealize.ShloMosaic.Lib.KernelVsHost

noncomputable section

namespace Cert.KernelIdeal.Hand

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-- Continues reading a fold of host operations once an operand named through a literal family of references has been
    reduced to the reference itself: each operation's result at its own buffer is its function's value, at any other
    buffer what was there. -/
local macro "more_results" : tactic =>
  `(tactic| (dsimp only [Matrix.cons_val]
             repeat (first
               | rw [StableHlo.nullary_result] | rw [StableHlo.unary_result] | rw [StableHlo.binary_result]
               | rw [StableHlo.reshape_result] | rw [StableHlo.nary_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-! ## Each stretch of host operations, from any contents `W` of the buffers before it -/

section Stretches

variable (W : Valuation τ sig (Elt Ideal))

/-- One gain times the scaling as the host computes it: entry `k` of the gains cut out, read as a scalar, times the literal. -/
def hostGain (al : S3.Idx → EReal) (k : Nat) (h : S3.Slices ![k] S1) : S_.Idx → EReal :=
  mulf (F := Ideal) (shapeCast S_ (extractStridedSlice S1 ![k] al h) shapeCasts_S1_S_ : FVec Ideal S_ .f32) (constant (F := Ideal) S_ .f32 0x3F000000#32)

theorem s0_v0 : (StableHlo.after hostOps0 W main_v0 : S8192x4096.Idx → EReal)
    = shapeCast S8192x4096 (W main_arg0 : S4x2048x4096.Idx → EReal) shapeCasts_S4x2048x4096_S8192x4096 := by
  dsimp only [hostOps0]; after_results; rfl

theorem s0_v1 : (StableHlo.after hostOps0 W main_v1 : S56x4096.Idx → EReal)
    = concatenate S56x4096 0 [⟨S8x4096, (W main_arg2 : S8x4096.Idx → EReal)⟩, ⟨S16x4096, (W main_arg4 : S16x4096.Idx → EReal)⟩,
        ⟨S32x4096, (W main_arg6 : S32x4096.Idx → EReal)⟩] concatenates_S8x4096_S16x4096_S32x4096_S56x4096_d0 := by
  dsimp only [hostOps0]; after_results; more_results

theorem s0_v2 : (StableHlo.after hostOps0 W main_v2 : S4096x56.Idx → EReal)
    = concatenate S4096x56 1 [⟨S4096x8, (W main_arg3 : S4096x8.Idx → EReal)⟩, ⟨S4096x16, (W main_arg5 : S4096x16.Idx → EReal)⟩,
        ⟨S4096x32, (W main_arg7 : S4096x32.Idx → EReal)⟩] concatenates_S4096x8_S4096x16_S4096x32_S4096x56_d1 := by
  dsimp only [hostOps0]; after_results; more_results

theorem s0_v15 : (StableHlo.after hostOps0 W main_v15 : S56.Idx → EReal)
    = concatenate S56 0 [⟨S8, broadcastInDim S8 ![] bcast_S_S8 (hostGain (W main_arg8) 0 slices_S3_S1_0)⟩,
        ⟨S16, broadcastInDim S16 ![] bcast_S_S16 (hostGain (W main_arg8) 1 slices_S3_S1_1)⟩,
        ⟨S32, broadcastInDim S32 ![] bcast_S_S32 (hostGain (W main_arg8) 2 slices_S3_S1_2)⟩] concatenates_S8_S16_S32_S56_d0 := by
  dsimp only [hostOps0]; after_results; more_results
  rfl

theorem s0_c : (StableHlo.after hostOps0 W main_c : IVec S_ 32) = constantI S_ 32 0#32 := by
  dsimp only [hostOps0]; after_results

theorem s1_v16 : (StableHlo.after hostOps0_1 W main_v16 : S128x4096.Idx → EReal)
    = pad S128x4096 ![0, 0] ![72, 0] ![0, 0] (W main_v1 : S56x4096.Idx → EReal) (sitofp .f32 (W main_c : IVec S_ 32) : FVec Ideal S_ .f32)
        pads_S56x4096_S128x4096_0720_000 h_S_ := by
  dsimp only [hostOps0_1]; after_results; rfl

theorem s2_c : (StableHlo.after hostOps0_2 W main_c_2 : IVec S_ 32) = constantI S_ 32 0#32 := by
  dsimp only [hostOps0_2]; after_results

theorem s3_v17 : (StableHlo.after hostOps0_3 W main_v17 : S4096x128.Idx → EReal)
    = pad S4096x128 ![0, 0] ![0, 72] ![0, 0] (W main_v2 : S4096x56.Idx → EReal) (sitofp .f32 (W main_c_2 : IVec S_ 32) : FVec Ideal S_ .f32)
        pads_S4096x56_S4096x128_000_0720 h_S_ := by
  dsimp only [hostOps0_3]; after_results; rfl

theorem s4_c : (StableHlo.after hostOps0_4 W main_c_3 : IVec S_ 32) = constantI S_ 32 0#32 := by
  dsimp only [hostOps0_4]; after_results

theorem s5_v18 : (StableHlo.after hostOps0_5 W main_v18 : S128.Idx → EReal)
    = pad S128 ![0] ![72] ![0] (W main_v15 : S56.Idx → EReal) (sitofp .f32 (W main_c_3 : IVec S_ 32) : FVec Ideal S_ .f32)
        pads_S56_S128_0720 h_S_ := by
  dsimp only [hostOps0_5]; after_results; rfl

theorem s6_v19 : (StableHlo.after hostOps0_6 W main_v19 : S1x128.Idx → EReal)
    = shapeCast S1x128 (W main_v18 : S128.Idx → EReal) shapeCasts_S128_S1x128 := by
  dsimp only [hostOps0_6]; after_results; rfl

theorem s6_v20 : (StableHlo.after hostOps0_6 W main_v20 : S128x4096.Idx → EReal)
    = (truncf .bf16 (W main_v16 : FVec Ideal S128x4096 .f32) bitsLt_bf16_f32 : FVec Ideal S128x4096 .bf16) := by
  dsimp only [hostOps0_6]; after_results

theorem s6_v21 : (StableHlo.after hostOps0_6 W main_v21 : S4096x128.Idx → EReal)
    = (truncf .bf16 (W main_v17 : FVec Ideal S4096x128 .f32) bitsLt_bf16_f32 : FVec Ideal S4096x128 .bf16) := by
  dsimp only [hostOps0_6]; after_results

theorem s6_v22 : (StableHlo.after hostOps0_6 W main_v22 : S4096x4096.Idx → EReal)
    = (truncf .bf16 (W main_arg1 : FVec Ideal S4096x4096 .f32) bitsLt_bf16_f32 : FVec Ideal S4096x4096 .bf16) := by
  dsimp only [hostOps0_6]; after_results

theorem s9_v25 : (StableHlo.after hostOps2 W main_v25 : S4x2048x4096.Idx → EReal)
    = shapeCast S4x2048x4096 (W main_v24 : S8192x4096.Idx → EReal) shapeCasts_S8192x4096_S4x2048x4096 := by
  dsimp only [hostOps2]; after_results; rfl

end Stretches

/-! ## The shape operations read at an index -/

section Reads

/-- Three arrays of 8, 16 and 32 rows stacked along the rows, read at a row: the array whose span holds the row. -/
theorem cat_rows (A8 : S8x4096.Idx → EReal) (A16 : S16x4096.Idx → EReal) (A32 : S32x4096.Idx → EReal) (r : Nat) (hr : r < 56) (d : Fin 4096) :
    concatenate S56x4096 0 [⟨S8x4096, A8⟩, ⟨S16x4096, A16⟩, ⟨S32x4096, A32⟩] concatenates_S8x4096_S16x4096_S32x4096_S56x4096_d0 (ix2 (⟨r, hr⟩ : Fin 56) d)
      = if h8 : r < 8 then A8 (ix2 (⟨r, h8⟩ : Fin 8) d)
        else if h24 : r < 24 then A16 (ix2 (⟨r - 8, by omega⟩ : Fin 16) d)
        else A32 (ix2 (⟨r - 24, by omega⟩ : Fin 32) d) := by
  by_cases h8 : r < 8
  · rw [dif_pos h8]
    exact concatenate_apply_piece (t := S56x4096) (0 : Fin 2) [⟨S8x4096, A8⟩, ⟨S16x4096, A16⟩, ⟨S32x4096, A32⟩] concatenates_S8x4096_S16x4096_S32x4096_S56x4096_d0
      (ix2 (⟨r, hr⟩ : Fin 56) d) 0 (by show (0 : Nat) < 3; omega) S8x4096 A8 rfl rfl 0 rfl (ix2 (⟨r, h8⟩ : Fin 8) d)
      (fun b hb => match b, hb with
        | ⟨0, _⟩, hb => absurd rfl hb
        | ⟨1, _⟩, _ => rfl)
      (by show 0 + r = r; omega)
  · rw [dif_neg h8]
    by_cases h24 : r < 24
    · rw [dif_pos h24]
      exact concatenate_apply_piece (t := S56x4096) (0 : Fin 2) [⟨S8x4096, A8⟩, ⟨S16x4096, A16⟩, ⟨S32x4096, A32⟩] concatenates_S8x4096_S16x4096_S32x4096_S56x4096_d0
        (ix2 (⟨r, hr⟩ : Fin 56) d) 1 (by show (1 : Nat) < 3; omega) S16x4096 A16 rfl rfl 8 rfl (ix2 (⟨r - 8, by omega⟩ : Fin 16) d)
        (fun b hb => match b, hb with
          | ⟨0, _⟩, hb => absurd rfl hb
          | ⟨1, _⟩, _ => rfl)
        (by show 8 + (r - 8) = r; omega)
    · rw [dif_neg h24]
      exact concatenate_apply_piece (t := S56x4096) (0 : Fin 2) [⟨S8x4096, A8⟩, ⟨S16x4096, A16⟩, ⟨S32x4096, A32⟩] concatenates_S8x4096_S16x4096_S32x4096_S56x4096_d0
        (ix2 (⟨r, hr⟩ : Fin 56) d) 2 (by show (2 : Nat) < 3; omega) S32x4096 A32 rfl rfl 24 rfl (ix2 (⟨r - 24, by omega⟩ : Fin 32) d)
        (fun b hb => match b, hb with
          | ⟨0, _⟩, hb => absurd rfl hb
          | ⟨1, _⟩, _ => rfl)
        (by show 24 + (r - 24) = r; omega)

/-- Three arrays of 8, 16 and 32 columns stacked along the columns, read at a column. -/
theorem cat_cols (B8 : S4096x8.Idx → EReal) (B16 : S4096x16.Idx → EReal) (B32 : S4096x32.Idx → EReal) (o : Fin 4096) (r : Nat) (hr : r < 56) :
    concatenate S4096x56 1 [⟨S4096x8, B8⟩, ⟨S4096x16, B16⟩, ⟨S4096x32, B32⟩] concatenates_S4096x8_S4096x16_S4096x32_S4096x56_d1 (ix2 o (⟨r, hr⟩ : Fin 56))
      = if h8 : r < 8 then B8 (ix2 o (⟨r, h8⟩ : Fin 8))
        else if h24 : r < 24 then B16 (ix2 o (⟨r - 8, by omega⟩ : Fin 16))
        else B32 (ix2 o (⟨r - 24, by omega⟩ : Fin 32)) := by
  by_cases h8 : r < 8
  · rw [dif_pos h8]
    exact concatenate_apply_piece (t := S4096x56) (1 : Fin 2) [⟨S4096x8, B8⟩, ⟨S4096x16, B16⟩, ⟨S4096x32, B32⟩] concatenates_S4096x8_S4096x16_S4096x32_S4096x56_d1
      (ix2 o (⟨r, hr⟩ : Fin 56)) 0 (by show (0 : Nat) < 3; omega) S4096x8 B8 rfl rfl 0 rfl (ix2 o (⟨r, h8⟩ : Fin 8))
      (fun b hb => match b, hb with
        | ⟨0, _⟩, _ => rfl
        | ⟨1, _⟩, hb => absurd rfl hb)
      (by show 0 + r = r; omega)
  · rw [dif_neg h8]
    by_cases h24 : r < 24
    · rw [dif_pos h24]
      exact concatenate_apply_piece (t := S4096x56) (1 : Fin 2) [⟨S4096x8, B8⟩, ⟨S4096x16, B16⟩, ⟨S4096x32, B32⟩] concatenates_S4096x8_S4096x16_S4096x32_S4096x56_d1
        (ix2 o (⟨r, hr⟩ : Fin 56)) 1 (by show (1 : Nat) < 3; omega) S4096x16 B16 rfl rfl 8 rfl (ix2 o (⟨r - 8, by omega⟩ : Fin 16))
        (fun b hb => match b, hb with
          | ⟨0, _⟩, _ => rfl
          | ⟨1, _⟩, hb => absurd rfl hb)
        (by show 8 + (r - 8) = r; omega)
    · rw [dif_neg h24]
      exact concatenate_apply_piece (t := S4096x56) (1 : Fin 2) [⟨S4096x8, B8⟩, ⟨S4096x16, B16⟩, ⟨S4096x32, B32⟩] concatenates_S4096x8_S4096x16_S4096x32_S4096x56_d1
        (ix2 o (⟨r, hr⟩ : Fin 56)) 2 (by show (2 : Nat) < 3; omega) S4096x32 B32 rfl rfl 24 rfl (ix2 o (⟨r - 24, by omega⟩ : Fin 32))
        (fun b hb => match b, hb with
          | ⟨0, _⟩, _ => rfl
          | ⟨1, _⟩, hb => absurd rfl hb)
        (by show 24 + (r - 24) = r; omega)

/-- Three vectors of 8, 16 and 32 entries laid end to end, read at an entry. -/
theorem cat_vec (g8 : S8.Idx → EReal) (g16 : S16.Idx → EReal) (g32 : S32.Idx → EReal) (r : Nat) (hr : r < 56) :
    concatenate S56 0 [⟨S8, g8⟩, ⟨S16, g16⟩, ⟨S32, g32⟩] concatenates_S8_S16_S32_S56_d0 (ix1 (⟨r, hr⟩ : Fin 56))
      = if h8 : r < 8 then g8 (ix1 (⟨r, h8⟩ : Fin 8))
        else if h24 : r < 24 then g16 (ix1 (⟨r - 8, by omega⟩ : Fin 16))
        else g32 (ix1 (⟨r - 24, by omega⟩ : Fin 32)) := by
  by_cases h8 : r < 8
  · rw [dif_pos h8]
    exact concatenate_apply_piece (t := S56) (0 : Fin 1) [⟨S8, g8⟩, ⟨S16, g16⟩, ⟨S32, g32⟩] concatenates_S8_S16_S32_S56_d0
      (ix1 (⟨r, hr⟩ : Fin 56)) 0 (by show (0 : Nat) < 3; omega) S8 g8 rfl rfl 0 rfl (ix1 (⟨r, h8⟩ : Fin 8))
      (fun b hb => match b, hb with
        | ⟨0, _⟩, hb => absurd rfl hb)
      (by show 0 + r = r; omega)
  · rw [dif_neg h8]
    by_cases h24 : r < 24
    · rw [dif_pos h24]
      exact concatenate_apply_piece (t := S56) (0 : Fin 1) [⟨S8, g8⟩, ⟨S16, g16⟩, ⟨S32, g32⟩] concatenates_S8_S16_S32_S56_d0
        (ix1 (⟨r, hr⟩ : Fin 56)) 1 (by show (1 : Nat) < 3; omega) S16 g16 rfl rfl 8 rfl (ix1 (⟨r - 8, by omega⟩ : Fin 16))
        (fun b hb => match b, hb with
          | ⟨0, _⟩, hb => absurd rfl hb)
        (by show 8 + (r - 8) = r; omega)
    · rw [dif_neg h24]
      exact concatenate_apply_piece (t := S56) (0 : Fin 1) [⟨S8, g8⟩, ⟨S16, g16⟩, ⟨S32, g32⟩] concatenates_S8_S16_S32_S56_d0
        (ix1 (⟨r, hr⟩ : Fin 56)) 2 (by show (2 : Nat) < 3; omega) S32 g32 rfl rfl 24 rfl (ix1 (⟨r - 24, by omega⟩ : Fin 32))
        (fun b hb => match b, hb with
          | ⟨0, _⟩, hb => absurd rfl hb)
        (by show 24 + (r - 24) = r; omega)

/-- 56 rows padded below to 128: the rows, then the padding value. -/
theorem pad_rows (x : S56x4096.Idx → EReal) (v : S_.Idx → EReal) (r : Fin 128) (d : Fin 4096) :
    pad S128x4096 ![0, 0] ![72, 0] ![0, 0] x v pads_S56x4096_S128x4096_0720_000 h_S_ (ix2 r d)
      = if h : r.val < 56 then x (ix2 (⟨r.val, h⟩ : Fin 56) d) else v (Shape.Idx.first h_S_) := by
  by_cases h : r.val < 56
  · rw [dif_pos h]
    exact pad_apply_of_inside _ _ _ x v pads_S56x4096_S128x4096_0720_000 h_S_ (ix2 r d) (ix2 (⟨r.val, h⟩ : Fin 56) d) (fun a =>
      match a with
      | ⟨0, _⟩ => by show r.val = 0 + r.val * (0 + 1); omega
      | ⟨1, _⟩ => by show d.val = 0 + d.val * (0 + 1); omega)
  · rw [dif_neg h]
    exact pad_apply_of_not_inside _ _ _ x v pads_S56x4096_S128x4096_0720_000 h_S_ (ix2 r d) (0 : Fin 2) (fun hin => by
      have e : (r.val - 0) / (0 + 1) < 56 := hin.2.2
      omega)

/-- 56 columns padded on the right to 128: the columns, then the padding value. -/
theorem pad_cols (x : S4096x56.Idx → EReal) (v : S_.Idx → EReal) (o : Fin 4096) (r : Fin 128) :
    pad S4096x128 ![0, 0] ![0, 72] ![0, 0] x v pads_S4096x56_S4096x128_000_0720 h_S_ (ix2 o r)
      = if h : r.val < 56 then x (ix2 o (⟨r.val, h⟩ : Fin 56)) else v (Shape.Idx.first h_S_) := by
  by_cases h : r.val < 56
  · rw [dif_pos h]
    exact pad_apply_of_inside _ _ _ x v pads_S4096x56_S4096x128_000_0720 h_S_ (ix2 o r) (ix2 o (⟨r.val, h⟩ : Fin 56)) (fun a =>
      match a with
      | ⟨0, _⟩ => by show o.val = 0 + o.val * (0 + 1); omega
      | ⟨1, _⟩ => by show r.val = 0 + r.val * (0 + 1); omega)
  · rw [dif_neg h]
    exact pad_apply_of_not_inside _ _ _ x v pads_S4096x56_S4096x128_000_0720 h_S_ (ix2 o r) (1 : Fin 2) (fun hin => by
      have e : (r.val - 0) / (0 + 1) < 56 := hin.2.2
      omega)

/-- 56 entries padded at the end to 128: the entries, then the padding value. -/
theorem pad_vec (x : S56.Idx → EReal) (v : S_.Idx → EReal) (r : Fin 128) :
    pad S128 ![0] ![72] ![0] x v pads_S56_S128_0720 h_S_ (ix1 r)
      = if h : r.val < 56 then x (ix1 (⟨r.val, h⟩ : Fin 56)) else v (Shape.Idx.first h_S_) := by
  by_cases h : r.val < 56
  · rw [dif_pos h]
    exact pad_apply_of_inside _ _ _ x v pads_S56_S128_0720 h_S_ (ix1 r) (ix1 (⟨r.val, h⟩ : Fin 56)) (fun a =>
      match a with
      | ⟨0, _⟩ => by show r.val = 0 + r.val * (0 + 1); omega)
  · rw [dif_neg h]
    exact pad_apply_of_not_inside _ _ _ x v pads_S56_S128_0720 h_S_ (ix1 r) (0 : Fin 1) (fun hin => by
      have e : (r.val - 0) / (0 + 1) < 56 := hin.2.2
      omega)

/-- The integer zero converted to a float is zero. -/
theorem sitofp_zero (z : IVec S_ 32) (hz : z = constantI S_ 32 0#32) (j : S_.Idx) :
    (sitofp .f32 z : FVec Ideal S_ .f32) j = (0 : EReal) := by
  subst hz
  rw [sitofp_apply]
  show (((0#32 : BitVec 32).toInt : ℝ) : EReal) = 0
  simp

/-- A scalar copied along a vector is the scalar at every entry. -/
theorem bcast8 (g : S_.Idx → EReal) (j : S8.Idx) : broadcastInDim S8 ![] bcast_S_S8 g j = g ix0 :=
  broadcastInDim_apply _ bcast_S_S8 g j ix0 (fun a => a.elim0)
theorem bcast16 (g : S_.Idx → EReal) (j : S16.Idx) : broadcastInDim S16 ![] bcast_S_S16 g j = g ix0 :=
  broadcastInDim_apply _ bcast_S_S16 g j ix0 (fun a => a.elim0)
theorem bcast32 (g : S_.Idx → EReal) (j : S32.Idx) : broadcastInDim S32 ![] bcast_S_S32 g j = g ix0 :=
  broadcastInDim_apply _ bcast_S_S32 g j ix0 (fun a => a.elim0)

/-- The host's gain-times-scaling is entry `k` of the gains times the literal. -/
theorem hostGain_apply (al : S3.Idx → EReal) (k : Fin 3) (h : S3.Slices ![k.val] S1) :
    hostGain al k.val h ix0 = al (ix1 k) * Ideal.ofBits .f32 0x3F000000#32 := by
  unfold hostGain
  rw [mulf_apply, constant_apply]
  refine congrArg (· * Ideal.ofBits .f32 0x3F000000#32) ?_
  refine (shapeCast_apply _ shapeCasts_S1_S_ ix0 (ix1 (0 : Fin 1)) ?_).trans ?_
  · rw [Shape.rowMajor_val_one]
    exact (Shape.rowMajorPi_zero _ _).symm
  · exact extractStridedSlice_apply _ al h (ix1 (0 : Fin 1)) (ix1 k) (fun a =>
      match a with
      | ⟨0, _⟩ => by show k.val = k.val + 0; omega)

/-- A vector of 128 entries read as one row of 128. -/
theorem row_of_vec (x : S128.Idx → EReal) (r : Fin 128) : shapeCast S1x128 x shapeCasts_S128_S1x128 (ix2 (0 : Fin 1) r) = x (ix1 r) := by
  refine shapeCast_apply x shapeCasts_S128_S1x128 (ix2 (0 : Fin 1) r) (ix1 r) ?_
  rw [Shape.rowMajor_val_one, Shape.rowMajor_val_two]
  show r.val = 0 * 128 + r.val
  omega

end Reads

/-! ## The buffers at the regions' entry

Each buffer is walked back through the stretches that do not write it to the stretch that does. -/

theorem V6_arg1 : V6 m c main_arg1 = m ((c.tc : Thread nD τ).loc main_arg1) :=
  (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl

theorem V7_v0 : V7 m c main_v0 = V1 m c main_v0 :=
  (V7_of m c main_v0 (by decide)).trans <| (V6_of m c main_v0 (by decide)).trans <| (V5_of m c main_v0 (by decide)).trans <| (V4_of m c main_v0 (by decide)).trans <| (V3_of m c main_v0 (by decide)).trans <| (V2_of m c main_v0 (by decide))

theorem V6_v16 : V6 m c main_v16 = V2 m c main_v16 :=
  (V6_of m c main_v16 (by decide)).trans <| (V5_of m c main_v16 (by decide)).trans <| (V4_of m c main_v16 (by decide)).trans <| (V3_of m c main_v16 (by decide))

theorem V3_v2 : V3 m c main_v2 = V1 m c main_v2 :=
  (V3_of m c main_v2 (by decide)).trans <| (V2_of m c main_v2 (by decide))

theorem V6_v17 : V6 m c main_v17 = V4 m c main_v17 :=
  (V6_of m c main_v17 (by decide)).trans <| (V5_of m c main_v17 (by decide))

theorem V5_v15 : V5 m c main_v15 = V1 m c main_v15 :=
  (V5_of m c main_v15 (by decide)).trans <| (V4_of m c main_v15 (by decide)).trans <| (V3_of m c main_v15 (by decide)).trans <| (V2_of m c main_v15 (by decide))

theorem v0_eq : (V1 m c main_v0 : S8192x4096.Idx → EReal)
    = shapeCast S8192x4096 (V0 m c main_arg0 : S4x2048x4096.Idx → EReal) shapeCasts_S4x2048x4096_S8192x4096 := s0_v0 (V0 m c)
theorem v1_eq : (V1 m c main_v1 : S56x4096.Idx → EReal)
    = concatenate S56x4096 0 [⟨S8x4096, (V0 m c main_arg2 : S8x4096.Idx → EReal)⟩, ⟨S16x4096, (V0 m c main_arg4 : S16x4096.Idx → EReal)⟩,
        ⟨S32x4096, (V0 m c main_arg6 : S32x4096.Idx → EReal)⟩] concatenates_S8x4096_S16x4096_S32x4096_S56x4096_d0 := s0_v1 (V0 m c)
theorem v2_eq : (V1 m c main_v2 : S4096x56.Idx → EReal)
    = concatenate S4096x56 1 [⟨S4096x8, (V0 m c main_arg3 : S4096x8.Idx → EReal)⟩, ⟨S4096x16, (V0 m c main_arg5 : S4096x16.Idx → EReal)⟩,
        ⟨S4096x32, (V0 m c main_arg7 : S4096x32.Idx → EReal)⟩] concatenates_S4096x8_S4096x16_S4096x32_S4096x56_d1 := s0_v2 (V0 m c)
theorem v15_eq : (V1 m c main_v15 : S56.Idx → EReal)
    = concatenate S56 0 [⟨S8, broadcastInDim S8 ![] bcast_S_S8 (hostGain (V0 m c main_arg8) 0 slices_S3_S1_0)⟩,
        ⟨S16, broadcastInDim S16 ![] bcast_S_S16 (hostGain (V0 m c main_arg8) 1 slices_S3_S1_1)⟩,
        ⟨S32, broadcastInDim S32 ![] bcast_S_S32 (hostGain (V0 m c main_arg8) 2 slices_S3_S1_2)⟩] concatenates_S8_S16_S32_S56_d0 := s0_v15 (V0 m c)
theorem c_eq : (V1 m c main_c : IVec S_ 32) = constantI S_ 32 0#32 := s0_c (V0 m c)
theorem v16_eq : (V2 m c main_v16 : S128x4096.Idx → EReal)
    = pad S128x4096 ![0, 0] ![72, 0] ![0, 0] (V1 m c main_v1 : S56x4096.Idx → EReal) (sitofp .f32 (V1 m c main_c : IVec S_ 32) : FVec Ideal S_ .f32)
        pads_S56x4096_S128x4096_0720_000 h_S_ := s1_v16 (V1 m c)
theorem c2_eq : (V3 m c main_c_2 : IVec S_ 32) = constantI S_ 32 0#32 := s2_c (V2 m c)
theorem v17_eq : (V4 m c main_v17 : S4096x128.Idx → EReal)
    = pad S4096x128 ![0, 0] ![0, 72] ![0, 0] (V3 m c main_v2 : S4096x56.Idx → EReal) (sitofp .f32 (V3 m c main_c_2 : IVec S_ 32) : FVec Ideal S_ .f32)
        pads_S4096x56_S4096x128_000_0720 h_S_ := s3_v17 (V3 m c)
theorem c3_eq : (V5 m c main_c_3 : IVec S_ 32) = constantI S_ 32 0#32 := s4_c (V4 m c)
theorem v18_eq : (V6 m c main_v18 : S128.Idx → EReal)
    = pad S128 ![0] ![72] ![0] (V5 m c main_v15 : S56.Idx → EReal) (sitofp .f32 (V5 m c main_c_3 : IVec S_ 32) : FVec Ideal S_ .f32)
        pads_S56_S128_0720 h_S_ := s5_v18 (V5 m c)
theorem v19_eq : (V7 m c main_v19 : S1x128.Idx → EReal)
    = shapeCast S1x128 (V6 m c main_v18 : S128.Idx → EReal) shapeCasts_S128_S1x128 := s6_v19 (V6 m c)
theorem v20_eq : (V7 m c main_v20 : S128x4096.Idx → EReal)
    = (truncf .bf16 (V6 m c main_v16 : FVec Ideal S128x4096 .f32) bitsLt_bf16_f32 : FVec Ideal S128x4096 .bf16) := s6_v20 (V6 m c)
theorem v21_eq : (V7 m c main_v21 : S4096x128.Idx → EReal)
    = (truncf .bf16 (V6 m c main_v17 : FVec Ideal S4096x128 .f32) bitsLt_bf16_f32 : FVec Ideal S4096x128 .bf16) := s6_v21 (V6 m c)
theorem v22_eq : (V7 m c main_v22 : S4096x4096.Idx → EReal)
    = (truncf .bf16 (V6 m c main_arg1 : FVec Ideal S4096x4096 .f32) bitsLt_bf16_f32 : FVec Ideal S4096x4096 .bf16) := s6_v22 (V6 m c)

/-- The input rows: batch and position flattened to one row index. -/
theorem hv0 (p : Fin 8192) (d : Fin 4096) : (V7 m c main_v0 : S8192x4096.Idx → EReal) (ix2 p d) = (argsOf m c).x ⟨p.val / 2048, by omega⟩ ⟨p.val % 2048, Nat.mod_lt _ (by norm_num)⟩ d := by
  rw [V7_v0, v0_eq]
  have hp := p.isLt
  refine (shapeCast_apply _ shapeCasts_S4x2048x4096_S8192x4096 (ix2 p d) (ix3 (⟨p.val / 2048, by omega⟩ : Fin 4) (⟨p.val % 2048, Nat.mod_lt _ (by norm_num)⟩ : Fin 2048) d) ?_).trans rfl
  rw [Shape.rowMajor_val_three, Shape.rowMajor_val_two]
  show ((p.val / 2048) * 2048 + p.val % 2048) * 4096 + d.val = p.val * 4096 + d.val
  omega

/-- The stacked projection: the three adapters' first factors row after row, zero rows below. -/
theorem hv20 (r : Fin 128) (d : Fin 4096) : (V7 m c main_v20 : S128x4096.Idx → EReal) (ix2 r d) = Cert.Lora.Acat (argsOf m c) r d := by
  rw [v20_eq, truncf_apply, V6_v16, v16_eq, pad_rows]
  unfold Cert.Lora.Acat
  by_cases h56 : r.val < 56
  · rw [dif_pos h56, v1_eq, cat_rows]
    by_cases h8 : r.val < 8
    · rw [dif_pos h8, dif_pos h8]; rfl
    · rw [dif_neg h8, dif_neg h8]
      by_cases h24 : r.val < 24
      · rw [dif_pos h24, dif_pos h24]; rfl
      · rw [dif_neg h24, dif_neg h24, dif_pos h56]; rfl
  · rw [dif_neg h56, dif_neg (by omega), dif_neg (by omega), dif_neg h56]
    exact sitofp_zero _ (c_eq m c) _

/-- The stacked expansion: the three adapters' second factors column after column, zero columns to the right. -/
theorem hv21 (o : Fin 4096) (r : Fin 128) : (V7 m c main_v21 : S4096x128.Idx → EReal) (ix2 o r) = Cert.Lora.Bcat (argsOf m c) o r := by
  rw [v21_eq, truncf_apply, V6_v17, v17_eq, pad_cols]
  unfold Cert.Lora.Bcat
  by_cases h56 : r.val < 56
  · rw [dif_pos h56, V3_v2, v2_eq, cat_cols]
    by_cases h8 : r.val < 8
    · rw [dif_pos h8, dif_pos h8]; rfl
    · rw [dif_neg h8, dif_neg h8]
      by_cases h24 : r.val < 24
      · rw [dif_pos h24, dif_pos h24]; rfl
      · rw [dif_neg h24, dif_neg h24, dif_pos h56]; rfl
  · rw [dif_neg h56, dif_neg (by omega), dif_neg (by omega), dif_neg h56]
    exact sitofp_zero _ (c2_eq m c) _

/-- The per-row factor: each adapter's gain times the scaling along its rows, zero on the padding. -/
theorem hv19 (r : Fin 128) : (V7 m c main_v19 : S1x128.Idx → EReal) (ix2 0 r) = Cert.Lora.scale (argsOf m c) r := by
  rw [v19_eq, row_of_vec, v18_eq, pad_vec]
  unfold Cert.Lora.scale
  by_cases h56 : r.val < 56
  · rw [dif_pos h56, V5_v15, v15_eq, cat_vec]
    by_cases h8 : r.val < 8
    · rw [dif_pos h8, if_pos h8, bcast8]
      exact hostGain_apply _ (0 : Fin 3) slices_S3_S1_0
    · rw [dif_neg h8, if_neg h8]
      by_cases h24 : r.val < 24
      · rw [dif_pos h24, if_pos h24, bcast16]
        exact hostGain_apply _ (1 : Fin 3) slices_S3_S1_1
      · rw [dif_neg h24, if_neg h24, if_pos h56, bcast32]
        exact hostGain_apply _ (2 : Fin 3) slices_S3_S1_2
  · rw [dif_neg h56, if_neg (by omega), if_neg (by omega), if_neg h56]
    exact sitofp_zero _ (c3_eq m c) _

/-- The base matrix, as given. -/
theorem hv22 (o d : Fin 4096) : (V7 m c main_v22 : S4096x4096.Idx → EReal) (ix2 o d) = (argsOf m c).W o d := by
  rw [v22_eq, truncf_apply, V6_arg1]
  rfl

/-- The result rows unflattened to batch and position. -/
theorem hv25 (W : Valuation τ sig (Elt Ideal)) (b : Fin 4) (s : Fin 2048) (o : Fin 4096) : (StableHlo.after hostOps2 W main_v25 : S4x2048x4096.Idx → EReal) (ix3 b s o) = (W main_v24 : S8192x4096.Idx → EReal) (ix2 ⟨b.val * 2048 + s.val, by omega⟩ o) := by
  rw [s9_v25]
  have hb := b.isLt
  have hs := s.isLt
  refine shapeCast_apply _ shapeCasts_S8192x4096_S4x2048x4096 (ix3 b s o) (ix2 (⟨b.val * 2048 + s.val, by omega⟩ : Fin 8192) o) ?_
  rw [Shape.rowMajor_val_three, Shape.rowMajor_val_two]
  rfl

end Cert.KernelIdeal.Hand

end
-- ==== Proof.Algebra.lean ====
/-
  The two arrangements of the layer agree on real inputs.

  The sum over the 128 stacked rows splits into the stretches [0,8), [8,24), [24,56), [56,128). On each of the
  first three the stacked factors are one adapter's factors and the per-row factor is that adapter's gain times the
  scaling; the last stretch is a sum of zeros. Then, with every entry a real number,

      Σ_r ((Σ_d x_d · A[r,d]) · (α · h)) · B[o,r]  =  α · (Σ_r (Σ_d x_d · A[r,d]) · B[o,r]) · h

  holds in ℝ, and distributing · h over the three adapters' terms joins the two forms.
-/
import proofs.«130097_j62697932587275_2_alg».proof.Proof.Spec
import Mathlib.Algebra.BigOperators.Fin
import Mathlib.Data.EReal.Basic
import Mathlib.Tactic.Ring

noncomputable section

namespace Cert.Lora

open Finset

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum over 128 rows, stretch by stretch: rows [0,8), [8,24), [24,56), [56,128). -/
theorem sum_split128 {M : Type*} [AddCommMonoid M] (f : Fin 128 → M) :
    ∑ r, f r = ∑ r : Fin 8, f ⟨r.val, by omega⟩ + ∑ r : Fin 16, f ⟨r.val + 8, by omega⟩
      + ∑ r : Fin 32, f ⟨r.val + 24, by omega⟩ + ∑ r : Fin 72, f ⟨r.val + 56, by omega⟩ := by
  have e := Fin.sum_univ_add (a := 8 + 16 + 32) (b := 72) (fun i => f i)
  have e1 := Fin.sum_univ_add (a := 8 + 16) (b := 32) (fun i => f (Fin.castAdd 72 i))
  have e2 := Fin.sum_univ_add (a := 8) (b := 16) (fun i => f (Fin.castAdd 72 (Fin.castAdd 32 i)))
  rw [e1, e2] at e
  refine e.trans ?_
  congr 1

/-- One adapter's stretch in ℝ: the gain and the scaling come out of the sum over its rows. -/
theorem real_stretch {n : ℕ} (P B : Fin n → ℝ) (α h : ℝ) :
    ∑ r : Fin n, (P r * (α * h)) * B r = α * (∑ r, P r * B r) * h := by
  rw [Finset.mul_sum, Finset.sum_mul]
  refine Finset.sum_congr rfl fun r _ => ?_
  ring

/-- The same on the extended reals, for real entries. -/
theorem ereal_stretch {n : ℕ} (P B : Fin n → ℝ) (α h : ℝ) :
    ∑ r : Fin n, ((P r : EReal) * ((α : EReal) * (h : EReal))) * (B r : EReal)
      = ((α * (∑ r, P r * B r) * h : ℝ) : EReal) := by
  rw [← real_stretch, coe_sum]
  refine Finset.sum_congr rfl fun r _ => ?_
  rw [EReal.coe_mul, EReal.coe_mul, EReal.coe_mul]

/-- A projection of a real row by a real factor row is the coercion of the real projection. -/
theorem proj_coe {n : ℕ} (x A : Fin n → EReal) (x' A' : Fin n → ℝ)
    (hx : ∀ d, x d = (x' d : EReal)) (hA : ∀ d, A d = (A' d : EReal)) :
    ∑ d, x d * A d = ((∑ d, x' d * A' d : ℝ) : EReal) := by
  rw [coe_sum]
  exact Finset.sum_congr rfl fun d _ => by rw [hx, hA, EReal.coe_mul]

/-- One adapter's contribution on real entries is the coercion of the real contribution. -/
theorem lora_coe {n k : ℕ} (x : Fin n → EReal) (A : Fin k → Fin n → EReal) (B : Fin k → EReal)
    (x' : Fin n → ℝ) (A' : Fin k → Fin n → ℝ) (B' : Fin k → ℝ)
    (hx : ∀ d, x d = (x' d : EReal)) (hA : ∀ r d, A r d = (A' r d : EReal)) (hB : ∀ r, B r = (B' r : EReal)) :
    ∑ r, (∑ d, x d * A r d) * B r = ((∑ r, (∑ d, x' d * A' r d) * B' r : ℝ) : EReal) := by
  rw [coe_sum]
  exact Finset.sum_congr rfl fun r _ => by rw [proj_coe x (A r) x' (A' r) hx (hA r), hB, EReal.coe_mul]

/-- One adapter's stretch of the stacked sum on real entries: the gain and the scaling come out. -/
theorem stretch_coe {n k : ℕ} (x : Fin n → EReal) (A : Fin k → Fin n → EReal) (B : Fin k → EReal) (α h : EReal)
    (x' : Fin n → ℝ) (A' : Fin k → Fin n → ℝ) (B' : Fin k → ℝ) (α' h' : ℝ)
    (hx : ∀ d, x d = (x' d : EReal)) (hA : ∀ r d, A r d = (A' r d : EReal)) (hB : ∀ r, B r = (B' r : EReal))
    (hα : α = (α' : EReal)) (hh : h = (h' : EReal)) :
    ∑ r, ((∑ d, x d * A r d) * (α * h)) * B r
      = ((α' * (∑ r, (∑ d, x' d * A' r d) * B' r) * h' : ℝ) : EReal) := by
  rw [← ereal_stretch (fun r => ∑ d, x' d * A' r d) B' α' h']
  exact Finset.sum_congr rfl fun r _ => by rw [proj_coe x (A r) x' (A' r) hx (hA r), hB, hα, hh]

/-- The three adapters' terms joined: distributing the scaling over the sum of the gained contributions. -/
theorem ereal_join (α0 L0 α1 L1 α2 L2 h : ℝ) :
    ((α0 * L0 * h : ℝ) : EReal) + ((α1 * L1 * h : ℝ) : EReal) + ((α2 * L2 * h : ℝ) : EReal) + 0
      = (((0 + (α0 : EReal) * (L0 : EReal)) + (α1 : EReal) * (L1 : EReal)) + (α2 : EReal) * (L2 : EReal))
          * (h : EReal) := by
  rw [add_zero, zero_add, ← EReal.coe_mul, ← EReal.coe_mul, ← EReal.coe_mul, ← EReal.coe_add, ← EReal.coe_add,
    ← EReal.coe_add, ← EReal.coe_add, ← EReal.coe_mul]
  congr 1
  ring

variable (a : Args)

/-! The stacked factors on each stretch. -/

theorem Acat_0 (r : Fin 8) (hr : r.val < 128) (d : Fin 4096) : Acat a ⟨r.val, hr⟩ d = a.A8 r d := by
  have h8 : (⟨r.val, hr⟩ : Fin 128).val < 8 := r.isLt
  unfold Acat
  rw [dif_pos h8]

theorem Bcat_0 (o : Fin 4096) (r : Fin 8) (hr : r.val < 128) : Bcat a o ⟨r.val, hr⟩ = a.B8 o r := by
  have h8 : (⟨r.val, hr⟩ : Fin 128).val < 8 := r.isLt
  unfold Bcat
  rw [dif_pos h8]

theorem scale_0 (r : Fin 8) (hr : r.val < 128) : scale a ⟨r.val, hr⟩ = a.al 0 * a.hf := by
  have h8 : (⟨r.val, hr⟩ : Fin 128).val < 8 := r.isLt
  unfold scale
  rw [if_pos h8]

theorem Acat_1 (r : Fin 16) (hr : r.val + 8 < 128) (d : Fin 4096) : Acat a ⟨r.val + 8, hr⟩ d = a.A16 r d := by
  have h8 : ¬ (⟨r.val + 8, hr⟩ : Fin 128).val < 8 := by show ¬ (r.val + 8 < 8); omega
  have h24 : (⟨r.val + 8, hr⟩ : Fin 128).val < 24 := by show r.val + 8 < 24; omega
  unfold Acat
  rw [dif_neg h8, dif_pos h24]
  exact congrArg (fun i => a.A16 i d) (Fin.ext (Nat.add_sub_cancel r.val 8))

theorem Bcat_1 (o : Fin 4096) (r : Fin 16) (hr : r.val + 8 < 128) : Bcat a o ⟨r.val + 8, hr⟩ = a.B16 o r := by
  have h8 : ¬ (⟨r.val + 8, hr⟩ : Fin 128).val < 8 := by show ¬ (r.val + 8 < 8); omega
  have h24 : (⟨r.val + 8, hr⟩ : Fin 128).val < 24 := by show r.val + 8 < 24; omega
  unfold Bcat
  rw [dif_neg h8, dif_pos h24]
  exact congrArg (fun i => a.B16 o i) (Fin.ext (Nat.add_sub_cancel r.val 8))

theorem scale_1 (r : Fin 16) (hr : r.val + 8 < 128) : scale a ⟨r.val + 8, hr⟩ = a.al 1 * a.hf := by
  have h8 : ¬ (⟨r.val + 8, hr⟩ : Fin 128).val < 8 := by show ¬ (r.val + 8 < 8); omega
  have h24 : (⟨r.val + 8, hr⟩ : Fin 128).val < 24 := by show r.val + 8 < 24; omega
  unfold scale
  rw [if_neg h8, if_pos h24]

theorem Acat_2 (r : Fin 32) (hr : r.val + 24 < 128) (d : Fin 4096) : Acat a ⟨r.val + 24, hr⟩ d = a.A32 r d := by
  have h8 : ¬ (⟨r.val + 24, hr⟩ : Fin 128).val < 8 := by show ¬ (r.val + 24 < 8); omega
  have h24 : ¬ (⟨r.val + 24, hr⟩ : Fin 128).val < 24 := by show ¬ (r.val + 24 < 24); omega
  have h56 : (⟨r.val + 24, hr⟩ : Fin 128).val < 56 := by show r.val + 24 < 56; omega
  unfold Acat
  rw [dif_neg h8, dif_neg h24, dif_pos h56]
  exact congrArg (fun i => a.A32 i d) (Fin.ext (Nat.add_sub_cancel r.val 24))

theorem Bcat_2 (o : Fin 4096) (r : Fin 32) (hr : r.val + 24 < 128) : Bcat a o ⟨r.val + 24, hr⟩ = a.B32 o r := by
  have h8 : ¬ (⟨r.val + 24, hr⟩ : Fin 128).val < 8 := by show ¬ (r.val + 24 < 8); omega
  have h24 : ¬ (⟨r.val + 24, hr⟩ : Fin 128).val < 24 := by show ¬ (r.val + 24 < 24); omega
  have h56 : (⟨r.val + 24, hr⟩ : Fin 128).val < 56 := by show r.val + 24 < 56; omega
  unfold Bcat
  rw [dif_neg h8, dif_neg h24, dif_pos h56]
  exact congrArg (fun i => a.B32 o i) (Fin.ext (Nat.add_sub_cancel r.val 24))

theorem scale_2 (r : Fin 32) (hr : r.val + 24 < 128) : scale a ⟨r.val + 24, hr⟩ = a.al 2 * a.hf := by
  have h8 : ¬ (⟨r.val + 24, hr⟩ : Fin 128).val < 8 := by show ¬ (r.val + 24 < 8); omega
  have h24 : ¬ (⟨r.val + 24, hr⟩ : Fin 128).val < 24 := by show ¬ (r.val + 24 < 24); omega
  have h56 : (⟨r.val + 24, hr⟩ : Fin 128).val < 56 := by show r.val + 24 < 56; omega
  unfold scale
  rw [if_neg h8, if_neg h24, if_pos h56]

theorem Bcat_3 (o : Fin 4096) (r : Fin 72) (hr : r.val + 56 < 128) : Bcat a o ⟨r.val + 56, hr⟩ = 0 := by
  have h8 : ¬ (⟨r.val + 56, hr⟩ : Fin 128).val < 8 := by show ¬ (r.val + 56 < 8); omega
  have h24 : ¬ (⟨r.val + 56, hr⟩ : Fin 128).val < 24 := by show ¬ (r.val + 56 < 24); omega
  have h56 : ¬ (⟨r.val + 56, hr⟩ : Fin 128).val < 56 := by show ¬ (r.val + 56 < 56); omega
  unfold Bcat
  rw [dif_neg h8, dif_neg h24, dif_neg h56]

/-- The stacked sum, stretch by stretch, with each stretch in its adapter's own factors. -/
theorem stacked_split (b : Fin 4) (s : Fin 2048) (o : Fin 4096) :
    ∑ r : Fin 128, ((∑ d : Fin 4096, a.x b s d * Acat a r d) * scale a r) * Bcat a o r
      = ∑ r : Fin 8, ((∑ d : Fin 4096, a.x b s d * a.A8 r d) * (a.al 0 * a.hf)) * a.B8 o r
        + ∑ r : Fin 16, ((∑ d : Fin 4096, a.x b s d * a.A16 r d) * (a.al 1 * a.hf)) * a.B16 o r
        + ∑ r : Fin 32, ((∑ d : Fin 4096, a.x b s d * a.A32 r d) * (a.al 2 * a.hf)) * a.B32 o r
        + 0 := by
  rw [sum_split128]
  refine congrArg₂ (· + ·) (congrArg₂ (· + ·) (congrArg₂ (· + ·) ?_ ?_) ?_) ?_
  · exact Finset.sum_congr rfl fun r _ => by simp only [Acat_0, scale_0, Bcat_0]
  · exact Finset.sum_congr rfl fun r _ => by simp only [Acat_1, scale_1, Bcat_1]
  · exact Finset.sum_congr rfl fun r _ => by simp only [Acat_2, scale_2, Bcat_2]
  · exact Finset.sum_eq_zero fun r _ => by rw [Bcat_3, mul_zero]

/-- The stacked arrangement equals the adapter-by-adapter one when every entry is a real number. -/
theorem kerForm_eq_refForm (a : Args) (h : a.Finite) (b : Fin 4) (s : Fin 2048) (o : Fin 4096) :
    kerForm a b s o = refForm a b s o := by
  obtain ⟨hx, _, hA8, hB8, hA16, hB16, hA32, hB32, hal, hhf⟩ := h
  choose x' hx using hx
  choose A8' hA8 using hA8
  choose B8' hB8 using hB8
  choose A16' hA16 using hA16
  choose B16' hB16 using hB16
  choose A32' hA32 using hA32
  choose B32' hB32 using hB32
  choose al' hal using hal
  obtain ⟨hf', hhf⟩ := hhf
  unfold kerForm refForm lora8 lora16 lora32
  rw [stacked_split,
    stretch_coe (a.x b s) a.A8 (a.B8 o) (a.al 0) a.hf (x' b s) A8' (B8' o) (al' 0) hf'
      (hx b s) hA8 (hB8 o) (hal 0) hhf,
    stretch_coe (a.x b s) a.A16 (a.B16 o) (a.al 1) a.hf (x' b s) A16' (B16' o) (al' 1) hf'
      (hx b s) hA16 (hB16 o) (hal 1) hhf,
    stretch_coe (a.x b s) a.A32 (a.B32 o) (a.al 2) a.hf (x' b s) A32' (B32' o) (al' 2) hf'
      (hx b s) hA32 (hB32 o) (hal 2) hhf,
    lora_coe (a.x b s) a.A8 (a.B8 o) (x' b s) A8' (B8' o) (hx b s) hA8 (hB8 o),
    lora_coe (a.x b s) a.A16 (a.B16 o) (x' b s) A16' (B16' o) (hx b s) hA16 (hB16 o),
    lora_coe (a.x b s) a.A32 (a.B32 o) (x' b s) A32' (B32' o) (hx b s) hA32 (hB32 o),
    hal 0, hal 1, hal 2, hhf, ereal_join]

end Cert.Lora

end
-- ==== Proof.Finite.lean ====
/-
  The precondition read back: every entry of the nine inputs is a real number, and the scaling 1/2 is one.

  The printed precondition is the conjunction of nine conditions, one per input array a: the reduction by "and" over
  every entry of the comparison |a| < +∞. That the whole is 1 makes each conjunct 1, a reduction by "and" that is 1
  met only 1s, and |x| = max x (-x) < ⊤ on the extended reals leaves only x a real number.
-/
import proofs.«130097_j62697932587275_2_alg».proof.Defs
import proofs.«130097_j62697932587275_2_alg».proof.Proof.KI.Args
import Idealize.ShloMosaic.Lib.ReduceAll
import Idealize.ShloMosaic.Lib.ValueIdx

noncomputable section

namespace Cert.KernelIdeal.Hand

open Idealize.ShloMosaic Idealize.SL.Sem Idealize.ShloMosaic.ValueIdx

/-- The pattern 0x7F800000 denotes +∞. -/
theorem inf_top : Ideal.ofBits .f32 0x7F800000#32 = (⊤ : EReal) := by
  simp [Ideal.ofBits, Ideal.ieee]

/-- The pattern 0x3F000000 denotes the real 1/2. -/
theorem half_eq : Ideal.ofBits .f32 0x3F000000#32 = ((1 / 2 : ℝ) : EReal) := by
  simp [Ideal.ofBits, Ideal.ieee, -EReal.coe_mul]; norm_num

/-- The scaling's literal denotes a real number. -/
theorem half_real : ∃ v : ℝ, Ideal.ofBits .f32 0x3F000000#32 = (v : EReal) := ⟨_, half_eq⟩

/-- An extended real whose absolute value is below +∞ is a real number. -/
theorem real_of_abs_lt_top (x : EReal) (h : max x (-x) < ⊤) : ∃ v : ℝ, x = (v : EReal) := by
  induction x using EReal.rec with
  | bot => simp at h
  | coe v => exact ⟨v, rfl⟩
  | top => simp at h

/-- The scalar shape has one index. -/
instance : Subsingleton Cert.Pre_finite_inputs.S_.Idx := ⟨fun a b => funext fun d => d.elim0⟩

/-- One conjunct of the precondition: if the reduction by "and" of |a| < +∞ over every entry of a is 1, every entry
    of a is a real number. -/
theorem all_finite {s : Shape} {axes : List (Fin s.rank)} (a : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf (F := Ideal) (φ := .f32) a)
            (broadcastInDim s ![] hb (constant (F := Ideal) Cert.Pre_finite_inputs.S_ .f32 0x7F800000#32)))
          (constantI Cert.Pre_finite_inputs.S_ 1 1#1) hr hu ix0 = 1#1)
    (i : s.Idx) : ∃ v : ℝ, a i = (v : EReal) := by
  have h1 := Host.reduce_andi_all _ _ hr hu ix0 e i
  have h2 : BitVec.ofBool (decide (max (a i) (-(a i)) < Ideal.ofBits .f32 0x7F800000#32)) = 1#1 := h1
  rw [inf_top] at h2
  refine real_of_abs_lt_top _ ?_
  by_contra hn
  rw [decide_eq_false hn] at h2
  exact absurd h2 (by decide)

/-- Under the precondition every entry of the nine inputs, and the scaling, is a real number. -/
theorem finite_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) : (argsOf m c).Finite := by
  have h := congrFun (hpre c) ix0
  dsimp only [Cert.Pre_finite_inputs.fn, Cert.Pre_finite_inputs.fn_part1, Cert.Pre_finite_inputs.fn_part2,
    Idealize.ShloMosaic.andi] at h
  obtain ⟨h, e8⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  exact {
    x := fun b s d => all_finite _ _ _ _ e0 (ix3 b s d)
    W := fun o d => all_finite _ _ _ _ e1 (ix2 o d)
    A8 := fun r d => all_finite _ _ _ _ e2 (ix2 r d)
    B8 := fun o r => all_finite _ _ _ _ e3 (ix2 o r)
    A16 := fun r d => all_finite _ _ _ _ e4 (ix2 r d)
    B16 := fun o r => all_finite _ _ _ _ e5 (ix2 o r)
    A32 := fun r d => all_finite _ _ _ _ e6 (ix2 r d)
    B32 := fun o r => all_finite _ _ _ _ e7 (ix2 o r)
    al := fun i => all_finite _ _ _ _ e8 (ix1 i)
    hf := half_real }

end Cert.KernelIdeal.Hand

end
-- ==== Proof.KI.Value.lean ====
/-
  The idealized kernel program's result, entry by entry. The fold of the buffers' contents ends, at the result, in the
  last reshape of what the second region leaves; that is the base product plus the rank-128 product of what the first
  region leaves with the stacked expansion; the first region leaves the input rows unchanged and their projection by
  the stacked table, scaled row by row; and the host stretches before the regions build the stacked tables. Together:
  the specification's stacked form, which the algebra joins to the adapter-by-adapter form when the inputs are finite.
-/
import proofs.«130097_j62697932587275_2_alg».proof.Proof.KI.Both
import proofs.«130097_j62697932587275_2_alg».proof.Proof.KI.Region0Value
import proofs.«130097_j62697932587275_2_alg».proof.Proof.KI.Region1Value
import proofs.«130097_j62697932587275_2_alg».proof.Proof.KI.HostVals
import proofs.«130097_j62697932587275_2_alg».proof.Proof.Algebra
import proofs.«130097_j62697932587275_2_alg».proof.Proof.Finite

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

/-- Row `p` of the flattened batch is row `p % 2048` of batch entry `p / 2048`. -/
abbrev rowB (p : Fin 8192) : Fin 4 := ⟨p.val / 2048, by have := p.isLt; omega⟩
abbrev rowS (p : Fin 8192) : Fin 2048 := ⟨p.val % 2048, Nat.mod_lt _ (by norm_num)⟩

/-! ## What the second region finds -/

/-- The first region leaves the input rows, recast, unchanged. -/
theorem e8_x (p : Fin 8192) (d : Fin 4096) :
    (E8 region0 m c main_v23_1 : S8192x4096.Idx → EReal) (ix2 p d) = (argsOf m c).x (rowB p) (rowS p) d := by
  have h : (E8 region0 m c main_v23_1 : S8192x4096.Idx → EReal) = (dat0 (F := Ideal) (E7 m) c).arrAt 4 cfg0.N :=
    W8_arr region0 m c 4
  rw [h, arrAt0_4]
  exact hv0 m c p d

/-- The base matrix, recast, passes through the first region. -/
theorem e8_W (o d : Fin 4096) :
    (E8 region0 m c main_v22 : S4096x4096.Idx → EReal) (ix2 o d) = (argsOf m c).W o d := by
  have h : (E8 region0 m c main_v22 : S4096x4096.Idx → EReal) = V7 m c main_v22 := W8_of_ne region0 m c main_v22 (by decide)
  rw [h]; exact hv22 m c o d

/-- So does the stacked expansion. -/
theorem e8_B (o : Fin 4096) (r : Fin 128) :
    (E8 region0 m c main_v21 : S4096x128.Idx → EReal) (ix2 o r) = Cert.Lora.Bcat (argsOf m c) o r := by
  have h : (E8 region0 m c main_v21 : S4096x128.Idx → EReal) = V7 m c main_v21 := W8_of_ne region0 m c main_v21 (by decide)
  rw [h]; exact hv21 m c o r

/-- The first region leaves each row's projection by the stacked table, scaled row by row. -/
theorem e8_low (p : Fin 8192) (r : Fin 128) :
    (E8 region0 m c main_v23_0 : S8192x128.Idx → EReal) (ix2 p r)
      = (∑ d : Fin 4096, (argsOf m c).x (rowB p) (rowS p) d * Cert.Lora.Acat (argsOf m c) r d) * Cert.Lora.scale (argsOf m c) r := by
  have h : (E8 region0 m c main_v23_0 : S8192x128.Idx → EReal) = (dat0 (F := Ideal) (E7 m) c).arrAt 3 cfg0.N :=
    W8_arr region0 m c 3
  rw [h, arrAt0_3]
  have key : ∀ (x : S8192x4096.Idx → EReal) (A : S128x4096.Idx → EReal) (sc : S1x128.Idx → EReal),
      (∀ d : Fin 4096, x (ix2 p d) = (argsOf m c).x (rowB p) (rowS p) d) →
      (∀ d : Fin 4096, A (ix2 r d) = Cert.Lora.Acat (argsOf m c) r d) →
      sc (ix2 0 r) = Cert.Lora.scale (argsOf m c) r →
      lowScaledAt x A sc p r
        = (∑ d : Fin 4096, (argsOf m c).x (rowB p) (rowS p) d * Cert.Lora.Acat (argsOf m c) r d) * Cert.Lora.scale (argsOf m c) r := by
    intro x A sc hx hA hs
    unfold lowScaledAt
    rw [hs, Finset.sum_congr rfl fun d _ => by rw [hx d, hA d]]
  exact key _ _ _ (fun d => hv0 m c p d) (fun d => hv20 m c r d) (hv19 m c r)

/-! ## The result -/

/-- What the second region leaves, at row `p` and column `o`: the stacked form. -/
theorem w9_out (p : Fin 8192) (o : Fin 4096) :
    (W9 region0 region1 m c main_v24 : S8192x4096.Idx → EReal) (ix2 p o) = Cert.Lora.kerForm (argsOf m c) (rowB p) (rowS p) o := by
  have h : (W9 region0 region1 m c main_v24 : S8192x4096.Idx → EReal) = (dat1 (F := Ideal) (E8 region0 m) c).arrAt 4 cfg1.N :=
    W9_arr region0 region1 m c 4
  rw [h, arrAt1_4]
  have key : ∀ (X : S8192x4096.Idx → EReal) (W : S4096x4096.Idx → EReal) (L : S8192x128.Idx → EReal) (B : S4096x128.Idx → EReal),
      (∀ d : Fin 4096, X (ix2 p d) = (argsOf m c).x (rowB p) (rowS p) d) →
      (∀ d : Fin 4096, W (ix2 o d) = (argsOf m c).W o d) →
      (∀ r : Fin 128, L (ix2 p r)
        = (∑ d : Fin 4096, (argsOf m c).x (rowB p) (rowS p) d * Cert.Lora.Acat (argsOf m c) r d) * Cert.Lora.scale (argsOf m c) r) →
      (∀ r : Fin 128, B (ix2 o r) = Cert.Lora.Bcat (argsOf m c) o r) →
      (∑ d : Fin 4096, X (ix2 p d) * W (ix2 o d)) + ∑ r : Fin 128, L (ix2 p r) * B (ix2 o r)
        = Cert.Lora.kerForm (argsOf m c) (rowB p) (rowS p) o := by
    intro X W L B hX hW hL hB
    have h1 : (∑ d : Fin 4096, X (ix2 p d) * W (ix2 o d))
        = ∑ d : Fin 4096, (argsOf m c).x (rowB p) (rowS p) d * (argsOf m c).W o d :=
      Finset.sum_congr rfl fun d _ => by rw [hX d, hW d]
    have h2 : (∑ r : Fin 128, L (ix2 p r) * B (ix2 o r))
        = ∑ r : Fin 128, ((∑ d : Fin 4096, (argsOf m c).x (rowB p) (rowS p) d * Cert.Lora.Acat (argsOf m c) r d)
            * Cert.Lora.scale (argsOf m c) r) * Cert.Lora.Bcat (argsOf m c) o r :=
      Finset.sum_congr rfl fun r _ => by rw [hL r, hB r]
    rw [h1, h2]
    rfl
  exact key (X1 (E8 region0 m) c) (W1 (E8 region0 m) c) (L1 (E8 region0 m) c) (B1 (E8 region0 m) c)
    (fun d => e8_x m c p d) (fun d => e8_W m c o d) (fun r => e8_low m c p r) (fun r => e8_B m c o r)

/-- The program's result at batch entry `b`, row `s`, column `o`: the stacked form. -/
theorem result_ker (b : Fin 4) (s : Fin 2048) (o : Fin 4096) :
    (W10 region0 region1 m c main_v25 : S4x2048x4096.Idx → EReal) (ix3 b s o) = Cert.Lora.kerForm (argsOf m c) b s o := by
  have hrow : ∀ q : Fin 8192, q.val = b.val * 2048 + s.val →
      Cert.Lora.kerForm (argsOf m c) (rowB q) (rowS q) o = Cert.Lora.kerForm (argsOf m c) b s o := by
    intro q hq
    have hb : rowB q = b := Fin.ext (by show q.val / 2048 = b.val; have := s.isLt; omega)
    have hs : rowS q = s := Fin.ext (by show q.val % 2048 = s.val; have := s.isLt; omega)
    rw [hb, hs]
  exact (hv25 (W9 region0 region1 m c) b s o).trans ((w9_out m c _ o).trans (hrow _ rfl))

/-- Under the precondition (every input finite) the result is the adapter-by-adapter form. -/
theorem result_ref [Cert.Pre_finite_inputs.Facts] (hpre : Cert.Pre_KernelIdeal m) :
    (W10 region0 region1 m c main_v25 : S4x2048x4096.Idx → EReal)
      = fun i => Cert.Lora.refForm (argsOf m c) (i 0) (i 1) (i 2) := by
  funext i
  obtain ⟨b, s, o, rfl⟩ : ∃ (b : Fin 4) (s : Fin 2048) (o : Fin 4096), i = ix3 b s o := ⟨i 0, i 1, i 2, eq_ix3 i⟩
  exact (result_ker m c b s o).trans (Cert.Lora.kerForm_eq_refForm _ (finite_of_pre m hpre c) b s o)

end Cert.KernelIdeal.Hand

end
-- ==== Proof.RefArgs.lean ====
/-
  The layer's nine inputs read off a memory of this program on one core, with the scaling 1/2 the program's literal.
-/
import proofs.«130097_j62697932587275_2_alg».proof.ReferenceIdeal
import proofs.«130097_j62697932587275_2_alg».proof.Proof.Spec
import Idealize.ShloMosaic.PureOps.Ideal

noncomputable section

namespace Cert.ReferenceIdeal.RefValue

open Idealize.ShloMosaic Idealize.SL.Sem Cert.ReferenceIdeal

/-- The inputs as the memory `m` holds them on core `c`. -/
def argsOf (m : (ℓ : Loc nD τ sig) → Buf (Elt Ideal) ℓ) (c : Dev nD) : Cert.Lora.Args :=
  Cert.Lora.Args.ofArrays
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (Ideal.ofBits .f32 0x3F000000#32)

end Cert.ReferenceIdeal.RefValue

end
-- ==== Proof.RefValue.lean ====
/-
  What the reference program computes. Its result array, index by index, is the layer's value in the
  adapter-by-adapter arrangement (`Cert.Lora.refForm`): the base product x·Wᵀ plus, scaled by the literal 1/2, the sum
  from zero of gain_i · ((x·A_iᵀ)·B_iᵀ) over the three adapters; its nine argument arrays end as they were.
  The program's term is read one operation at a time: each product of two arrays is a sum over its one contracted
  coordinate, each gain is one entry of the three-entry array (sliced out, reshaped to a scalar, broadcast), the two
  literals are the word of zero, which is the extended real 0, and the word of 1/2, which stays as it is on both sides.
-/
import proofs.«130097_j62697932587275_2_alg».proof.Defs
import proofs.«130097_j62697932587275_2_alg».proof.Proof.Gen.ReferenceIdeal.Read
import proofs.«130097_j62697932587275_2_alg».proof.Proof.RefArgs

noncomputable section

namespace Cert.ReferenceIdeal.RefValue

open Idealize.ShloMosaic Idealize.ShloMosaic.ValueIdx Idealize.SL.Sem Cert.ReferenceIdeal

/-! ## The gains: entry `k` of the three-entry array, sliced out, reshaped to a scalar -/

theorem gain0 (x8 : (⟨S3, .f32⟩ : BufTy).Contents (Elt Ideal)) (j : S_.Idx) : Read.val_main_v5 (F := Ideal) x8 j = x8 (ix1 0) := by
  unfold Read.val_main_v5
  rw [shapeCast_apply (Read.val_main_v4 (F := Ideal) x8) Gen.shapeCasts_S1_S_ j (ix1 0) (by
    rw [Shape.rowMajor_val_one]; exact (Shape.rowMajorPi_zero _ _).symm), Read.val_main_v4_apply]
  exact congrArg x8 (funext fun a => match a with | ⟨0, _⟩ => rfl)
theorem gain1 (x8 : (⟨S3, .f32⟩ : BufTy).Contents (Elt Ideal)) (j : S_.Idx) : Read.val_main_v12 (F := Ideal) x8 j = x8 (ix1 1) := by
  unfold Read.val_main_v12
  rw [shapeCast_apply (Read.val_main_v11 (F := Ideal) x8) Gen.shapeCasts_S1_S_ j (ix1 0) (by
    rw [Shape.rowMajor_val_one]; exact (Shape.rowMajorPi_zero _ _).symm), Read.val_main_v11_apply]
  exact congrArg x8 (funext fun a => match a with | ⟨0, _⟩ => rfl)
theorem gain2 (x8 : (⟨S3, .f32⟩ : BufTy).Contents (Elt Ideal)) (j : S_.Idx) : Read.val_main_v19 (F := Ideal) x8 j = x8 (ix1 2) := by
  unfold Read.val_main_v19
  rw [shapeCast_apply (Read.val_main_v18 (F := Ideal) x8) Gen.shapeCasts_S1_S_ j (ix1 0) (by
    rw [Shape.rowMajor_val_one]; exact (Shape.rowMajorPi_zero _ _).symm), Read.val_main_v18_apply]
  exact congrArg x8 (funext fun a => match a with | ⟨0, _⟩ => rfl)

/-! ## The operand indices of the seven products, by coordinates -/

theorem lidx_v0 (b : Fin 4) (s : Fin 2048) (o : Fin 4096) (k : Fin 4096) : Read.lidx_main_v0 (ix3 b s o) k = ix3 b s k :=
  funext fun a => match a with | ⟨0, _⟩ => rfl | ⟨1, _⟩ => rfl | ⟨2, _⟩ => rfl
theorem ridx_v0 (b : Fin 4) (s : Fin 2048) (o : Fin 4096) (k : Fin 4096) : Read.ridx_main_v0 (ix3 b s o) k = ix2 o k :=
  funext fun a => match a with | ⟨0, _⟩ => rfl | ⟨1, _⟩ => rfl
theorem lidx_v3 (b : Fin 4) (s : Fin 2048) (o : Fin 4096) (k : Fin 8) : Read.lidx_main_v3 (ix3 b s o) k = ix3 b s k :=
  funext fun a => match a with | ⟨0, _⟩ => rfl | ⟨1, _⟩ => rfl | ⟨2, _⟩ => rfl
theorem ridx_v3 (b : Fin 4) (s : Fin 2048) (o : Fin 4096) (k : Fin 8) : Read.ridx_main_v3 (ix3 b s o) k = ix2 o k :=
  funext fun a => match a with | ⟨0, _⟩ => rfl | ⟨1, _⟩ => rfl
theorem lidx_v10 (b : Fin 4) (s : Fin 2048) (o : Fin 4096) (k : Fin 16) : Read.lidx_main_v10 (ix3 b s o) k = ix3 b s k :=
  funext fun a => match a with | ⟨0, _⟩ => rfl | ⟨1, _⟩ => rfl | ⟨2, _⟩ => rfl
theorem ridx_v10 (b : Fin 4) (s : Fin 2048) (o : Fin 4096) (k : Fin 16) : Read.ridx_main_v10 (ix3 b s o) k = ix2 o k :=
  funext fun a => match a with | ⟨0, _⟩ => rfl | ⟨1, _⟩ => rfl
theorem lidx_v17 (b : Fin 4) (s : Fin 2048) (o : Fin 4096) (k : Fin 32) : Read.lidx_main_v17 (ix3 b s o) k = ix3 b s k :=
  funext fun a => match a with | ⟨0, _⟩ => rfl | ⟨1, _⟩ => rfl | ⟨2, _⟩ => rfl
theorem ridx_v17 (b : Fin 4) (s : Fin 2048) (o : Fin 4096) (k : Fin 32) : Read.ridx_main_v17 (ix3 b s o) k = ix2 o k :=
  funext fun a => match a with | ⟨0, _⟩ => rfl | ⟨1, _⟩ => rfl
theorem lidx_v2 (b : Fin 4) (s : Fin 2048) (r : Fin 8) (d : Fin 4096) : Read.lidx_main_v2 (ix3 b s r) d = ix3 b s d :=
  funext fun a => match a with | ⟨0, _⟩ => rfl | ⟨1, _⟩ => rfl | ⟨2, _⟩ => rfl
theorem ridx_v2 (b : Fin 4) (s : Fin 2048) (r : Fin 8) (d : Fin 4096) : Read.ridx_main_v2 (ix3 b s r) d = ix2 r d :=
  funext fun a => match a with | ⟨0, _⟩ => rfl | ⟨1, _⟩ => rfl
theorem lidx_v9 (b : Fin 4) (s : Fin 2048) (r : Fin 16) (d : Fin 4096) : Read.lidx_main_v9 (ix3 b s r) d = ix3 b s d :=
  funext fun a => match a with | ⟨0, _⟩ => rfl | ⟨1, _⟩ => rfl | ⟨2, _⟩ => rfl
theorem ridx_v9 (b : Fin 4) (s : Fin 2048) (r : Fin 16) (d : Fin 4096) : Read.ridx_main_v9 (ix3 b s r) d = ix2 r d :=
  funext fun a => match a with | ⟨0, _⟩ => rfl | ⟨1, _⟩ => rfl
theorem lidx_v16 (b : Fin 4) (s : Fin 2048) (r : Fin 32) (d : Fin 4096) : Read.lidx_main_v16 (ix3 b s r) d = ix3 b s d :=
  funext fun a => match a with | ⟨0, _⟩ => rfl | ⟨1, _⟩ => rfl | ⟨2, _⟩ => rfl
theorem ridx_v16 (b : Fin 4) (s : Fin 2048) (r : Fin 32) (d : Fin 4096) : Read.ridx_main_v16 (ix3 b s r) d = ix2 r d :=
  funext fun a => match a with | ⟨0, _⟩ => rfl | ⟨1, _⟩ => rfl

/-! ## The last stage at an index is the layer's value, adapter by adapter -/

theorem val_at (x0 : (⟨S4x2048x4096, .f32⟩ : BufTy).Contents (Elt Ideal)) (x1 : (⟨S4096x4096, .f32⟩ : BufTy).Contents (Elt Ideal))
    (x2 : (⟨S8x4096, .f32⟩ : BufTy).Contents (Elt Ideal)) (x3 : (⟨S4096x8, .f32⟩ : BufTy).Contents (Elt Ideal))
    (x4 : (⟨S16x4096, .f32⟩ : BufTy).Contents (Elt Ideal)) (x5 : (⟨S4096x16, .f32⟩ : BufTy).Contents (Elt Ideal))
    (x6 : (⟨S32x4096, .f32⟩ : BufTy).Contents (Elt Ideal)) (x7 : (⟨S4096x32, .f32⟩ : BufTy).Contents (Elt Ideal))
    (x8 : (⟨S3, .f32⟩ : BufTy).Contents (Elt Ideal)) (b : Fin 4) (s : Fin 2048) (o : Fin 4096) :
    Read.val_main_v25 (F := Ideal) x0 x1 x2 x3 x4 x5 x6 x7 x8 (ix3 b s o)
      = Cert.Lora.refForm (Cert.Lora.Args.ofArrays x0 x1 x2 x3 x4 x5 x6 x7 x8 (Ideal.ofBits .f32 0x3F000000#32)) b s o := by
  rw [Read.val_main_v25_apply, Read.val_main_v0_apply, Read.val_main_v24_apply, Read.val_main_v22_apply, Read.val_main_v23_apply,
    Read.val_main_cst_0_apply, Read.val_main_v15_apply, Read.val_main_v21_apply, Read.val_main_v8_apply, Read.val_main_v14_apply,
    Read.val_main_v1_apply, Read.val_main_cst_apply, Read.val_main_v7_apply, Read.val_main_v6_apply, Read.val_main_v3_apply,
    Read.val_main_v13_apply, Read.val_main_v10_apply, Read.val_main_v20_apply, Read.val_main_v17_apply, gain0, gain1, gain2]
  simp only [lidx_v0, ridx_v0, lidx_v3, ridx_v3, lidx_v10, ridx_v10, lidx_v17, ridx_v17,
    Read.val_main_v2_apply, Read.val_main_v9_apply, Read.val_main_v16_apply,
    lidx_v2, ridx_v2, lidx_v9, ridx_v9, lidx_v16, ridx_v16,
    Ideal.addf_def, Ideal.mulf_def, Ideal.ofBits_def, Ideal.ofBits_zero_f32,
    Cert.Lora.refForm, Cert.Lora.base, Cert.Lora.lora8, Cert.Lora.lora16, Cert.Lora.lora32, Cert.Lora.Args.ofArrays]

/-! ## The run -/

/-- the result array of the reference, as a function of the memory -/
def result (m : (ℓ : Loc nD τ sig) → Buf (Elt Ideal) ℓ) (c : Dev nD) : Buf (Elt Ideal) ((c.tc : Thread nD τ).loc main_v25) :=
  fun i => Cert.Lora.refForm (argsOf m c) (i 0) (i 1) (i 2)

/-- Every weakly fair execution of the reference terminates with its result array at the layer's value, adapter by
    adapter, of the argument arrays, and the argument arrays as they were. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run Cert.ReferenceIdeal.defs _ _).mono (fun _ h c => ⟨(h c).1.trans ?_, (h c).2⟩)
    (Cert.ReferenceIdeal.Value.run (F := Ideal) m ρ)
  rw [Read.val_main_v25_eq]
  funext i
  exact (congrArg (Read.val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (eq_ix3 i)).trans
    (val_at _ _ _ _ _ _ _ _ _ (i 0) (i 1) (i 2))

/-- The reference runs and leaves its arguments unchanged. -/
theorem frame_ri [Cert.Pre_finite_inputs.Facts] : Cert.frame_ReferenceIdeal := fun m ρ _ =>
  (θ_run Cert.ReferenceIdeal.defs _ _).mono (fun _ h c => (h c).2) (run m ρ)

end Cert.ReferenceIdeal.RefValue

end
-- ==== Proof.lean ====
/-
  A dense layer with three low-rank adapters, computed by two tiled kernels against its plain definition.

  The kernel program stacks the three adapters' factor pairs into one pair of rank 128 (rows 56..127 zero), folds the
  gains and the common scaling 1/2 into one factor per stacked row, and runs two kernels: the first projects the
  input rows by the stacked table, accumulating over two blocks of columns, and scales the result row by row (it also
  recasts the input rows); the second accumulates the base product over eight blocks of columns and adds, at the last
  block, the rank-128 product with the stacked expansion. On the extended reals, where a change of float format is
  the identity, the result at (b, s, o) is

      Σ_d x[b,s,d]·W[o,d] + Σ_{r<128} ((Σ_d x[b,s,d]·Acat[r,d])·scale[r])·Bcat[o,r],

  the specification's stacked form. The reference computes Σ_d x·W + (Σ_i α_i·Σ_r (Σ_d x·A_i[r,d])·B_i[o,r])·(1/2)
  adapter by adapter. The two agree when every input is a real number — the sum over the stacked rows splits into
  the three adapters' stretches and a zero stretch, and distributivity moves the gains and the scaling out of the
  sums; distributivity is where the precondition (all inputs finite) is used.

  Each kernel program's frame — it terminates, nothing faults, the arguments end unchanged — comes from the same run
  that gives the result: the program as ten segments (host stretches and the two regions), the buffers' contents
  followed through them.
-/
import proofs.«130097_j62697932587275_2_alg».proof.Defs
import proofs.«130097_j62697932587275_2_alg».proof.Proof.Gen.Kernel
import proofs.«130097_j62697932587275_2_alg».proof.Proof.Gen.KernelIdeal
import proofs.«130097_j62697932587275_2_alg».proof.Proof.Gen.ReferenceIdeal
import proofs.«130097_j62697932587275_2_alg».proof.Proof.Gen.Pre_finite_inputs
import proofs.«130097_j62697932587275_2_alg».proof.Proof.K.Both
import proofs.«130097_j62697932587275_2_alg».proof.Proof.KI.Value
import proofs.«130097_j62697932587275_2_alg».proof.Proof.RefValue
import Idealize.ShloMosaic.Adequacy
import Idealize.ShloMosaic.Init

set_option maxRecDepth 16384

noncomputable section

namespace Cert.Proof

open Idealize.ShloMosaic Idealize.SL.Sem

instance : Cert.Pre_finite_inputs.Facts := Cert.Pre_finite_inputs.Gen.facts

/-- The word-level kernel program runs to the end, faults nowhere and leaves its arguments unchanged. -/
theorem frame_k : Cert.frame_Kernel (hKernel := Cert.Kernel.Gen.facts) (hPre_finite_inputs := Cert.Pre_finite_inputs.Gen.facts) :=
  fun m ρ _ => Cert.Kernel.Hand.frame Cert.Kernel.Hand.region0 Cert.Kernel.Hand.region1 m ρ
    Cert.Kernel.Hand.region0_ok Cert.Kernel.Hand.region1_ok

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame Cert.KernelIdeal.Hand.region0 Cert.KernelIdeal.Hand.region1 m ρ
    Cert.KernelIdeal.Hand.region0_ok Cert.KernelIdeal.Hand.region1_ok

/-- From memories agreeing on the arguments the two idealized programs end with the same result: the reference's
    adapter-by-adapter value, which the kernel program's stacked value equals on finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.RefValue.result m' c, ?_, Cert.ReferenceIdeal.RefValue.run m' ρ'⟩
  refine (θ_run Cert.KernelIdeal.defs _ _).mono (fun r h c => ⟨?_,
    (h c _ (Cert.KernelIdeal.Hand.mem_uc Cert.KernelIdeal.main_arg0 (by decide))).trans (Cert.KernelIdeal.Hand.W10_main_arg0 _ _ m c),
    (h c _ (Cert.KernelIdeal.Hand.mem_uc Cert.KernelIdeal.main_arg1 (by decide))).trans (Cert.KernelIdeal.Hand.W10_main_arg1 _ _ m c),
    (h c _ (Cert.KernelIdeal.Hand.mem_uc Cert.KernelIdeal.main_arg2 (by decide))).trans (Cert.KernelIdeal.Hand.W10_main_arg2 _ _ m c),
    (h c _ (Cert.KernelIdeal.Hand.mem_uc Cert.KernelIdeal.main_arg3 (by decide))).trans (Cert.KernelIdeal.Hand.W10_main_arg3 _ _ m c),
    (h c _ (Cert.KernelIdeal.Hand.mem_uc Cert.KernelIdeal.main_arg4 (by decide))).trans (Cert.KernelIdeal.Hand.W10_main_arg4 _ _ m c),
    (h c _ (Cert.KernelIdeal.Hand.mem_uc Cert.KernelIdeal.main_arg5 (by decide))).trans (Cert.KernelIdeal.Hand.W10_main_arg5 _ _ m c),
    (h c _ (Cert.KernelIdeal.Hand.mem_uc Cert.KernelIdeal.main_arg6 (by decide))).trans (Cert.KernelIdeal.Hand.W10_main_arg6 _ _ m c),
    (h c _ (Cert.KernelIdeal.Hand.mem_uc Cert.KernelIdeal.main_arg7 (by decide))).trans (Cert.KernelIdeal.Hand.W10_main_arg7 _ _ m c),
    (h c _ (Cert.KernelIdeal.Hand.mem_uc Cert.KernelIdeal.main_arg8 (by decide))).trans (Cert.KernelIdeal.Hand.W10_main_arg8 _ _ m c)⟩)
    (Cert.KernelIdeal.Hand.run Cert.KernelIdeal.Hand.region0 Cert.KernelIdeal.Hand.region1 m ρ
      Cert.KernelIdeal.Hand.region0_ok Cert.KernelIdeal.Hand.region1_ok)
  refine (h c _ (Cert.KernelIdeal.Hand.mem_uc Cert.KernelIdeal.main_v25 (by decide))).trans ?_
  refine (Cert.KernelIdeal.Hand.result_ref m c hpre).trans ?_
  have e : Cert.ReferenceIdeal.RefValue.argsOf m' c = Cert.KernelIdeal.Hand.argsOf m c := by
    unfold Cert.ReferenceIdeal.RefValue.argsOf Cert.KernelIdeal.Hand.argsOf
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
  show _ = Cert.ReferenceIdeal.RefValue.result m' c
  unfold Cert.ReferenceIdeal.RefValue.result
  rw [e]
  rfl

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
